-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part3 {F : FTy → Type} [FloatOps F] (main_v43 : IVec S_ 1) (main_v47 : IVec S_ 1) (main_v48 : FVec F S8192 .f32) (main_cst_20 : FVec F S_ .f32) : IVec S_ 1 :=
  let main_v49 : FVec F S8192 .f32 := broadcastInDim S8192 ![] bcast_S_S8192 main_cst_20
  let main_v50 : IVec S8192 1 := cmpf .olt main_v48 main_v49
  let main_c_21 : IVec S_ 1 := constantI S_ 1 1#1
  let main_v51 : IVec S_ 1 := (fun x v => Host.reduce IntOp.andi x v reducesTo_S8192_S_d0 h_S_) main_v50 main_c_21
  let main_v52 : IVec S_ 1 := ori main_v47 main_v51
  let main_v53 : IVec S_ 1 := andi main_v43 main_v52
  main_v53

def fn_part2 {F : FTy → Type} [FloatOps F] (main_arg0 : FVec F S8192x8192 .f32) (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_cst_16 : FVec F S_ .f32 := constant S_ .f32 0xFF800000#32
  let main_v44 : FVec F S8192 .f32 := (fun x v => Host.reduce FloatOps.maximumf x v reducesTo_S8192x8192_S8192_d1 h_S_) main_arg0 main_cst_16
  let main_cst_17 : FVec F S_ .f32 := constant S_ .f32 0x00000000#32
  let main_v45 : FVec F S8192 .f32 := broadcastInDim S8192 ![] bcast_S_S8192 main_cst_17
  let main_v46 : IVec S8192 1 := cmpf .ogt main_v44 main_v45
  let main_c_18 : IVec S_ 1 := constantI S_ 1 1#1
  let main_v47 : IVec S_ 1 := (fun x v => Host.reduce IntOp.andi x v reducesTo_S8192_S_d0 h_S_) main_v46 main_c_18
  let main_cst_19 : FVec F S_ .f32 := constant S_ .f32 0xFF800000#32
  let main_v48 : FVec F S8192 .f32 := (fun x v => Host.reduce FloatOps.maximumf x v reducesTo_S8192x8192_S8192_d1 h_S_) main_arg0 main_cst_19
  let main_cst_20 : FVec F S_ .f32 := constant S_ .f32 0x00000000#32
  fn_part3 (F := F) main_v43 main_v47 main_v48 main_cst_20

def fn_part1 {F : FTy → Type} [FloatOps F] (main_arg0 : FVec F S8192x8192 .f32) (main_arg4 : FVec F S64 .f32) (main_arg5 : FVec F S64x64 .f32) (main_arg6 : FVec F S64 .f32) (main_arg7 : FVec F S64x16 .f32) (main_arg8 : FVec F S16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg7 main_arg8 main_v33

def fn {F : FTy → Type} [FloatOps F] (main_arg0 : FVec F S8192x8192 .f32) (main_arg1 : FVec F S8192x128 .f32) (main_arg2 : FVec F S8192x8192 .f32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg4 main_arg5 main_arg6 main_arg7 main_arg8 main_v13 main_v16
-- ==== Kernel.lean ====
abbrev S8192x8192 : Shape := ⟨2, ![8192, 8192]⟩
abbrev S8192x128 : Shape := ⟨2, ![8192, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x64 : Shape := ⟨2, ![1, 64]⟩
abbrev S8192x64 : Shape := ⟨2, ![8192, 64]⟩
abbrev S1024x1024 : Shape := ⟨2, ![1024, 1024]⟩
abbrev S1024x128 : Shape := ⟨2, ![1024, 128]⟩
abbrev S1024x1 : Shape := ⟨2, ![1024, 1]⟩
abbrev S1x1024 : Shape := ⟨2, ![1, 1024]⟩
abbrev S1024x64 : Shape := ⟨2, ![1024, 64]⟩
abbrev S1x16 : Shape := ⟨2, ![1, 16]⟩
abbrev S8192x16 : Shape := ⟨2, ![8192, 16]⟩
abbrev S1024x16 : Shape := ⟨2, ![1024, 16]⟩
abbrev S1024 : Shape := ⟨1, ![1024]⟩

abbrev nBuf : Space → Nat
  | .hbm => 36
  | .vmem => 32
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S8192x8192, .i32⟩
  | .hbm, ⟨15, _⟩ => ⟨S_, .i1⟩
  | .hbm, ⟨16, _⟩ => ⟨S_, .i32⟩
  | .hbm, ⟨17, _⟩ => ⟨S8192, .i1⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S1x64, .f32⟩
  | .hbm, ⟨31, _⟩ => ⟨S8192x64, .f32⟩
  | .hbm, ⟨32, _⟩ => ⟨S1x64, .f32⟩
  | .hbm, ⟨33, _⟩ => ⟨S8192x64, .f32⟩
  | .hbm, ⟨34, _⟩ => ⟨S1x16, .f32⟩
  | .hbm, ⟨35, _⟩ => ⟨S8192x16, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S128x64, .f32⟩
  | .local _ .vmem, ⟨9, _⟩ => ⟨S1x64, .f32⟩
  | .local _ .vmem, ⟨10, _⟩ => ⟨S1024x64, .f32⟩
  | .local _ .vmem, ⟨11, _⟩ => ⟨S1024x64, .f32⟩
  | .local _ .vmem, ⟨12, _⟩ => ⟨S1024x128, .f32⟩
  | .local _ .vmem, ⟨13, _⟩ => ⟨S1024x1024, .f32⟩
  | .local _ .vmem, ⟨14, _⟩ => ⟨S1024x1024, .f32⟩
  | .local _ .vmem, ⟨15, _⟩ => ⟨S1024x64, .f32⟩
  | .local _ .vmem, ⟨16, _⟩ => ⟨S1024x64, .f32⟩
  | .local _ .vmem, ⟨17, _⟩ => ⟨S1024x1, .f32⟩
  | .local _ .vmem, ⟨18, _⟩ => ⟨S1024x1, .f32⟩
  | .local _ .vmem, ⟨19, _⟩ => ⟨S1x1024, .f32⟩
  | .local _ .vmem, ⟨20, _⟩ => ⟨S1x1024, .f32⟩
  | .local _ .vmem, ⟨21, _⟩ => ⟨S64x64, .f32⟩
  | .local _ .vmem, ⟨22, _⟩ => ⟨S1x64, .f32⟩
  | .local _ .vmem, ⟨23, _⟩ => ⟨S1024x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S64x16, .f32⟩
  | .local _ .vmem, ⟨29, _⟩ => ⟨S1x16, .f32⟩
  | .local _ .vmem, ⟨30, _⟩ => ⟨S1024x16, .f32⟩
  | .local _ .vmem, ⟨31, _⟩ => ⟨S1024x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_c : Ref sig .tc := ⟨.hbm, 15, rfl⟩
abbrev main_call0_c_0 : Ref sig .tc := ⟨.hbm, 16, rfl⟩
abbrev main_call0_v1_0 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  shapeCasts_S64_S1x64 : S64.ShapeCasts S1x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  gather_S8192_S8192x1_S8192_n_0_n_n_0_1_1_wf : GatherDims.WF S8192 S8192x1 S8192 [] [0] [] [0] [] 1 ![1]
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  dot_S1024x64_S64x64_S1024x64_1_0_0_1_n_n_wf : DotDims.WF S1024x64 S64x64 S1024x64 [1] [0] [0] [1] [] []
  dot_S1024x64_S64x16_S1024x16_1_0_0_1_n_n_wf : DotDims.WF S1024x64 S64x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S8192x64.size a
  hwx1_6 : ∀ i : grid1.Coords, EltTy.bits .f32 = 32 ∨ (Rect.block (s := S8192x64) S1024x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x16.size a ≤ S8192x16.size a
  hwx2_3 : ∀ i : grid2.Coords, EltTy.bits .f32 = 32 ∨ (Rect.block (s := S8192x16) S1024x16.size (cc2_transform_3 i) (hinb2_3 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v16) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1024x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩
abbrev S1x64 : Shape := ⟨2, ![1, 64]⟩
abbrev S8192x16 : Shape := ⟨2, ![8192, 16]⟩
abbrev S1x16 : Shape := ⟨2, ![1, 16]⟩

abbrev nBuf : Space → Nat
  | .hbm => 78
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192x8192, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S8192x8192, .i32⟩
  | .hbm, ⟨15, _⟩ => ⟨S_, .i1⟩
  | .hbm, ⟨16, _⟩ => ⟨S_, .i32⟩
  | .hbm, ⟨17, _⟩ => ⟨S8192, .i1⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x128, .f32⟩
  | .hbm, ⟨36, _⟩ => ⟨S8192x64, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S_, .f32⟩
  | .hbm, ⟨41, _⟩ => ⟨S8192x64, .f32⟩
  | .hbm, ⟨42, _⟩ => ⟨S8192x64, .i1⟩
  | .hbm, ⟨43, _⟩ => ⟨S_, .f32⟩
  | .hbm, ⟨44, _⟩ => ⟨S8192x64, .f32⟩
  | .hbm, ⟨45, _⟩ => ⟨S8192x64, .f32⟩
  | .hbm, ⟨46, _⟩ => ⟨S8192x64, .f32⟩
  | .hbm, ⟨47, _⟩ => ⟨S8192x64, .f32⟩
  | .hbm, ⟨48, _⟩ => ⟨S8192x64, .f32⟩
  | .hbm, ⟨49, _⟩ => ⟨S1x64, .f32⟩
  | .hbm, ⟨50, _⟩ => ⟨S8192x64, .f32⟩
  | .hbm, ⟨51, _⟩ => ⟨S8192x64, .f32⟩
  | .hbm, ⟨52, _⟩ => ⟨S_, .f32⟩
  | .hbm, ⟨53, _⟩ => ⟨S8192x64, .f32⟩
  | .hbm, ⟨54, _⟩ => ⟨S8192x64, .i1⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x16, .f32⟩
  | .hbm, ⟨60, _⟩ => ⟨S1x16, .f32⟩
  | .hbm, ⟨61, _⟩ => ⟨S8192x16, .f32⟩
  | .hbm, ⟨62, _⟩ => ⟨S8192x16, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1, .f32⟩
  | .hbm, ⟨76, _⟩ => ⟨S8192x16, .f32⟩
  | .hbm, ⟨77, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_c : Ref sig .tc := ⟨.hbm, 15, rfl⟩
abbrev main_call0_c_0 : Ref sig .tc := ⟨.hbm, 16, rfl⟩
abbrev main_call0_v1_0 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_cst_0 : Ref sig .tc := ⟨.hbm, 43, rfl⟩
abbrev main_call1_v2 : Ref sig .tc := ⟨.hbm, 44, rfl⟩
abbrev main_call1_v3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call2_cst : Ref sig .tc := ⟨.hbm, 52, rfl⟩
abbrev main_call2_v0 : Ref sig .tc := ⟨.hbm, 53, rfl⟩
abbrev main_call2_v1 : Ref sig .tc := ⟨.hbm, 54, rfl⟩
abbrev main_call2_cst_0 : Ref sig .tc := ⟨.hbm, 55, rfl⟩
abbrev main_call2_v2 : Ref sig .tc := ⟨.hbm, 56, rfl⟩
abbrev main_call2_v3 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v34 : Ref sig .tc := ⟨.hbm, 77, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  bcast_S8192x1_S8192x16_0_1 : S8192x1.BroadcastsInDim S8192x16 (![0, 1] : Fin 2 → Fin S8192x16.rank)
  gather_S8192_S8192x1_S8192_n_0_n_n_0_1_1_wf : GatherDims.WF S8192 S8192x1 S8192 [] [0] [] [0] [] 1 ![1]
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []
  dot_S8192x64_S64x16_S8192x16_1_0_0_1_n_n_wf : DotDims.WF S8192x64 S64x16 S8192x16 [1] [0] [0] [1] [] []

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

class Facts : Prop extends Facts₀ where

variable [Facts]
-- ==== Proof.K.Cls.lean ====
import proofs.«180336_j68848325755002_1_alg».proof.Proof.Gen.Kernel.Launch
import proofs.«180336_j68848325755002_1_alg».proof.Proof.Gen.Kernel.Skeleton
import proofs.«180336_j68848325755002_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier region (the third kernel region of @main): its proof data

The region computes, row block by row block, `log_softmax (H · W₃ + b₃)`: the grid has 8 points; at point `i`
window 0 holds rows `1024 i … 1024 i + 1023` of the hidden features `H` (8192 × 64), windows 1 and 2 hold the whole
weight matrix `W₃` (64 × 16) and the whole bias row `b₃` (1 × 16) — their block index never moves —, and window 3
is rows `1024 i …` of the result (8192 × 16). The body reads the three input blocks and stores one full block of
window 3; nothing is carried from one point to the next. All of it is stated at a parameter `V`, the buffer
contents the region is entered with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds its block at every point: the body never writes it, and where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight matrix is fetched once, at the first point; its block index is constant, so the buffer still holds
    the whole matrix at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row likewise: fetched once, constant block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x64 := Rect.unit (s := S1024x64) ![0, 0] S1024x64.size inb_S1024x64_S1024x64_0_0
abbrev r2_1 : Rect S64x16 := Rect.unit (s := S64x16) ![0, 0] S64x16.size inb_S64x16_S64x16_0_0
abbrev r2_2 : Rect S1x16 := Rect.unit (s := S1x16) ![0, 0] S1x16.size inb_S1x16_S1x16_0_0
abbrev r2_3 : Rect S1024x16 := Rect.unit (s := S1024x16) ![0, 0] S1024x16.size inb_S1024x16_S1024x16_0_0

/-! ## What the body leaves in the result window's buffer -/

/-- The result block after the body, from the three input blocks: one store over the whole buffer of
    `log_softmax (x₀ · x₁ + x₂)` (the payload). -/
def out2_3 (x0 : Vec F S1024x64 .f32) (x1 : Vec F S64x16 .f32) (x2 : Vec F S1x16 .f32) : Vec F S1024x16 .f32 :=
  View.canon [⟨r2_3, k2_pay1 (View.ld x0 r2_0) (View.ld x1 r2_1) (View.ld x2 r2_2)⟩]

/-- The one store covers the buffer. -/
theorem cover2_3 (p0 : Vec F S1024x16 .f32) (y : S1024x16.Idx) :
    ∃ pc ∈ ([⟨r2_3, p0⟩] : List (View.Piece (Elt F) S1024x16 .f32)), y ∈ pc.1.set :=
  View.cover_of_tiled [⟨r2_3, p0⟩] S1024x16.size (by rfl) y

/-! ## The body's triple -/

set_option maxHeartbeats 1000000 in
/-- The body on whole staging buffers — the inputs' at contents `x₀ x₁ x₂`, the result's at anything — runs to the
    continuation with the inputs as they were and the result buffer at `out2_3 x₀ x₁ x₂`. -/
theorem sound_kernel2 (c : Dev nD) (E : Set ℕ) (i : grid2.Coords) (arg1 : Memref sig .tc .vmem S1024x64 .f32) (harg1 : arg1.IsWhole) (arg2 : Memref sig .tc .vmem S64x16 .f32) (harg2 : arg2.IsWhole) (arg3 : Memref sig .tc .vmem S1x16 .f32) (harg3 : arg3.IsWhole) (arg4 : Memref sig .tc .vmem S1024x16 .f32) (harg4 : arg4.IsWhole)
    (x0 : Vec F S1024x64 .f32) (x1 : Vec F S64x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of the region on core `c`: the arrays as the region finds them; after the body at point `t` each
    input buffer still at its block and the result buffer at `out2_3` of the three input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Conv0Runs.lean ====
import proofs.«180336_j68848325755002_1_alg».proof.Proof.Gen.Kernel.Launch
import proofs.«180336_j68848325755002_1_alg».proof.Proof.Gen.Kernel.Skeleton
import proofs.«180336_j68848325755002_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first graph convolution (region 0): conditions, schedule facts, views

The grid is 8 x 8; point `t` has coordinates `(t / 8, t % 8)`, and `k = t % 8` walks the contraction
axis. The body zeroes the accumulator at `k = 0`, adds one tile product at every point, and writes the
output block at `k = 7`. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not: where it is not fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not: where it is not fetched the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not: where it is not fetched the block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not: where it is not fetched the block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not: where it is not fetched the block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not: where it is not fetched the block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, in closed form -/

/-- `k == 0`, as the body computes it from grid coordinate 1. -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- `k == 7`, as the body computes it. -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Away from `k = 7` the output window is idle: nothing is stored into it, -/
theorem idleAt0_6 : ∀ t : Fin cfg0.N, ¬cond0_1 (grid0.coords t) → cfg0.idle 6 (grid0.coords t) = true := by decide +kernel
/-- and its block is not written back. -/
theorem noFlush0_6 : ∀ t : Fin cfg0.N, ¬cond0_1 (grid0.coords t) → (cfg0.win 6).flush t = false := by decide +kernel
/-- At `k = 7` the output window is live. -/
theorem liveAt0_6 : ∀ t : Fin cfg0.N, cond0_1 (grid0.coords t) → cfg0.idle 6 (grid0.coords t) = false := by decide +kernel

/-! ## Staging memrefs, the accumulator, and the invariant's shape -/

/-- One staging buffer of the output window, through which its contents are stated. -/
abbrev VO0_6 : View sig .tc .vmem S1024x64 .f32 := (Memref.whole cc0_stg6_0 : Memref sig .tc .vmem S1024x64 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x64 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S1024x128 .f32 := Memref.whole cc0_scratch0
/-- The accumulator as a view. -/
abbrev VS0_0 : View sig .tc .vmem S1024x128 .f32 := scM0_0.view

/-- The core's scoped buffers other than this region's staging buffers and its accumulator, each whole at some
    contents: the body never touches them. -/
def R0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's resting invariant with the accumulator split off as a memref owned at some contents. -/
theorem PhiA0_eq (c : Dev nD) :
    (Pipeline.ΦA spec0 c : sProp 𝕄)
      = iprop(iprop((∃ d, owns (c : Thread nD τ) scM0_0 fullShare d) ∗ R0 (F := F) c) ∗ (∃ r, prngReg c r)) := by
  unfold Pipeline.ΦA R0; rw [scopedRest0_eq]; simp only [scM0_0, owns_whole]; try rfl

end Cert.Kernel.Hand

end
-- ==== Proof.K.Conv0RunA.lean ====
import proofs.«180336_j68848325755002_1_alg».proof.Proof.K.Conv0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 0`: the accumulator, found at anything, is zeroed and then receives the first tile product; the output window is left as found.
    The pieces the stores leave in the output window (`L6`) and in the accumulator (`LS0`), last store first,
    together with the body's triple on whole staging memrefs: the inputs owned at their contents come back as they were. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨[], ?_, fun xi6 E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Conv0RunB.lean ====
import proofs.«180336_j68848325755002_1_alg».proof.Proof.K.Conv0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `0 < k < 7`: the accumulator, found at what the point before left, receives one more tile product; the output window is left as found.
    The pieces the stores leave in the output window (`L6`) and in the accumulator (`LS0`), last store first,
    together with the body's triple on whole staging memrefs: the inputs owned at their contents come back as they were. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨[], ?_, fun xi6 E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Conv0RunC.lean ====
import proofs.«180336_j68848325755002_1_alg».proof.Proof.K.Conv0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 7`: the accumulator receives the last tile product, and the output block is written from it.
    The pieces the stores leave in the output window (`L6`) and in the accumulator (`LS0`), last store first,
    together with the body's triple on whole staging memrefs: the inputs owned at their contents come back as they were. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨?_, ?_, fun E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Conv0.lean ====
import proofs.«180336_j68848325755002_1_alg».proof.Proof.K.Conv0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the body leaves point by point, the proof data, the body obligation -/

/-- What the output window's staging buffer reads as after the body's stores of this case, over junk (no store: a placeholder nothing consults, the window being idle and not written back at these points). -/
def out0_A_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) : Vec F S1024x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores of this case into the accumulator cover it: the last one is a whole-buffer store. -/
theorem scover0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What the accumulator reads as after this case's stores. -/
def sout0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- What the output window's staging buffer reads as after the body's stores of this case, over junk (no store: a placeholder nothing consults, the window being idle and not written back at these points). -/
def out0_B_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What the accumulator reads as after this case's stores. -/
def sout0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- What the output window's staging buffer reads as after the body's stores of this case, over junk. -/
def out0_C_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x64 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What the accumulator reads as after this case's stores. -/
def sout0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-- The one store into the output window is a whole-buffer store: it covers the block. -/
theorem cover0_C_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x64.size (by sl_kernel_rfl) y

section Region0
variable (V : (c : Dev nD) → (b : Ref sig .tc) → Buf (Elt F) ((c : Thread nD τ).loc b))

/-- Point `t` in case A: (output window, accumulator) after the body, from the point's blocks. -/
def step0_A (c : Dev nD) (t : Fin cfg0.N) (h0 : t.val % 8 = 0) (h1 : ¬t.val % 8 = 7) : Vec F S1024x64 .f32 × Vec F S1024x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t))

/-- Point `t` in case B: (output window, accumulator) after the body, from the point's blocks and what the accumulator held before. -/
def step0_B (c : Dev nD) (t : Fin cfg0.N) (h0 : ¬t.val % 8 = 0) (h1 : ¬t.val % 8 = 7) (xs0 : Vec F S1024x128 .f32) : Vec F S1024x64 .f32 × Vec F S1024x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0)

/-- Point `t` in case C: (output window, accumulator) after the body, from the point's blocks and what the accumulator held before. -/
def step0_C (c : Dev nD) (t : Fin cfg0.N) (h0 : ¬t.val % 8 = 0) (h1 : t.val % 8 = 7) (xs0 : Vec F S1024x128 .f32) : Vec F S1024x64 .f32 × Vec F S1024x128 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0)

/-- THE ACCUMULATION. What the output window's staging buffer and the accumulator hold after the body at position
    `n`: the case `n % 8` selects, run at the point's blocks, the accumulator entering at what position `n - 1`
    left in it (at `n % 8 = 0` it is zeroed first, so nothing of the past enters). -/
def outsAt0 (c : Dev nD) : (n : ℕ) → n < cfg0.N → Vec F S1024x64 .f32 × Vec F S1024x128 .f32
  | 0, hn => step0_A V c ⟨0, hn⟩ (Nat.zero_mod _) (by simp)
  | n + 1, hn =>
    if h0 : (n + 1) % 8 = 0 then
      step0_A V c ⟨n + 1, hn⟩ h0 (fun h => by dsimp only at h h0; omega)
    else
      if h1 : (n + 1) % 8 = 7 then
        step0_C V c ⟨n + 1, hn⟩ h0 h1 (outsAt0 c n (Nat.lt_of_succ_lt hn)).2
      else
        step0_B V c ⟨n + 1, hn⟩ h0 h1 (outsAt0 c n (Nat.lt_of_succ_lt hn)).2

/-- `outsAt0` at a point with `k = 0`. -/
theorem outsAt0_A (c : Dev nD) (t : Fin cfg0.N) (h0 : t.val % 8 = 0) (h1 : ¬t.val % 8 = 7) :
    outsAt0 V c t.val t.isLt = step0_A V c t h0 h1 := by
  obtain ⟨n, hn⟩ := t
  cases n with
  | zero => rfl
  | succ n => exact (dif_pos h0).trans rfl

/-- `outsAt0` at a point with `0 < k < 7`: over what the point before left in the accumulator. -/
theorem outsAt0_B (c : Dev nD) (t : Fin cfg0.N) (h0 : ¬t.val % 8 = 0) (h1 : ¬t.val % 8 = 7) :
    outsAt0 V c t.val t.isLt = step0_B V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 7`: over what the point before left in the accumulator. -/
theorem outsAt0_C (c : Dev nD) (t : Fin cfg0.N) (h0 : ¬t.val % 8 = 0) (h1 : t.val % 8 = 7) :
    outsAt0 V c t.val t.isLt = step0_C V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting invariant (the accumulator at
    anything); afterwards the accumulator at what the point before left, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ R0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ R0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ R0 (F := F) c) ∗ (∃ r, prngReg c r)) := by
  cases n with
  | zero => exact absurd rfl hz
  | succ n => rfl

/-! ## The pipeline's proof data -/

/-- The proof data of region 0's pipeline on core `c`: the arrays as the region finds them; after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant before the first point is the resting invariant. -/
theorem Phi0_zero (c : Dev nD) : (dat0 V c).Φ 0 = Pipeline.ΦA spec0 c := rfl

/-- After any point but the first position the invariant gives the resting invariant back: the accumulator's
    named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi0_out V c _ (by rw [Fin.val_last]; have : cfg0.N = 64 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at the very first point (`k = 0`, the invariant the resting one: the accumulator at anything). -/
theorem sound_body0_A0 (c : Dev nD) (t : Fin cfg0.N) (h0 : t.val % 8 = 0) (h1 : ¬t.val % 8 = 7) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_A V c t h0 h1]
  unfold step0_A sout0_A_0; (try dsimp only)
  rw [PhiS0_castSucc V c t, PhiS0_zero V c _ _ hz, PhiA0_eq]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a later point with `k = 0`: the accumulator's old contents are overwritten. -/
theorem sound_body0_A (c : Dev nD) (t : Fin cfg0.N) (h0 : t.val % 8 = 0) (h1 : ¬t.val % 8 = 7) (hz : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_A V c t h0 h1]
  unfold step0_A sout0_A_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `0 < k < 7`. -/
theorem sound_body0_B (c : Dev nD) (t : Fin cfg0.N) (h0 : ¬t.val % 8 = 0) (h1 : ¬t.val % 8 = 7) :
    bodyPre0 V c t ⊢ wp frame (wpE (defs₀ (F := F)) Variants.none c none) Set.univ (bodyAt0 t) (fun _ => bodyPost0 V c t) := by
  have hz : t.val ≠ 0 := fun hz => h0 (by rw [hz])
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_B V c t h0 h1]
  unfold step0_B sout0_B_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `k = 7`: the output block is written. -/
theorem sound_body0_C (c : Dev nD) (t : Fin cfg0.N) (h0 : ¬t.val % 8 = 0) (h1 : t.val % 8 = 7) :
    bodyPre0 V c t ⊢ wp frame (wpE (defs₀ (F := F)) Variants.none c none) Set.univ (bodyAt0 t) (fun _ => bodyPost0 V c t) := by
  have hz : t.val ≠ 0 := fun hz => h0 (by rw [hz])
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t ((hcond0_1 t).mpr h1)], after0_6]
  rw [outsAt0_C V c t h0 h1]
  unfold step0_C out0_C_6 sout0_C_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_C_6 c _ _ _ _ _ _ _ _ _ _ _ _ _ _ _ _ _ _ _ _ _ _ _ _ _ _)

/-- The body at any point: `t % 8` says which case the point is in. -/
theorem sound_body0 (c : Dev nD) (t : Fin cfg0.N) : bodyPre0 V c t ⊢ wp frame (wpE (defs₀ (F := F)) Variants.none c none) Set.univ (bodyAt0 t) (fun _ => bodyPost0 V c t) := by
  by_cases h0 : t.val % 8 = 0
  · have h1 : ¬t.val % 8 = 7 := by omega
    by_cases hz : t.val = 0
    · exact sound_body0_A0 V c t h0 h1 hz
    · exact sound_body0_A V c t h0 h1 hz
  · by_cases h1 : t.val % 8 = 7
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Conv1Runs.lean ====
import proofs.«180336_j68848325755002_1_alg».proof.Proof.Gen.Kernel.Launch
import proofs.«180336_j68848325755002_1_alg».proof.Proof.Gen.Kernel.Skeleton
import proofs.«180336_j68848325755002_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second graph convolution (region 1): conditions, schedule facts, views

The grid is 8 x 8; point `t` has coordinates `(t / 8, t % 8)`, and `k = t % 8` walks the contraction
axis. The body zeroes the accumulator at `k = 0`, adds one tile product at every point, and writes the
output block at `k = 7`. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not: where it is not fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there
    or not: where it is not fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there
    or not: where it is not fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there
    or not: where it is not fetched the block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there
    or not: where it is not fetched the block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there
    or not: where it is not fetched the block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, in closed form -/

/-- `k == 0`, as the body computes it from grid coordinate 1. -/
abbrev cond1_0 (i : grid1.Coords) : Prop := (Scalar.cmpi .ne (Scalar.extui (Scalar.cmpi .eq (BitVec.ofNat 32 (i 1).val) 0#32)) 0#32) = 1#1
/-- It holds exactly at the points with `t % 8 = 0`. -/
theorem hcond1_0 : ∀ t : Fin cfg1.N, cond1_0 (grid1.coords t) ↔ t.val % 8 = 0 :=
  (by decide +kernel : ∀ t : Fin grid1.N, cond1_0 (grid1.coords t) ↔ t.val % 8 = 0)

/-- `k == 7`, as the body computes it. -/
abbrev cond1_1 (i : grid1.Coords) : Prop := k1_cond2 i = 1#1
/-- It holds exactly at the points with `t % 8 = 7`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Away from `k = 7` the output window is idle: nothing is stored into it, -/
theorem idleAt1_6 : ∀ t : Fin cfg1.N, ¬cond1_1 (grid1.coords t) → cfg1.idle 6 (grid1.coords t) = true := by decide +kernel
/-- and its block is not written back. -/
theorem noFlush1_6 : ∀ t : Fin cfg1.N, ¬cond1_1 (grid1.coords t) → (cfg1.win 6).flush t = false := by decide +kernel
/-- At `k = 7` the output window is live. -/
theorem liveAt1_6 : ∀ t : Fin cfg1.N, cond1_1 (grid1.coords t) → cfg1.idle 6 (grid1.coords t) = false := by decide +kernel

/-! ## Staging memrefs, the accumulator, and the invariant's shape -/

/-- One staging buffer of the output window, through which its contents are stated. -/
abbrev VO1_6 : View sig .tc .vmem S1024x64 .f32 := (Memref.whole cc1_stg6_0 : Memref sig .tc .vmem S1024x64 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1_0 : Memref sig .tc .vmem S1024x64 .f32 := Memref.whole cc1_scratch0
/-- The accumulator as a view. -/
abbrev VS1_0 : View sig .tc .vmem S1024x64 .f32 := scM1_0.view

/-- The core's scoped buffers other than this region's staging buffers and its accumulator, each whole at some
    contents: the body never touches them. -/
def R1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's resting invariant with the accumulator split off as a memref owned at some contents. -/
theorem PhiA1_eq (c : Dev nD) :
    (Pipeline.ΦA spec1 c : sProp 𝕄)
      = iprop(iprop((∃ d, owns (c : Thread nD τ) scM1_0 fullShare d) ∗ R1 (F := F) c) ∗ (∃ r, prngReg c r)) := by
  unfold Pipeline.ΦA R1; rw [scopedRest1_eq]; simp only [scM1_0, owns_whole]
  refine BI.equiv_iff.mp ⟨?_, ?_⟩
  · show (_ : sProp 𝕄) ⊢ _
    iintro ⟨⟨H0, H1, H2, H3, H4, H5, H6, H7, H8, H9, H10, H11, H12, H13, H14, H15, H16, H17, H18, H19⟩, Hg⟩
    isplitr [Hg]
    swap; · iexact Hg
    isplitl [H13]; · iexact H13
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [H18]; · iexact H18
    iexact H19
  · show (_ : sProp 𝕄) ⊢ _
    iintro ⟨⟨H13, H0, H1, H2, H3, H4, H5, H6, H7, H8, H9, H10, H11, H12, H14, H15, H16, H17, H18, H19⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.Kernel.Hand

end
-- ==== Proof.K.Conv1RunA.lean ====
import proofs.«180336_j68848325755002_1_alg».proof.Proof.K.Conv1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 0`: the accumulator, found at anything, is zeroed and then receives the first tile product; the output window is left as found.
    The pieces the stores leave in the output window (`L6`) and in the accumulator (`LS0`), last store first,
    together with the body's triple on whole staging memrefs: the inputs owned at their contents come back as they were. -/
noncomputable def kernelRun1_A (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨[], ?_, fun xi6 E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Conv1RunB.lean ====
import proofs.«180336_j68848325755002_1_alg».proof.Proof.K.Conv1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `0 < k < 7`: the accumulator, found at what the point before left, receives one more tile product; the output window is left as found.
    The pieces the stores leave in the output window (`L6`) and in the accumulator (`LS0`), last store first,
    together with the body's triple on whole staging memrefs: the inputs owned at their contents come back as they were. -/
noncomputable def kernelRun1_B (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨[], ?_, fun xi6 E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Conv1RunC.lean ====
import proofs.«180336_j68848325755002_1_alg».proof.Proof.K.Conv1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 7`: the accumulator receives the last tile product, and the output block is written from it.
    The pieces the stores leave in the output window (`L6`) and in the accumulator (`LS0`), last store first,
    together with the body's triple on whole staging memrefs: the inputs owned at their contents come back as they were. -/
noncomputable def kernelRun1_C (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨?_, ?_, fun E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Conv1.lean ====
import proofs.«180336_j68848325755002_1_alg».proof.Proof.K.Conv1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the body leaves point by point, the proof data, the body obligation -/

/-- What the output window's staging buffer reads as after the body's stores of this case, over junk (no store: a placeholder nothing consults, the window being idle and not written back at these points). -/
def out1_A_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) : Vec F S1024x64 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- The stores of this case into the accumulator cover it: the last one is a whole-buffer store. -/
theorem scover1_A_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x64.size (by sl_kernel_rfl) y

/-- What the accumulator reads as after this case's stores. -/
def sout1_A_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What the output window's staging buffer reads as after the body's stores of this case, over junk (no store: a placeholder nothing consults, the window being idle and not written back at these points). -/
def out1_B_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover1_B_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What the accumulator reads as after this case's stores. -/
def sout1_B_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- What the output window's staging buffer reads as after the body's stores of this case, over junk. -/
def out1_C_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover1_C_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What the accumulator reads as after this case's stores. -/
def sout1_C_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- The one store into the output window is a whole-buffer store: it covers the block. -/
theorem cover1_C_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

section Region1
variable (V : (c : Dev nD) → (b : Ref sig .tc) → Buf (Elt F) ((c : Thread nD τ).loc b))

/-- Point `t` in case A: (output window, accumulator) after the body, from the point's blocks. -/
def step1_A (c : Dev nD) (t : Fin cfg1.N) (h0 : t.val % 8 = 0) (h1 : ¬t.val % 8 = 7) : Vec F S1024x64 .f32 × Vec F S1024x64 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

/-- Point `t` in case B: (output window, accumulator) after the body, from the point's blocks and what the accumulator held before. -/
def step1_B (c : Dev nD) (t : Fin cfg1.N) (h0 : ¬t.val % 8 = 0) (h1 : ¬t.val % 8 = 7) (xs0 : Vec F S1024x64 .f32) : Vec F S1024x64 .f32 × Vec F S1024x64 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

/-- Point `t` in case C: (output window, accumulator) after the body, from the point's blocks and what the accumulator held before. -/
def step1_C (c : Dev nD) (t : Fin cfg1.N) (h0 : ¬t.val % 8 = 0) (h1 : t.val % 8 = 7) (xs0 : Vec F S1024x64 .f32) : Vec F S1024x64 .f32 × Vec F S1024x64 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

/-- THE ACCUMULATION. What the output window's staging buffer and the accumulator hold after the body at position
    `n`: the case `n % 8` selects, run at the point's blocks, the accumulator entering at what position `n - 1`
    left in it (at `n % 8 = 0` it is zeroed first, so nothing of the past enters). -/
def outsAt1 (c : Dev nD) : (n : ℕ) → n < cfg1.N → Vec F S1024x64 .f32 × Vec F S1024x64 .f32
  | 0, hn => step1_A V c ⟨0, hn⟩ (Nat.zero_mod _) (by simp)
  | n + 1, hn =>
    if h0 : (n + 1) % 8 = 0 then
      step1_A V c ⟨n + 1, hn⟩ h0 (fun h => by dsimp only at h h0; omega)
    else
      if h1 : (n + 1) % 8 = 7 then
        step1_C V c ⟨n + 1, hn⟩ h0 h1 (outsAt1 c n (Nat.lt_of_succ_lt hn)).2
      else
        step1_B V c ⟨n + 1, hn⟩ h0 h1 (outsAt1 c n (Nat.lt_of_succ_lt hn)).2

/-- `outsAt1` at a point with `k = 0`. -/
theorem outsAt1_A (c : Dev nD) (t : Fin cfg1.N) (h0 : t.val % 8 = 0) (h1 : ¬t.val % 8 = 7) :
    outsAt1 V c t.val t.isLt = step1_A V c t h0 h1 := by
  obtain ⟨n, hn⟩ := t
  cases n with
  | zero => rfl
  | succ n => exact (dif_pos h0).trans rfl

/-- `outsAt1` at a point with `0 < k < 7`: over what the point before left in the accumulator. -/
theorem outsAt1_B (c : Dev nD) (t : Fin cfg1.N) (h0 : ¬t.val % 8 = 0) (h1 : ¬t.val % 8 = 7) :
    outsAt1 V c t.val t.isLt = step1_B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 7`: over what the point before left in the accumulator. -/
theorem outsAt1_C (c : Dev nD) (t : Fin cfg1.N) (h0 : ¬t.val % 8 = 0) (h1 : t.val % 8 = 7) :
    outsAt1 V c t.val t.isLt = step1_C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting invariant (the accumulator at
    anything); afterwards the accumulator at what the point before left, the other scoped buffers at anything, the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ R1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ R1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ R1 (F := F) c) ∗ (∃ r, prngReg c r)) := by
  cases n with
  | zero => exact absurd rfl hz
  | succ n => rfl

/-! ## The pipeline's proof data -/

/-- The proof data of region 1's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The invariant before the first point is the resting invariant. -/
theorem Phi1_zero (c : Dev nD) : (dat1 V c).Φ 0 = Pipeline.ΦA spec1 c := rfl

/-- After any point but the first position the invariant gives the resting invariant back: the accumulator's
    named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi1_out V c _ (by rw [Fin.val_last]; have : cfg1.N = 64 := N_1; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at the very first point (`k = 0`, the invariant the resting one: the accumulator at anything). -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_A V c t h0 h1]
  unfold step1_A sout1_A_0; (try dsimp only)
  rw [PhiS1_castSucc V c t, PhiS1_zero V c _ _ hz, PhiA1_eq]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a later point with `k = 0`: the accumulator's old contents are overwritten. -/
theorem sound_body1_A (c : Dev nD) (t : Fin cfg1.N) (h0 : t.val % 8 = 0) (h1 : ¬t.val % 8 = 7) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_A V c t h0 h1]
  unfold step1_A sout1_A_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `0 < k < 7`. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  have hz : t.val ≠ 0 := fun hz => h0 (by rw [hz])
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_B V c t h0 h1]
  unfold step1_B sout1_B_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `k = 7`: the output block is written. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  have hz : t.val ≠ 0 := fun hz => h0 (by rw [hz])
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t ((hcond1_1 t).mpr h1)], after1_6]
  rw [outsAt1_C V c t h0 h1]
  unfold step1_C out1_C_6 sout1_C_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_C_6 c _ _ _ _ _ _ _ _ _ _ _ _ _ _ _ _ _ _ _ _ _ _ _ _ _ _)

/-- The body at any point: `t % 8` says which case the point is in. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 8 = 0
  · have h1 : ¬t.val % 8 = 7 := by omega
    by_cases hz : t.val = 0
    · exact sound_body1_A0 V c t h0 h1 hz
    · exact sound_body1_A V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
import proofs.«180336_j68848325755002_1_alg».proof.Proof.Gen.Kernel.Launch
import proofs.«180336_j68848325755002_1_alg».proof.Proof.Gen.Kernel.Skeleton
import proofs.«180336_j68848325755002_1_alg».proof.Proof.Gen.Kernel.Points
import proofs.«180336_j68848325755002_1_alg».proof.Proof.Gen.Kernel.Regions
import proofs.«180336_j68848325755002_1_alg».proof.Proof.K.Cls
import proofs.«180336_j68848325755002_1_alg».proof.Proof.K.Conv0
import proofs.«180336_j68848325755002_1_alg».proof.Proof.K.Conv1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its three regions

@main is: three stretches of host operations (the degrees of the adjacency matrix and their reshapes), the first
graph convolution, a one-operation stretch (the second bias row reshaped), the second graph convolution, a
one-operation stretch (the classifier's bias row reshaped), the classifier. The run is followed as a fold of the
TensorCore's buffer contents through these eight items, from the launch memory: a host stretch acts by
`StableHlo.after`, a region replaces its windows' arrays by what its write-backs leave and keeps every other
buffer. At the end the result buffer holds the last region's output array and every argument holds what it was
launched with. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (row maxima of the adjacency matrix, the comparison mask). -/
abbrev W1 : Dev nD → Valuation τ sig (Elt F) := fun c => StableHlo.after hostOps0 (W0 m ρ c)
/-- After the second (the arg-max call). -/
abbrev W2 : Dev nD → Valuation τ sig (Elt F) := fun c => StableHlo.after hostOps0_1 (W1 m ρ c)
/-- After the third (the gathered degrees and the reshapes): the first convolution's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At the first convolution's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
/-- At the exit each array of the region holds what the pipeline leaves, every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the one-operation stretch before the second convolution: its entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At the second convolution's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
/-- At the exit each array of the region holds what the pipeline leaves, every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the one-operation stretch before the classifier: its entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At the classifier's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
/-- At the exit each array of the region holds what the pipeline leaves, every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, and a region either reads it through an input
    window or does not touch it, so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := (W4_arr m ρ c 1).trans (((dat0 (V3 m ρ) c).arrAt_in 1 rfl _).trans (A_eq0 (V3 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := (W6_arr m ρ c 0).trans (((dat1 (V5 m ρ) c).arrAt_in 0 rfl _).trans (A_eq1 (V5 m ρ) c 0))
    _ = W4 m ρ c (Proc.devRef .tc main_arg2) := StableHlo.after_of_writes_sub hostOps1 _ hostOps1_writes (by decide)
    _ = W3 m ρ c (Proc.devRef .tc main_arg2) := (W4_arr m ρ c 0).trans (((dat0 (V3 m ρ) c).arrAt_in 0 rfl _).trans (A_eq0 (V3 m ρ) c 0))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 4).trans (((dat0 (V3 m ρ) c).arrAt_in 4 rfl _).trans (A_eq0 (V3 m ρ) c 4))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := (W6_arr m ρ c 4).trans (((dat1 (V5 m ρ) c).arrAt_in 4 rfl _).trans (A_eq1 (V5 m ρ) c 4))
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := (W8_arr m ρ c 1).trans (((dat2 (V7 m ρ) c).arrAt_in 1 rfl _).trans (A_eq2 (V7 m ρ) c 1))
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The first graph convolution over the thread state: entered from every unscoped buffer at `W3`, left at `W4`. Its arrays split out of the unscoped buffers and put back at the exit contents; the generator register goes into the region's invariant at the first point and comes out of it at the last; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun w => A_eq0 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V3 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second graph convolution: entered at `W5`, left at `W6`, as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun w => A_eq1 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V5 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The classifier: entered at `W7`, left at `W8` (what the launch reads at the end); its invariant is the class's, the same at every point. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main IS the run of the segments: it is the chain of its items, and the segments' run is the chain of theirs. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main on the TensorCores terminates,
    nothing faulting, and every final state has the result buffer at the classifier's output array as the fold leaves
    it and every argument array as launched. -/
theorem run_main : θ_run defs (onTc (τ := τ) (main (F := F))) ⟨m, fun _ => 0, ρ⟩ (fun r => ∀ c : Dev nD,
      r.2.mem ((c.tc : Thread nD τ).loc main_v18) = W8 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v18 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.Kernel.Hand

end
-- ==== Proof.KI.Cls.lean ====
import proofs.«180336_j68848325755002_1_alg».proof.Proof.Gen.KernelIdeal.Launch
import proofs.«180336_j68848325755002_1_alg».proof.Proof.Gen.KernelIdeal.Skeleton
import proofs.«180336_j68848325755002_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The classifier region (the third kernel region of @main): its proof data

The region computes, row block by row block, `log_softmax (H · W₃ + b₃)`: the grid has 8 points; at point `i`
window 0 holds rows `1024 i … 1024 i + 1023` of the hidden features `H` (8192 × 64), windows 1 and 2 hold the whole
weight matrix `W₃` (64 × 16) and the whole bias row `b₃` (1 × 16) — their block index never moves —, and window 3
is rows `1024 i …` of the result (8192 × 16). The body reads the three input blocks and stores one full block of
window 3; nothing is carried from one point to the next. All of it is stated at a parameter `V`, the buffer
contents the region is entered with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds its block at every point: the body never writes it, and where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight matrix is fetched once, at the first point; its block index is constant, so the buffer still holds
    the whole matrix at every later point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The bias row likewise: fetched once, constant block index. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1024x64 := Rect.unit (s := S1024x64) ![0, 0] S1024x64.size inb_S1024x64_S1024x64_0_0
abbrev r2_1 : Rect S64x16 := Rect.unit (s := S64x16) ![0, 0] S64x16.size inb_S64x16_S64x16_0_0
abbrev r2_2 : Rect S1x16 := Rect.unit (s := S1x16) ![0, 0] S1x16.size inb_S1x16_S1x16_0_0
abbrev r2_3 : Rect S1024x16 := Rect.unit (s := S1024x16) ![0, 0] S1024x16.size inb_S1024x16_S1024x16_0_0

/-! ## What the body leaves in the result window's buffer -/

/-- The result block after the body, from the three input blocks: one store over the whole buffer of
    `log_softmax (x₀ · x₁ + x₂)` (the payload). -/
def out2_3 (x0 : Vec F S1024x64 .f32) (x1 : Vec F S64x16 .f32) (x2 : Vec F S1x16 .f32) : Vec F S1024x16 .f32 :=
  View.canon [⟨r2_3, k2_pay1 (View.ld x0 r2_0) (View.ld x1 r2_1) (View.ld x2 r2_2)⟩]

/-- The one store covers the buffer. -/
theorem cover2_3 (p0 : Vec F S1024x16 .f32) (y : S1024x16.Idx) :
    ∃ pc ∈ ([⟨r2_3, p0⟩] : List (View.Piece (Elt F) S1024x16 .f32)), y ∈ pc.1.set :=
  View.cover_of_tiled [⟨r2_3, p0⟩] S1024x16.size (by rfl) y

/-! ## The body's triple -/

set_option maxHeartbeats 1000000 in
/-- The body on whole staging buffers — the inputs' at contents `x₀ x₁ x₂`, the result's at anything — runs to the
    continuation with the inputs as they were and the result buffer at `out2_3 x₀ x₁ x₂`. -/
theorem sound_kernel2 (c : Dev nD) (E : Set ℕ) (i : grid2.Coords) (arg1 : Memref sig .tc .vmem S1024x64 .f32) (harg1 : arg1.IsWhole) (arg2 : Memref sig .tc .vmem S64x16 .f32) (harg2 : arg2.IsWhole) (arg3 : Memref sig .tc .vmem S1x16 .f32) (harg3 : arg3.IsWhole) (arg4 : Memref sig .tc .vmem S1024x16 .f32) (harg4 : arg4.IsWhole)
    (x0 : Vec F S1024x64 .f32) (x1 : Vec F S64x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__classifier_kernel i arg1 harg1 arg2 harg2 arg3 harg3 arg4 harg4) K := by
  simp only [cc2__classifier_kernel_eq_skeleton]; unfold cc2__classifier_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The proof data of the region on core `c`: the arrays as the region finds them; after the body at point `t` each
    input buffer still at its block and the result buffer at `out2_3` of the three input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Conv0Runs.lean ====
import proofs.«180336_j68848325755002_1_alg».proof.Proof.Gen.KernelIdeal.Launch
import proofs.«180336_j68848325755002_1_alg».proof.Proof.Gen.KernelIdeal.Skeleton
import proofs.«180336_j68848325755002_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first graph convolution (region 0): conditions, schedule facts, views

The grid is 8 x 8; point `t` has coordinates `(t / 8, t % 8)`, and `k = t % 8` walks the contraction
axis. The body zeroes the accumulator at `k = 0`, adds one tile product at every point, and writes the
output block at `k = 7`. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there
    or not: where it is not fetched the block index has not moved, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there
    or not: where it is not fetched the block index has not moved, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there
    or not: where it is not fetched the block index has not moved, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there
    or not: where it is not fetched the block index has not moved, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there
    or not: where it is not fetched the block index has not moved, and the body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there
    or not: where it is not fetched the block index has not moved, and the body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions, in closed form -/

/-- `k == 0`, as the body computes it from grid coordinate 1. -/
abbrev cond0_0 (i : grid0.Coords) : Prop := (Scalar.cmpi .ne (Scalar.extui (Scalar.cmpi .eq (BitVec.ofNat 32 (i 1).val) 0#32)) 0#32) = 1#1
/-- It holds exactly at the points with `t % 8 = 0`. -/
theorem hcond0_0 : ∀ t : Fin cfg0.N, cond0_0 (grid0.coords t) ↔ t.val % 8 = 0 :=
  (by decide +kernel : ∀ t : Fin grid0.N, cond0_0 (grid0.coords t) ↔ t.val % 8 = 0)

/-- `k == 7`, as the body computes it. -/
abbrev cond0_1 (i : grid0.Coords) : Prop := k0_cond2 i = 1#1
/-- It holds exactly at the points with `t % 8 = 7`. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- Away from `k = 7` the output window is idle: nothing is stored into it, -/
theorem idleAt0_6 : ∀ t : Fin cfg0.N, ¬cond0_1 (grid0.coords t) → cfg0.idle 6 (grid0.coords t) = true := by decide +kernel
/-- and its block is not written back. -/
theorem noFlush0_6 : ∀ t : Fin cfg0.N, ¬cond0_1 (grid0.coords t) → (cfg0.win 6).flush t = false := by decide +kernel
/-- At `k = 7` the output window is live. -/
theorem liveAt0_6 : ∀ t : Fin cfg0.N, cond0_1 (grid0.coords t) → cfg0.idle 6 (grid0.coords t) = false := by decide +kernel

/-! ## Staging memrefs, the accumulator, and the invariant's shape -/

/-- One staging buffer of the output window, through which its contents are stated. -/
abbrev VO0_6 : View sig .tc .vmem S1024x64 .f32 := (Memref.whole cc0_stg6_0 : Memref sig .tc .vmem S1024x64 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x64 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S1024x128 .f32 := Memref.whole cc0_scratch0
/-- The accumulator as a view. -/
abbrev VS0_0 : View sig .tc .vmem S1024x128 .f32 := scM0_0.view

/-- The core's scoped buffers other than this region's staging buffers and its accumulator, each whole at some
    contents: the body never touches them. -/
def R0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's resting invariant with the accumulator split off as a memref owned at some contents. -/
theorem PhiA0_eq (c : Dev nD) :
    (Pipeline.ΦA spec0 c : sProp 𝕄)
      = iprop(iprop((∃ d, owns (c : Thread nD τ) scM0_0 fullShare d) ∗ R0 (F := F) c) ∗ (∃ r, prngReg c r)) := by
  unfold Pipeline.ΦA R0; rw [scopedRest0_eq]; simp only [scM0_0, owns_whole]; try rfl

end Cert.KernelIdeal.Hand

end
-- ==== Proof.KI.Conv0RunA.lean ====
import proofs.«180336_j68848325755002_1_alg».proof.Proof.KI.Conv0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 0`: the accumulator, found at anything, is zeroed and then receives the first tile product; the output window is left as found.
    The pieces the stores leave in the output window (`L6`) and in the accumulator (`LS0`), last store first,
    together with the body's triple on whole staging memrefs: the inputs owned at their contents come back as they were. -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨[], ?_, fun xi6 E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Conv0RunB.lean ====
import proofs.«180336_j68848325755002_1_alg».proof.Proof.KI.Conv0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `0 < k < 7`: the accumulator, found at what the point before left, receives one more tile product; the output window is left as found.
    The pieces the stores leave in the output window (`L6`) and in the accumulator (`LS0`), last store first,
    together with the body's triple on whole staging memrefs: the inputs owned at their contents come back as they were. -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨[], ?_, fun xi6 E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Conv0RunC.lean ====
import proofs.«180336_j68848325755002_1_alg».proof.Proof.KI.Conv0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 7`: the accumulator receives the last tile product, and the output block is written from it.
    The pieces the stores leave in the output window (`L6`) and in the accumulator (`LS0`), last store first,
    together with the body's triple on whole staging memrefs: the inputs owned at their contents come back as they were. -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    Σ' (L6 : List (View.Piece (Elt F) S1024x64 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__gcn_conv_kernel i arg2 harg2 arg3 harg3 arg4 harg4 arg5 harg5 arg6 harg6 arg7 harg7 arg8 harg8 arg9 harg9) K } := by
  refine ⟨?_, ?_, fun E K => ?run⟩
  case run =>
    simp only [cc0__gcn_conv_kernel_eq_skeleton]; unfold cc0__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Conv0.lean ====
import proofs.«180336_j68848325755002_1_alg».proof.Proof.KI.Conv0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the body leaves point by point, the proof data, the body obligation -/

/-- What the output window's staging buffer reads as after the body's stores of this case, over junk (no store: a placeholder nothing consults, the window being idle and not written back at these points). -/
def out0_A_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) : Vec F S1024x64 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores of this case into the accumulator cover it: the last one is a whole-buffer store. -/
theorem scover0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What the accumulator reads as after this case's stores. -/
def sout0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- What the output window's staging buffer reads as after the body's stores of this case, over junk (no store: a placeholder nothing consults, the window being idle and not written back at these points). -/
def out0_B_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x64 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What the accumulator reads as after this case's stores. -/
def sout0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- What the output window's staging buffer reads as after the body's stores of this case, over junk. -/
def out0_C_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x64 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What the accumulator reads as after this case's stores. -/
def sout0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-- The one store into the output window is a whole-buffer store: it covers the block. -/
theorem cover0_C_6 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) (y : S1024x64.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S1024x64.size (by sl_kernel_rfl) y

section Region0
variable (V : (c : Dev nD) → (b : Ref sig .tc) → Buf (Elt F) ((c : Thread nD τ).loc b))

/-- Point `t` in case A: (output window, accumulator) after the body, from the point's blocks. -/
def step0_A (c : Dev nD) (t : Fin cfg0.N) (h0 : t.val % 8 = 0) (h1 : ¬t.val % 8 = 7) : Vec F S1024x64 .f32 × Vec F S1024x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t))

/-- Point `t` in case B: (output window, accumulator) after the body, from the point's blocks and what the accumulator held before. -/
def step0_B (c : Dev nD) (t : Fin cfg0.N) (h0 : ¬t.val % 8 = 0) (h1 : ¬t.val % 8 = 7) (xs0 : Vec F S1024x128 .f32) : Vec F S1024x64 .f32 × Vec F S1024x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0)

/-- Point `t` in case C: (output window, accumulator) after the body, from the point's blocks and what the accumulator held before. -/
def step0_C (c : Dev nD) (t : Fin cfg0.N) (h0 : ¬t.val % 8 = 0) (h1 : t.val % 8 = 7) (xs0 : Vec F S1024x128 .f32) : Vec F S1024x64 .f32 × Vec F S1024x128 .f32 :=
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0)

/-- THE ACCUMULATION. What the output window's staging buffer and the accumulator hold after the body at position
    `n`: the case `n % 8` selects, run at the point's blocks, the accumulator entering at what position `n - 1`
    left in it (at `n % 8 = 0` it is zeroed first, so nothing of the past enters). -/
def outsAt0 (c : Dev nD) : (n : ℕ) → n < cfg0.N → Vec F S1024x64 .f32 × Vec F S1024x128 .f32
  | 0, hn => step0_A V c ⟨0, hn⟩ (Nat.zero_mod _) (by simp)
  | n + 1, hn =>
    if h0 : (n + 1) % 8 = 0 then
      step0_A V c ⟨n + 1, hn⟩ h0 (fun h => by dsimp only at h h0; omega)
    else
      if h1 : (n + 1) % 8 = 7 then
        step0_C V c ⟨n + 1, hn⟩ h0 h1 (outsAt0 c n (Nat.lt_of_succ_lt hn)).2
      else
        step0_B V c ⟨n + 1, hn⟩ h0 h1 (outsAt0 c n (Nat.lt_of_succ_lt hn)).2

/-- `outsAt0` at a point with `k = 0`. -/
theorem outsAt0_A (c : Dev nD) (t : Fin cfg0.N) (h0 : t.val % 8 = 0) (h1 : ¬t.val % 8 = 7) :
    outsAt0 V c t.val t.isLt = step0_A V c t h0 h1 := by
  obtain ⟨n, hn⟩ := t
  cases n with
  | zero => rfl
  | succ n => exact (dif_pos h0).trans rfl

/-- `outsAt0` at a point with `0 < k < 7`: over what the point before left in the accumulator. -/
theorem outsAt0_B (c : Dev nD) (t : Fin cfg0.N) (h0 : ¬t.val % 8 = 0) (h1 : ¬t.val % 8 = 7) :
    outsAt0 V c t.val t.isLt = step0_B V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt0` at a point with `k = 7`: over what the point before left in the accumulator. -/
theorem outsAt0_C (c : Dev nD) (t : Fin cfg0.N) (h0 : ¬t.val % 8 = 0) (h1 : t.val % 8 = 7) :
    outsAt0 V c t.val t.isLt = step0_C V c t h0 h1 (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting invariant (the accumulator at
    anything); afterwards the accumulator at what the point before left, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ R0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ R0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ R0 (F := F) c) ∗ (∃ r, prngReg c r)) := by
  cases n with
  | zero => exact absurd rfl hz
  | succ n => rfl

/-! ## The pipeline's proof data -/

/-- The proof data of region 0's pipeline on core `c`: the arrays as the region finds them; after the body at point
    `t` each input's buffer at its block and the output's at `outsAt0`'s first component; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The invariant before the first point is the resting invariant. -/
theorem Phi0_zero (c : Dev nD) : (dat0 V c).Φ 0 = Pipeline.ΦA spec0 c := rfl

/-- After any point but the first position the invariant gives the resting invariant back: the accumulator's
    named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi0_out V c _ (by rw [Fin.val_last]; have : cfg0.N = 64 := N_0; omega)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at the very first point (`k = 0`, the invariant the resting one: the accumulator at anything). -/
theorem sound_body0_A0 (c : Dev nD) (t : Fin cfg0.N) (h0 : t.val % 8 = 0) (h1 : ¬t.val % 8 = 7) (hz : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_A V c t h0 h1]
  unfold step0_A sout0_A_0; (try dsimp only)
  rw [PhiS0_castSucc V c t, PhiS0_zero V c _ _ hz, PhiA0_eq]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a later point with `k = 0`: the accumulator's old contents are overwritten. -/
theorem sound_body0_A (c : Dev nD) (t : Fin cfg0.N) (h0 : t.val % 8 = 0) (h1 : ¬t.val % 8 = 7) (hz : t.val ≠ 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_A V c t h0 h1]
  unfold step0_A sout0_A_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `0 < k < 7`. -/
theorem sound_body0_B (c : Dev nD) (t : Fin cfg0.N) (h0 : ¬t.val % 8 = 0) (h1 : ¬t.val % 8 = 7) :
    bodyPre0 V c t ⊢ wp frame (wpE (defs₀ (F := F)) Variants.none c none) Set.univ (bodyAt0 t) (fun _ => bodyPost0 V c t) := by
  have hz : t.val ≠ 0 := fun hz => h0 (by rw [hz])
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [Dat.leavesExact_idle (dat0 V c) 6 t (idleAt0_6 t (fun h => h1 ((hcond0_1 t).mp h))) (noFlush0_6 t (fun h => h1 ((hcond0_1 t).mp h)))]
  rw [outsAt0_B V c t h0 h1]
  unfold step0_B sout0_B_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `k = 7`: the output block is written. -/
theorem sound_body0_C (c : Dev nD) (t : Fin cfg0.N) (h0 : ¬t.val % 8 = 0) (h1 : t.val % 8 = 7) :
    bodyPre0 V c t ⊢ wp frame (wpE (defs₀ (F := F)) Variants.none c none) Set.univ (bodyAt0 t) (fun _ => bodyPost0 V c t) := by
  have hz : t.val ≠ 0 := fun hz => h0 (by rw [hz])
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t ((hcond0_1 t).mpr h1)], after0_6]
  rw [outsAt0_C V c t h0 h1]
  unfold step0_C out0_C_6 sout0_C_0; (try dsimp only)
  rw [PhiS0_castSucc V c t, PhiS0_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_C_6 c _ _ _ _ _ _ _ _ _ _ _ _ _ _ _ _ _ _ _ _ _ _ _ _ _ _)

/-- The body at any point: `t % 8` says which case the point is in. -/
theorem sound_body0 (c : Dev nD) (t : Fin cfg0.N) : bodyPre0 V c t ⊢ wp frame (wpE (defs₀ (F := F)) Variants.none c none) Set.univ (bodyAt0 t) (fun _ => bodyPost0 V c t) := by
  by_cases h0 : t.val % 8 = 0
  · have h1 : ¬t.val % 8 = 7 := by omega
    by_cases hz : t.val = 0
    · exact sound_body0_A0 V c t h0 h1 hz
    · exact sound_body0_A V c t h0 h1 hz
  · by_cases h1 : t.val % 8 = 7
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Conv1Runs.lean ====
import proofs.«180336_j68848325755002_1_alg».proof.Proof.Gen.KernelIdeal.Launch
import proofs.«180336_j68848325755002_1_alg».proof.Proof.Gen.KernelIdeal.Skeleton
import proofs.«180336_j68848325755002_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second graph convolution (region 1): conditions, schedule facts, views

The grid is 8 x 8; point `t` has coordinates `(t / 8, t % 8)`, and `k = t % 8` walks the contraction
axis. The body zeroes the accumulator at `k = 0`, adds one tile product at every point, and writes the
output block at `k = 7`. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there
    or not: where it is not fetched the block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there
    or not: where it is not fetched the block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there
    or not: where it is not fetched the block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there
    or not: where it is not fetched the block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there
    or not: where it is not fetched the block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there
    or not: where it is not fetched the block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, in closed form -/

/-- `k == 0`, as the body computes it from grid coordinate 1. -/
abbrev cond1_0 (i : grid1.Coords) : Prop := (Scalar.cmpi .ne (Scalar.extui (Scalar.cmpi .eq (BitVec.ofNat 32 (i 1).val) 0#32)) 0#32) = 1#1
/-- It holds exactly at the points with `t % 8 = 0`. -/
theorem hcond1_0 : ∀ t : Fin cfg1.N, cond1_0 (grid1.coords t) ↔ t.val % 8 = 0 :=
  (by decide +kernel : ∀ t : Fin grid1.N, cond1_0 (grid1.coords t) ↔ t.val % 8 = 0)

/-- `k == 7`, as the body computes it. -/
abbrev cond1_1 (i : grid1.Coords) : Prop := k1_cond2 i = 1#1
/-- It holds exactly at the points with `t % 8 = 7`. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Away from `k = 7` the output window is idle: nothing is stored into it, -/
theorem idleAt1_6 : ∀ t : Fin cfg1.N, ¬cond1_1 (grid1.coords t) → cfg1.idle 6 (grid1.coords t) = true := by decide +kernel
/-- and its block is not written back. -/
theorem noFlush1_6 : ∀ t : Fin cfg1.N, ¬cond1_1 (grid1.coords t) → (cfg1.win 6).flush t = false := by decide +kernel
/-- At `k = 7` the output window is live. -/
theorem liveAt1_6 : ∀ t : Fin cfg1.N, cond1_1 (grid1.coords t) → cfg1.idle 6 (grid1.coords t) = false := by decide +kernel

/-! ## Staging memrefs, the accumulator, and the invariant's shape -/

/-- One staging buffer of the output window, through which its contents are stated. -/
abbrev VO1_6 : View sig .tc .vmem S1024x64 .f32 := (Memref.whole cc1_stg6_0 : Memref sig .tc .vmem S1024x64 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
/-- The accumulator: a whole scoped buffer of the kernel's own, carried from point to point. -/
abbrev scM1_0 : Memref sig .tc .vmem S1024x64 .f32 := Memref.whole cc1_scratch0
/-- The accumulator as a view. -/
abbrev VS1_0 : View sig .tc .vmem S1024x64 .f32 := scM1_0.view

/-- The core's scoped buffers other than this region's staging buffers and its accumulator, each whole at some
    contents: the body never touches them. -/
def R1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's resting invariant with the accumulator split off as a memref owned at some contents. -/
theorem PhiA1_eq (c : Dev nD) :
    (Pipeline.ΦA spec1 c : sProp 𝕄)
      = iprop(iprop((∃ d, owns (c : Thread nD τ) scM1_0 fullShare d) ∗ R1 (F := F) c) ∗ (∃ r, prngReg c r)) := by
  unfold Pipeline.ΦA R1; rw [scopedRest1_eq]; simp only [scM1_0, owns_whole]
  refine BI.equiv_iff.mp ⟨?_, ?_⟩
  · show (_ : sProp 𝕄) ⊢ _
    iintro ⟨⟨H0, H1, H2, H3, H4, H5, H6, H7, H8, H9, H10, H11, H12, H13, H14, H15, H16, H17, H18, H19⟩, Hg⟩
    isplitr [Hg]
    swap; · iexact Hg
    isplitl [H13]; · iexact H13
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H14]; · iexact H14
    isplitl [H15]; · iexact H15
    isplitl [H16]; · iexact H16
    isplitl [H17]; · iexact H17
    isplitl [H18]; · iexact H18
    iexact H19
  · show (_ : sProp 𝕄) ⊢ _
    iintro ⟨⟨H13, H0, H1, H2, H3, H4, H5, H6, H7, H8, H9, H10, H11, H12, H14, H15, H16, H17, H18, H19⟩, Hg⟩
    isplitr [Hg]
    swap; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.KernelIdeal.Hand

end
-- ==== Proof.KI.Conv1RunA.lean ====
import proofs.«180336_j68848325755002_1_alg».proof.Proof.KI.Conv1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 0`: the accumulator, found at anything, is zeroed and then receives the first tile product; the output window is left as found.
    The pieces the stores leave in the output window (`L6`) and in the accumulator (`LS0`), last store first,
    together with the body's triple on whole staging memrefs: the inputs owned at their contents come back as they were. -/
noncomputable def kernelRun1_A (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨[], ?_, fun xi6 E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Conv1RunB.lean ====
import proofs.«180336_j68848325755002_1_alg».proof.Proof.KI.Conv1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `0 < k < 7`: the accumulator, found at what the point before left, receives one more tile product; the output window is left as found.
    The pieces the stores leave in the output window (`L6`) and in the accumulator (`LS0`), last store first,
    together with the body's triple on whole staging memrefs: the inputs owned at their contents come back as they were. -/
noncomputable def kernelRun1_B (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    Σ' (L6 : List (View.Piece (Elt F) S1024x64 .f32)), { LS0 : List (View.Piece (Elt F) S1024x64 .f32) //
      ∀ (xi6 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨[], ?_, fun xi6 E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Conv1RunC.lean ====
import proofs.«180336_j68848325755002_1_alg».proof.Proof.KI.Conv1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The whole body at the points with `k = 7`: the accumulator receives the last tile product, and the output block is written from it.
    The pieces the stores leave in the output window (`L6`) and in the accumulator (`LS0`), last store first,
    together with the body's triple on whole staging memrefs: the inputs owned at their contents come back as they were. -/
noncomputable def kernelRun1_C (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    Σ' (L6 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc1__gcn_conv_kernel i arg2 harg2 arg3 harg3 arg4 harg4 arg5 harg5 arg6 harg6 arg7 harg7 arg8 harg8 arg9 harg9) K } := by
  refine ⟨?_, ?_, fun E K => ?run⟩
  case run =>
    simp only [cc1__gcn_conv_kernel_eq_skeleton]; unfold cc1__gcn_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Conv1.lean ====
import proofs.«180336_j68848325755002_1_alg».proof.Proof.KI.Conv1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the body leaves point by point, the proof data, the body obligation -/

/-- What the output window's staging buffer reads as after the body's stores of this case, over junk (no store: a placeholder nothing consults, the window being idle and not written back at these points). -/
def out1_A_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) : Vec F S1024x64 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- The stores of this case into the accumulator cover it: the last one is a whole-buffer store. -/
theorem scover1_A_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (y : S1024x64.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1024x64.size (by sl_kernel_rfl) y

/-- What the accumulator reads as after this case's stores. -/
def sout1_A_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) : Vec F S1024x64 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3 x4 x5).2.1)

/-- What the output window's staging buffer reads as after the body's stores of this case, over junk (no store: a placeholder nothing consults, the window being idle and not written back at these points). -/
def out1_B_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover1_B_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What the accumulator reads as after this case's stores. -/
def sout1_B_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 x4 x5 xs0).2.1)

/-- What the output window's staging buffer reads as after the body's stores of this case, over junk. -/
def out1_C_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VO1_6.read (Elt F) (VO1_6.writes (Elt F) VO1_6.junk (kernelRun1_C c i arg2 harg2 arg3 harg3 arg4 harg4 arg5 harg5 arg6 harg6 arg7 harg7 arg8 harg8 arg9 harg9 hc0 hc1 x0 x1 x2 x3 x4 x5 xs0).1)

/-- The stores of this case into the accumulator cover it: the last one is a whole-buffer store. -/
theorem scover1_C_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).2.1 S1024x64.size (by sl_kernel_rfl) y

/-- What the accumulator reads as after this case's stores. -/
def sout1_C_0 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 x4 x5 xs0).2.1)

/-- The one store into the output window is a whole-buffer store: it covers the block. -/
theorem cover1_C_6 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) (y : S1024x64.Idx) :
    ∃ pc ∈ (kernelRun1_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun1_C c i arg2 harg2 arg3 harg3 arg4 harg4 arg5 harg5 arg6 harg6 arg7 harg7 arg8 harg8 arg9 harg9 hc0 hc1 x0 x1 x2 x3 x4 x5 xs0).1 S1024x64.size (by sl_kernel_rfl) y

section Region1
variable (V : (c : Dev nD) → (b : Ref sig .tc) → Buf (Elt F) ((c : Thread nD τ).loc b))

/-- Point `t` in case A: (output window, accumulator) after the body, from the point's blocks. -/
def step1_A (c : Dev nD) (t : Fin cfg1.N) (h0 : t.val % 8 = 0) (h1 : ¬t.val % 8 = 7) : Vec F S1024x64 .f32 × Vec F S1024x64 .f32 :=
  (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))

/-- Point `t` in case B: (output window, accumulator) after the body, from the point's blocks and what the accumulator held before. -/
def step1_B (c : Dev nD) (t : Fin cfg1.N) (h0 : ¬t.val % 8 = 0) (h1 : ¬t.val % 8 = 7) (xs0 : Vec F S1024x64 .f32) : Vec F S1024x64 .f32 × Vec F S1024x64 .f32 :=
  (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) xs0)

/-- Point `t` in case C: (output window, accumulator) after the body, from the point's blocks and what the accumulator held before. -/
def step1_C (c : Dev nD) (t : Fin cfg1.N) (h0 : ¬t.val % 8 = 0) (h1 : t.val % 8 = 7) (xs0 : Vec F S1024x64 .f32) : Vec F S1024x64 .f32 × Vec F S1024x64 .f32 :=
  (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) xs0)

/-- THE ACCUMULATION. What the output window's staging buffer and the accumulator hold after the body at position
    `n`: the case `n % 8` selects, run at the point's blocks, the accumulator entering at what position `n - 1`
    left in it (at `n % 8 = 0` it is zeroed first, so nothing of the past enters). -/
def outsAt1 (c : Dev nD) : (n : ℕ) → n < cfg1.N → Vec F S1024x64 .f32 × Vec F S1024x64 .f32
  | 0, hn => step1_A V c ⟨0, hn⟩ (Nat.zero_mod _) (by simp)
  | n + 1, hn =>
    if h0 : (n + 1) % 8 = 0 then
      step1_A V c ⟨n + 1, hn⟩ h0 (fun h => by dsimp only at h h0; omega)
    else
      if h1 : (n + 1) % 8 = 7 then
        step1_C V c ⟨n + 1, hn⟩ h0 h1 (outsAt1 c n (Nat.lt_of_succ_lt hn)).2
      else
        step1_B V c ⟨n + 1, hn⟩ h0 h1 (outsAt1 c n (Nat.lt_of_succ_lt hn)).2

/-- `outsAt1` at a point with `k = 0`. -/
theorem outsAt1_A (c : Dev nD) (t : Fin cfg1.N) (h0 : t.val % 8 = 0) (h1 : ¬t.val % 8 = 7) :
    outsAt1 V c t.val t.isLt = step1_A V c t h0 h1 := by
  obtain ⟨n, hn⟩ := t
  cases n with
  | zero => rfl
  | succ n => exact (dif_pos h0).trans rfl

/-- `outsAt1` at a point with `0 < k < 7`: over what the point before left in the accumulator. -/
theorem outsAt1_B (c : Dev nD) (t : Fin cfg1.N) (h0 : ¬t.val % 8 = 0) (h1 : ¬t.val % 8 = 7) :
    outsAt1 V c t.val t.isLt = step1_B V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point with `k = 7`: over what the point before left in the accumulator. -/
theorem outsAt1_C (c : Dev nD) (t : Fin cfg1.N) (h0 : ¬t.val % 8 = 0) (h1 : t.val % 8 = 7) :
    outsAt1 V c t.val t.isLt = step1_C V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the resting invariant (the accumulator at
    anything); afterwards the accumulator at what the point before left, the other scoped buffers at anything, the
    generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ R1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ R1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ R1 (F := F) c) ∗ (∃ r, prngReg c r)) := by
  cases n with
  | zero => exact absurd rfl hz
  | succ n => rfl

/-! ## The pipeline's proof data -/

/-- The proof data of region 1's pipeline on core `c`: the arrays as the region finds them; after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The invariant before the first point is the resting invariant. -/
theorem Phi1_zero (c : Dev nD) : (dat1 V c).Φ 0 = Pipeline.ΦA spec1 c := rfl

/-- After any point but the first position the invariant gives the resting invariant back: the accumulator's
    named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi1_out V c _ (by rw [Fin.val_last]; have : cfg1.N = 64 := N_1; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at the very first point (`k = 0`, the invariant the resting one: the accumulator at anything). -/
theorem sound_body1_A0 (c : Dev nD) (t : Fin cfg1.N) (h0 : t.val % 8 = 0) (h1 : ¬t.val % 8 = 7) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_A V c t h0 h1]
  unfold step1_A sout1_A_0; (try dsimp only)
  rw [PhiS1_castSucc V c t, PhiS1_zero V c _ _ hz, PhiA1_eq]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a later point with `k = 0`: the accumulator's old contents are overwritten. -/
theorem sound_body1_A (c : Dev nD) (t : Fin cfg1.N) (h0 : t.val % 8 = 0) (h1 : ¬t.val % 8 = 7) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_A V c t h0 h1]
  unfold step1_A sout1_A_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexists _; iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `0 < k < 7`. -/
theorem sound_body1_B (c : Dev nD) (t : Fin cfg1.N) (h0 : ¬t.val % 8 = 0) (h1 : ¬t.val % 8 = 7) :
    bodyPre1 V c t ⊢ wp frame (wpE (defs₀ (F := F)) Variants.none c none) Set.univ (bodyAt1 t) (fun _ => bodyPost1 V c t) := by
  have hz : t.val ≠ 0 := fun hz => h0 (by rw [hz])
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (fun h => h1 ((hcond1_1 t).mp h))) (noFlush1_6 t (fun h => h1 ((hcond1_1 t).mp h)))]
  rw [outsAt1_B V c t h0 h1]
  unfold step1_B sout1_B_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  iintro ⟨H0, H1, H2, H3, H4, H5, H6, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 4800000 in
/-- The body at a point with `k = 7`: the output block is written. -/
theorem sound_body1_C (c : Dev nD) (t : Fin cfg1.N) (h0 : ¬t.val % 8 = 0) (h1 : t.val % 8 = 7) :
    bodyPre1 V c t ⊢ wp frame (wpE (defs₀ (F := F)) Variants.none c none) Set.univ (bodyAt1 t) (fun _ => bodyPost1 V c t) := by
  have hz : t.val ≠ 0 := fun hz => h0 (by rw [hz])
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t ((hcond1_1 t).mpr h1)], after1_6]
  rw [outsAt1_C V c t h0 h1]
  unfold step1_C out1_C_6 sout1_C_0; (try dsimp only)
  rw [PhiS1_castSucc V c t, PhiS1_pos V c _ _ hz]
  iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%es0, HS0⟩⟩
  isplitl [HS0 HR Hg]
  · isplitl [HS0 HR]
    · isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_C_6 c _ _ _ _ _ _ _ _ _ _ _ _ _ _ _ _ _ _ _ _ _ _ _ _ _ _)

/-- The body at any point: `t % 8` says which case the point is in. -/
theorem sound_body1 (c : Dev nD) (t : Fin cfg1.N) : bodyPre1 V c t ⊢ wp frame (wpE (defs₀ (F := F)) Variants.none c none) Set.univ (bodyAt1 t) (fun _ => bodyPost1 V c t) := by
  by_cases h0 : t.val % 8 = 0
  · have h1 : ¬t.val % 8 = 7 := by omega
    by_cases hz : t.val = 0
    · exact sound_body1_A0 V c t h0 h1 hz
    · exact sound_body1_A V c t h0 h1 hz
  · by_cases h1 : t.val % 8 = 7
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
import proofs.«180336_j68848325755002_1_alg».proof.Proof.Gen.KernelIdeal.Launch
import proofs.«180336_j68848325755002_1_alg».proof.Proof.Gen.KernelIdeal.Skeleton
import proofs.«180336_j68848325755002_1_alg».proof.Proof.Gen.KernelIdeal.Points
import proofs.«180336_j68848325755002_1_alg».proof.Proof.Gen.KernelIdeal.Regions
import proofs.«180336_j68848325755002_1_alg».proof.Proof.KI.Cls
import proofs.«180336_j68848325755002_1_alg».proof.Proof.KI.Conv0
import proofs.«180336_j68848325755002_1_alg».proof.Proof.KI.Conv1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The run of @main over its three regions

@main is: three stretches of host operations (the degrees of the adjacency matrix and their reshapes), the first
graph convolution, a one-operation stretch (the second bias row reshaped), the second graph convolution, a
one-operation stretch (the classifier's bias row reshaped), the classifier. The run is followed as a fold of the
TensorCore's buffer contents through these eight items, from the launch memory: a host stretch acts by
`StableHlo.after`, a region replaces its windows' arrays by what its write-backs leave and keeps every other
buffer. At the end the result buffer holds the last region's output array and every argument holds what it was
launched with. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (row maxima of the adjacency matrix, the comparison mask). -/
abbrev W1 : Dev nD → Valuation τ sig (Elt F) := fun c => StableHlo.after hostOps0 (W0 m ρ c)
/-- After the second (the arg-max call). -/
abbrev W2 : Dev nD → Valuation τ sig (Elt F) := fun c => StableHlo.after hostOps0_1 (W1 m ρ c)
/-- After the third (the gathered degrees and the reshapes): the first convolution's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At the first convolution's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m ρ c b
/-- At the exit each array of the region holds what the pipeline leaves, every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the one-operation stretch before the second convolution: its entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At the second convolution's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m ρ c b
/-- At the exit each array of the region holds what the pipeline leaves, every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the one-operation stretch before the classifier: its entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At the classifier's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m ρ c b
/-- At the exit each array of the region holds what the pipeline leaves, every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-! ### The arguments end as launched: no host operation writes one, and a region either reads it through an input
    window or does not touch it, so the fold at an argument's buffer walks back to the launch memory -/

theorem W8_main_arg0 (c : Dev nD) : W8 m ρ c (Proc.devRef .tc main_arg0) = m ((c : Thread nD τ).loc main_arg0) :=
  calc W8 m ρ c (Proc.devRef .tc main_arg0)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W8_main_arg1 (c : Dev nD) : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := (W4_arr m ρ c 1).trans (((dat0 (V3 m ρ) c).arrAt_in 1 rfl _).trans (A_eq0 (V3 m ρ) c 1))
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W8_main_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := (W6_arr m ρ c 0).trans (((dat1 (V5 m ρ) c).arrAt_in 0 rfl _).trans (A_eq1 (V5 m ρ) c 0))
    _ = W4 m ρ c (Proc.devRef .tc main_arg2) := StableHlo.after_of_writes_sub hostOps1 _ hostOps1_writes (by decide)
    _ = W3 m ρ c (Proc.devRef .tc main_arg2) := (W4_arr m ρ c 0).trans (((dat0 (V3 m ρ) c).arrAt_in 0 rfl _).trans (A_eq0 (V3 m ρ) c 0))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W8_main_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 4).trans (((dat0 (V3 m ρ) c).arrAt_in 4 rfl _).trans (A_eq0 (V3 m ρ) c 4))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W8_main_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W8_main_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := (W6_arr m ρ c 4).trans (((dat1 (V5 m ρ) c).arrAt_in 4 rfl _).trans (A_eq1 (V5 m ρ) c 4))
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W8_main_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W8_main_arg7 (c : Dev nD) : W8 m ρ c (Proc.devRef .tc main_arg7) = m ((c : Thread nD τ).loc main_arg7) :=
  calc W8 m ρ c (Proc.devRef .tc main_arg7)
    _ = W7 m ρ c (Proc.devRef .tc main_arg7) := (W8_arr m ρ c 1).trans (((dat2 (V7 m ρ) c).arrAt_in 1 rfl _).trans (A_eq2 (V7 m ρ) c 1))
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W8_main_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- The first graph convolution over the thread state: entered from every unscoped buffer at `W3`, left at `W4`. Its arrays split out of the unscoped buffers and put back at the exit contents; the generator register goes into the region's invariant at the first point and comes out of it at the last; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun w => A_eq0 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_zero (V3 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second graph convolution: entered at `W5`, left at `W6`, as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun w => A_eq1 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V5 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The classifier: entered at `W7`, left at `W8` (what the launch reads at the end); its invariant is the class's, the same at every point. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]
/-- @main IS the run of the segments: it is the chain of its items, and the segments' run is the chain of theirs. -/
theorem main_run (c : Dev nD) : main (F := F) c = Pipeline.Seg.run (segs m ρ) := by
  rw [main_chain c, Pipeline.Seg.run_eq_chain]; rfl

set_option backward.isDefEq.respectTransparency.types false in
/-- THE RUN: from any memory with zero counters, every weakly fair execution of @main on the TensorCores terminates,
    nothing faulting, and every final state has the result buffer at the classifier's output array as the fold leaves
    it and every argument array as launched. -/
theorem run_main : θ_run defs (onTc (τ := τ) (main (F := F))) ⟨m, fun _ => 0, ρ⟩ (fun r => ∀ c : Dev nD,
      r.2.mem ((c.tc : Thread nD τ).loc main_v18) = W8 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v18 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)

end Cert.KernelIdeal.Hand

end
-- ==== Proof.KI.Host.lean ====
import proofs.«180336_j68848325755002_1_alg».proof.Proof.KI.Run

/-! # What each region finds in the arrays its windows stage, in terms of the launch memory

The host operations before the first graph convolution compute, from the degree matrix `d` (argument 0) and the
adjacency matrix `a` (argument 2): the row maxima of `d` (`degK d`); for each row of `a` the column index of its
first positive entry, negative indices wrapped by the row count (`firstIdxK a`); and the row maxima gathered at
those indices (`degFirstK d a`). The first is reshaped to a row, the last to a column, and the bias vectors are
reshaped to rows. Each stretch is first read at an arbitrary valuation, then the stretches are composed along the
fold of the run. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host chain, named -/

/-- The row maxima of `d` (a maximum-reduction along the columns from −∞). -/
def degK (d : FVec F S8192x8192 .f32) : FVec F S8192 .f32 :=
  Host.reduce FloatOps.maximumf d (constant (F := F) S_ .f32 0xFF800000#32) reducesTo_S8192x8192_S8192_d1 h_S_

/-- Where `a` is positive. -/
def posMaskK (a : FVec F S8192x8192 .f32) : IVec S8192x8192 1 :=
  cmpf .ogt a (broadcastInDim S8192x8192 ![] bcast_S_S8192x8192 (constant (F := F) S_ .f32 0x00000000#32))

/-- Per row of a mask, the column index the arg-max reducer selects (the second component of the two-operand
    reduction of the mask and the column iota). -/
def argIdxK (mk : IVec S8192x8192 1) : IVec S8192 32 :=
  fun j => (Host.reduce2 reducer_argmax_i1_i32 mk (iotaInDim S8192x8192 32 1) (constantI S_ 1 0#1) (constantI S_ 32 0#32) reducesTo_S8192x8192_S8192_d1 h_S_ j).2

/-- A negative index wrapped by 8192, then the indices as a column. -/
def wrapIdxK (i : IVec S8192 32) : IVec S8192x1 32 :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 8192#32))) i)

/-- Per row of `a`, the (wrapped) column index of its selected positive entry, as a column. -/
def firstIdxK (a : FVec F S8192x8192 .f32) : IVec S8192x1 32 := wrapIdxK (argIdxK (posMaskK a))

/-- The row maxima of `d` gathered at those indices. -/
def degFirstK (d a : FVec F S8192x8192 .f32) : FVec F S8192 .f32 :=
  Host.gather gather_S8192_S8192x1_S8192_n_0_n_n_0_1_1 (degK d) (firstIdxK a)

/-! ## Each stretch at an arbitrary valuation -/

section Stretch
variable (X : Valuation τ sig (Elt F))

theorem hostOps0_v0 : StableHlo.after hostOps0 X (Proc.devRef .tc main_v0) = degK (X (Proc.devRef .tc main_arg0) : FVec F S8192x8192 .f32) := by
  after_results; rfl
theorem hostOps0_v2 : StableHlo.after hostOps0 X (Proc.devRef .tc main_v2) = posMaskK (X (Proc.devRef .tc main_arg2) : FVec F S8192x8192 .f32) := by
  after_results; rfl
theorem hostOps0_1_v3 : StableHlo.after hostOps0_1 X (Proc.devRef .tc main_v3) = argIdxK (X (Proc.devRef .tc main_v2) : IVec S8192x8192 1) := by
  after_results; rfl
theorem hostOps0_2_v11 : StableHlo.after hostOps0_2 X (Proc.devRef .tc main_v11)
    = shapeCast S8192x1 (Host.gather gather_S8192_S8192x1_S8192_n_0_n_n_0_1_1 (X (Proc.devRef .tc main_v0) : FVec F S8192 .f32)
        (wrapIdxK (X (Proc.devRef .tc main_v3) : IVec S8192 32))) shapeCasts_S8192_S8192x1 := by
  after_results; rfl
theorem hostOps0_2_v12 : StableHlo.after hostOps0_2 X (Proc.devRef .tc main_v12)
    = shapeCast S1x8192 (X (Proc.devRef .tc main_v0) : FVec F S8192 .f32) shapeCasts_S8192_S1x8192 := by
  after_results; rfl
theorem hostOps0_2_v13 : StableHlo.after hostOps0_2 X (Proc.devRef .tc main_v13)
    = shapeCast S1x64 (X (Proc.devRef .tc main_arg4) : FVec F S64 .f32) shapeCasts_S64_S1x64 := by
  after_results; rfl
theorem hostOps1_v15 : StableHlo.after hostOps1 X (Proc.devRef .tc main_v15)
    = shapeCast S1x64 (X (Proc.devRef .tc main_arg6) : FVec F S64 .f32) shapeCasts_S64_S1x64 := by
  after_results; rfl
theorem hostOps2_v17 : StableHlo.after hostOps2 X (Proc.devRef .tc main_v17)
    = shapeCast S1x16 (X (Proc.devRef .tc main_arg8) : FVec F S16 .f32) shapeCasts_S16_S1x16 := by
  after_results; rfl

end Stretch

/-! ## Along the fold -/

variable (m : (ℓ : Loc nD τ sig) → Buf (Elt F) ℓ) (ρ : Dev nD → PrngReg)

/-! ### What a boundary keeps: a host stretch every buffer it does not write, a region every buffer but its output array -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W2_keep (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_keep (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W5_keep (c : Dev nD) (r : Ref sig .tc) (h : r ∉ hostOps1_W) : W5 m ρ c (Proc.devRef .tc r) = W4 m ρ c (Proc.devRef .tc r) :=
  StableHlo.after_of_writes_sub hostOps1 _ hostOps1_writes h
theorem W7_keep (c : Dev nD) (r : Ref sig .tc) (h : r ∉ hostOps2_W) : W7 m ρ c (Proc.devRef .tc r) = W6 m ρ c (Proc.devRef .tc r) :=
  StableHlo.after_of_writes_sub hostOps2 _ hostOps2_writes h

/-- A buffer no host operation before the first convolution writes holds its launch contents there. -/
theorem W3_launch (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (W3_keep m ρ c r h2).trans ((W2_keep m ρ c r h1).trans ((W1_keep m ρ c r h0).trans rfl))

/-- The first convolution changes its output array only: an input window's array is left as entered, any other buffer
    is not touched. -/
theorem W4_keep (c : Dev nD) (r : Ref sig .tc) (hr : r ≠ main_v14) : W4 m ρ c (Proc.devRef .tc r) = W3 m ρ c (Proc.devRef .tc r) := by
  by_cases h : ∃ w, Pipeline.arrRef spec0 w = r
  · obtain ⟨w, rfl⟩ := h
    have hw : (cfg0.win w).isOut = false :=
      (by decide : ∀ w : Fin 7, Pipeline.arrRef spec0 w ≠ main_v14 → (cfg0.win w).isOut = false) w hr
    exact (W4_arr m ρ c w).trans (((dat0 (V3 m ρ) c).arrAt_in w hw _).trans (A_eq0 (V3 m ρ) c w))
  · exact W4_of_ne m ρ c r fun w e => h ⟨w, e⟩
/-- The second convolution likewise. -/
theorem W6_keep (c : Dev nD) (r : Ref sig .tc) (hr : r ≠ main_v16) : W6 m ρ c (Proc.devRef .tc r) = W5 m ρ c (Proc.devRef .tc r) := by
  by_cases h : ∃ w, Pipeline.arrRef spec1 w = r
  · obtain ⟨w, rfl⟩ := h
    have hw : (cfg1.win w).isOut = false :=
      (by decide : ∀ w : Fin 7, Pipeline.arrRef spec1 w ≠ main_v16 → (cfg1.win w).isOut = false) w hr
    exact (W6_arr m ρ c w).trans (((dat1 (V5 m ρ) c).arrAt_in w hw _).trans (A_eq1 (V5 m ρ) c w))
  · exact W6_of_ne m ρ c r fun w e => h ⟨w, e⟩
/-- The classifier likewise. -/
theorem W8_keep (c : Dev nD) (r : Ref sig .tc) (hr : r ≠ main_v18) : W8 m ρ c (Proc.devRef .tc r) = W7 m ρ c (Proc.devRef .tc r) := by
  by_cases h : ∃ w, Pipeline.arrRef spec2 w = r
  · obtain ⟨w, rfl⟩ := h
    have hw : (cfg2.win w).isOut = false :=
      (by decide : ∀ w : Fin 4, Pipeline.arrRef spec2 w ≠ main_v18 → (cfg2.win w).isOut = false) w hr
    exact (W8_arr m ρ c w).trans (((dat2 (V7 m ρ) c).arrAt_in w hw _).trans (A_eq2 (V7 m ρ) c w))
  · exact W8_of_ne m ρ c r fun w e => h ⟨w, e⟩

/-! ### The shared host values at the second boundary -/

theorem W2_v0 (c : Dev nD) : (W2 m ρ c (Proc.devRef .tc main_v0) : FVec F S8192 .f32) = degK (m ((c : Thread nD τ).loc main_arg0)) :=
  (W2_keep m ρ c main_v0 (by decide)).trans (hostOps0_v0 (W0 m ρ c))
theorem W2_v3 (c : Dev nD) : (W2 m ρ c (Proc.devRef .tc main_v3) : IVec S8192 32) = argIdxK (posMaskK (m ((c : Thread nD τ).loc main_arg2))) :=
  (hostOps0_1_v3 (W1 m ρ c)).trans (congrArg argIdxK (hostOps0_v2 (W0 m ρ c)))

/-! ### What the first convolution finds -/

theorem V3_main_arg2 (c : Dev nD) : V3 m ρ c main_arg2 = m ((c : Thread nD τ).loc main_arg2) := W3_launch m ρ c main_arg2 (by decide) (by decide) (by decide)
theorem V3_main_arg1 (c : Dev nD) : V3 m ρ c main_arg1 = m ((c : Thread nD τ).loc main_arg1) := W3_launch m ρ c main_arg1 (by decide) (by decide) (by decide)
theorem V3_main_arg3 (c : Dev nD) : V3 m ρ c main_arg3 = m ((c : Thread nD τ).loc main_arg3) := W3_launch m ρ c main_arg3 (by decide) (by decide) (by decide)
/-- The column of gathered row maxima. -/
theorem V3_main_v11 (c : Dev nD) : (V3 m ρ c main_v11 : FVec F S8192x1 .f32)
    = shapeCast S8192x1 (degFirstK (m ((c : Thread nD τ).loc main_arg0)) (m ((c : Thread nD τ).loc main_arg2))) shapeCasts_S8192_S8192x1 :=
  (hostOps0_2_v11 (W2 m ρ c)).trans (by rw [W2_v0 m ρ c, W2_v3 m ρ c]; rfl)
/-- The row of row maxima. -/
theorem V3_main_v12 (c : Dev nD) : (V3 m ρ c main_v12 : FVec F S1x8192 .f32)
    = shapeCast S1x8192 (degK (m ((c : Thread nD τ).loc main_arg0))) shapeCasts_S8192_S1x8192 :=
  (hostOps0_2_v12 (W2 m ρ c)).trans (by rw [W2_v0 m ρ c])
/-- The first bias as a row. -/
theorem V3_main_v13 (c : Dev nD) : (V3 m ρ c main_v13 : FVec F S1x64 .f32)
    = shapeCast S1x64 (m ((c : Thread nD τ).loc main_arg4) : FVec F S64 .f32) shapeCasts_S64_S1x64 :=
  (hostOps0_2_v13 (W2 m ρ c)).trans (by rw [show W2 m ρ c (Proc.devRef .tc main_arg4) = m ((c : Thread nD τ).loc main_arg4) from
    (W2_keep m ρ c main_arg4 (by decide)).trans ((W1_keep m ρ c main_arg4 (by decide)).trans rfl)])

/-! ### What the second convolution finds -/

theorem V5_main_arg2 (c : Dev nD) : V5 m ρ c main_arg2 = m ((c : Thread nD τ).loc main_arg2) :=
  (W5_keep m ρ c main_arg2 (by decide)).trans ((W4_keep m ρ c main_arg2 (by decide)).trans (V3_main_arg2 m ρ c))
theorem V5_main_v11 (c : Dev nD) : V5 m ρ c main_v11 = V3 m ρ c main_v11 :=
  (W5_keep m ρ c main_v11 (by decide)).trans (W4_keep m ρ c main_v11 (by decide))
theorem V5_main_v12 (c : Dev nD) : V5 m ρ c main_v12 = V3 m ρ c main_v12 :=
  (W5_keep m ρ c main_v12 (by decide)).trans (W4_keep m ρ c main_v12 (by decide))
theorem V5_main_arg5 (c : Dev nD) : V5 m ρ c main_arg5 = m ((c : Thread nD τ).loc main_arg5) :=
  (W5_keep m ρ c main_arg5 (by decide)).trans ((W4_keep m ρ c main_arg5 (by decide)).trans (W3_launch m ρ c main_arg5 (by decide) (by decide) (by decide)))
/-- The first convolution's output array, as its write-backs leave it. -/
theorem V5_main_v14 (c : Dev nD) : V5 m ρ c main_v14 = (dat0 (V3 m ρ) c).arrAt 6 cfg0.N :=
  (W5_keep m ρ c main_v14 (by decide)).trans (W4_arr m ρ c 6)
/-- The second bias as a row. -/
theorem V5_main_v15 (c : Dev nD) : (V5 m ρ c main_v15 : FVec F S1x64 .f32)
    = shapeCast S1x64 (m ((c : Thread nD τ).loc main_arg6) : FVec F S64 .f32) shapeCasts_S64_S1x64 :=
  (hostOps1_v15 (W4 m ρ c)).trans (by rw [show W4 m ρ c (Proc.devRef .tc main_arg6) = m ((c : Thread nD τ).loc main_arg6) from
    (W4_keep m ρ c main_arg6 (by decide)).trans (W3_launch m ρ c main_arg6 (by decide) (by decide) (by decide))])

/-! ### What the classifier finds, and what it leaves -/

/-- The second convolution's output array, as its write-backs leave it. -/
theorem V7_main_v16 (c : Dev nD) : V7 m ρ c main_v16 = (dat1 (V5 m ρ) c).arrAt 6 cfg1.N :=
  (W7_keep m ρ c main_v16 (by decide)).trans (W6_arr m ρ c 6)
theorem V7_main_arg7 (c : Dev nD) : V7 m ρ c main_arg7 = m ((c : Thread nD τ).loc main_arg7) :=
  (W7_keep m ρ c main_arg7 (by decide)).trans ((W6_keep m ρ c main_arg7 (by decide)).trans ((W5_keep m ρ c main_arg7 (by decide)).trans
    ((W4_keep m ρ c main_arg7 (by decide)).trans (W3_launch m ρ c main_arg7 (by decide) (by decide) (by decide)))))
/-- The classifier's bias as a row. -/
theorem V7_main_v17 (c : Dev nD) : (V7 m ρ c main_v17 : FVec F S1x16 .f32)
    = shapeCast S1x16 (m ((c : Thread nD τ).loc main_arg8) : FVec F S16 .f32) shapeCasts_S16_S1x16 :=
  (hostOps2_v17 (W6 m ρ c)).trans (by rw [show W6 m ρ c (Proc.devRef .tc main_arg8) = m ((c : Thread nD τ).loc main_arg8) from
    (W6_keep m ρ c main_arg8 (by decide)).trans ((W5_keep m ρ c main_arg8 (by decide)).trans
      ((W4_keep m ρ c main_arg8 (by decide)).trans (W3_launch m ρ c main_arg8 (by decide) (by decide) (by decide))))])
/-- The result buffer at the end of the run: the classifier's output array, as its write-backs leave it. -/
theorem W8_main_v18 (c : Dev nD) : W8 m ρ c (Proc.devRef .tc main_v18) = (dat2 (V7 m ρ) c).arrAt 3 cfg2.N :=
  W8_arr m ρ c 3

end Cert.KernelIdeal.Hand

end
-- ==== Proof.KI.Conv0Pieces.lean ====
import proofs.«180336_j68848325755002_1_alg».proof.Proof.KI.Conv0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the stores of each case read back as, over the arithmetic of the body

`k0_pay1` is the zero tile, `k0_pay2` one accumulation step (of the adjacency tile, the two degree vectors, the
feature tile and the accumulator's previous contents), `k0_pay3` the epilogue (of the accumulator, the weights and
the bias). -/

theorem hz0 : (![0, 0] : Fin 2 → Nat) = fun _ => 0 := funext fun a => by fin_cases a <;> rfl

set_option maxHeartbeats 1000000 in
/-- At `k = 0` the accumulator ends as one step over the zero tile. -/
theorem soutA_eq0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) :
    sout0_A_0 c i arg2 harg2 arg3 harg3 arg4 harg4 arg5 harg5 arg6 harg6 arg7 harg7 arg8 harg8 arg9 harg9 hc0 hc1 x0 x1 x2 x3 x4 x5 = k0_pay2 x0 x2 x3 x1 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  try sl_unfold_words
  rw [View.canon_cons_unit_zero hz0]
  simp only [View.readAt_eq_ld, View.readCov_unit_zero (S := S1024x128) _ hz0, harg2.read_unread, harg3.read_unread, harg4.read_unread, harg5.read_unread, harg6.read_unread, harg7.read_unread, harg9.read_unread, View.ld_unit_zero (S := S1024x1024) hz0, View.ld_unit_zero (S := S1024x128) hz0, View.ld_unit_zero (S := S1024x1) hz0, View.ld_unit_zero (S := S1x1024) hz0, View.ld_unit_zero (S := S128x64) hz0, View.ld_unit_zero (S := S1x64) hz0, View.ld_unit_zero (S := S1024x64) hz0, shapeCast_self]

set_option maxHeartbeats 1000000 in
/-- At `0 < k < 7` the accumulator ends as one step over its previous contents. -/
theorem soutB_eq0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : ¬cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    sout0_B_0 c i arg2 harg2 arg3 harg3 arg4 harg4 arg5 harg5 arg6 harg6 arg7 harg7 arg8 harg8 arg9 harg9 hc0 hc1 x0 x1 x2 x3 x4 x5 xs0 = k0_pay2 x0 x2 x3 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  try sl_unfold_words
  rw [View.canon_unit_zero hz0]
  simp only [View.readAt_eq_ld, harg2.read_unread, harg3.read_unread, harg4.read_unread, harg5.read_unread, harg6.read_unread, harg7.read_unread, harg9.read_unread, View.ld_unit_zero (S := S1024x1024) hz0, View.ld_unit_zero (S := S1024x128) hz0, View.ld_unit_zero (S := S1024x1) hz0, View.ld_unit_zero (S := S1x1024) hz0, View.ld_unit_zero (S := S128x64) hz0, View.ld_unit_zero (S := S1x64) hz0, View.ld_unit_zero (S := S1024x64) hz0, shapeCast_self]

set_option maxHeartbeats 1000000 in
/-- At `k = 7` the accumulator ends as one step over its previous contents, -/
theorem soutC_eq0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    sout0_C_0 c i arg2 harg2 arg3 harg3 arg4 harg4 arg5 harg5 arg6 harg6 arg7 harg7 arg8 harg8 arg9 harg9 hc0 hc1 x0 x1 x2 x3 x4 x5 xs0 = k0_pay2 x0 x2 x3 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  try sl_unfold_words
  rw [View.canon_unit_zero hz0]
  simp only [View.readAt_eq_ld, harg2.read_unread, harg3.read_unread, harg4.read_unread, harg5.read_unread, harg6.read_unread, harg7.read_unread, harg9.read_unread, View.ld_unit_zero (S := S1024x1024) hz0, View.ld_unit_zero (S := S1024x128) hz0, View.ld_unit_zero (S := S1024x1) hz0, View.ld_unit_zero (S := S1x1024) hz0, View.ld_unit_zero (S := S128x64) hz0, View.ld_unit_zero (S := S1x64) hz0, View.ld_unit_zero (S := S1024x64) hz0, shapeCast_self]

set_option maxHeartbeats 1000000 in
/-- and the output block is the epilogue of that. -/
theorem outC_eq0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x128 .f32) (harg9 : arg9.IsWhole) (hc0 : ¬cond0_0 i) (hc1 : cond0_1 i)
    (x0 : Vec F S1024x1024 .f32) (x1 : Vec F S1024x128 .f32) (x2 : Vec F S1024x1 .f32) (x3 : Vec F S1x1024 .f32) (x4 : Vec F S128x64 .f32) (x5 : Vec F S1x64 .f32) (xs0 : Vec F S1024x128 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 x2 x3 x1 xs0) x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  try sl_unfold_words
  rw [View.canon_unit_zero hz0]
  simp only [View.readAt_eq_ld, View.readCov_unit_zero (S := S1024x128) _ hz0, harg2.read_unread, harg3.read_unread, harg4.read_unread, harg5.read_unread, harg6.read_unread, harg7.read_unread, harg9.read_unread, View.ld_unit_zero (S := S1024x1024) hz0, View.ld_unit_zero (S := S1024x128) hz0, View.ld_unit_zero (S := S1024x1) hz0, View.ld_unit_zero (S := S1x1024) hz0, View.ld_unit_zero (S := S128x64) hz0, View.ld_unit_zero (S := S1x64) hz0, View.ld_unit_zero (S := S1024x64) hz0, shapeCast_self]

section Region0
variable (V : (c : Dev nD) → (b : Ref sig .tc) → Buf (Elt F) ((c : Thread nD τ).loc b))

theorem step0_A_snd (c : Dev nD) (t : Fin cfg0.N) (h0 : t.val % 8 = 0) (h1 : ¬t.val % 8 = 7) :
    (step0_A V c t h0 h1).2 = k0_pay2 (iblk0 V c 0 t) (iblk0 V c 2 t) (iblk0 V c 3 t) (iblk0 V c 1 t) k0_pay1 := by
  unfold step0_A; dsimp only; exact soutA_eq0 ..

theorem step0_B_snd (c : Dev nD) (t : Fin cfg0.N) (h0 : ¬t.val % 8 = 0) (h1 : ¬t.val % 8 = 7) (xs0 : Vec F S1024x128 .f32) :
    (step0_B V c t h0 h1 xs0).2 = k0_pay2 (iblk0 V c 0 t) (iblk0 V c 2 t) (iblk0 V c 3 t) (iblk0 V c 1 t) xs0 := by
  unfold step0_B; dsimp only; exact soutB_eq0 ..

theorem step0_C_snd (c : Dev nD) (t : Fin cfg0.N) (h0 : ¬t.val % 8 = 0) (h1 : t.val % 8 = 7) (xs0 : Vec F S1024x128 .f32) :
    (step0_C V c t h0 h1 xs0).2 = k0_pay2 (iblk0 V c 0 t) (iblk0 V c 2 t) (iblk0 V c 3 t) (iblk0 V c 1 t) xs0 := by
  unfold step0_C; dsimp only; exact soutC_eq0 ..

theorem step0_C_fst (c : Dev nD) (t : Fin cfg0.N) (h0 : ¬t.val % 8 = 0) (h1 : t.val % 8 = 7) (xs0 : Vec F S1024x128 .f32) :
    (step0_C V c t h0 h1 xs0).1 = k0_pay3 (k0_pay2 (iblk0 V c 0 t) (iblk0 V c 2 t) (iblk0 V c 3 t) (iblk0 V c 1 t) xs0) (iblk0 V c 4 t) (iblk0 V c 5 t) := by
  unfold step0_C; dsimp only; exact outC_eq0 ..

end Region0

end Cert.KernelIdeal.Hand

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«180336_j68848325755002_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.KI.Pay0.lean ====
/-
  The arithmetic of the first graph-convolution kernel, entry by entry, over the extended reals.

  One grid point of the kernel holds a [1024, 1024] tile `a` of the adjacency matrix, the 1024 row degrees of the tile's
  rows as a column `col`, the 1024 column degrees of the tile's columns as a row `row`, a [1024, 128] tile `h` of the
  features and the running accumulator `acc`.  The accumulate step adds to `acc (p, f)` the tile's share of the normalised
  aggregation, `Σ_c a (p, c) · rsqrt (col p · row c) · h (c, f)`: the two degree vectors are spread over the tile, multiplied,
  the reciprocal square root taken and multiplied into the tile entry by entry, and the product with `h` is a plain matrix
  product into zero (the narrowing of both operands to a shorter format is the identity on extended reals).
  The epilogue, at the last tile of a row block, turns the finished accumulator into the layer's output:
  `lin (p, o) = Σ_f acc (p, f) · w (f, o) + b o`, then `lin` where `0 < lin` and `0.01 · lin` elsewhere.
-/
import proofs.«180336_j68848325755002_1_alg».proof.Proof.Gen.KernelIdeal.Skeleton
import proofs.«180336_j68848325755002_1_alg».proof.Proof.LibPlainDotFormats
import proofs.«180336_j68848325755002_1_alg».proof.Proof.LibKeepdims
import proofs.«180336_j68848325755002_1_alg».proof.Proof.LibRowLayout
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

/-- The tile product of the accumulate step contracts the tile's columns against the feature tile's rows. -/
theorem plain_tile0 : Cert.LibPlainDot.Plain dot_S1024x1024_S1024x128_S1024x128_1_0_0_1_n_n := ⟨rfl, rfl, rfl, rfl, rfl, rfl⟩

/-- The epilogue's product contracts the accumulator's features against the weight's rows. -/
theorem plain_lin0 : Cert.LibPlainDot.Plain dot_S1024x128_S128x64_S1024x64_1_0_0_1_n_n := ⟨rfl, rfl, rfl, rfl, rfl, rfl⟩

/-- The accumulate step at entry `(p, f)`. -/
theorem pay2_apply0 (a : Vec Ideal S1024x1024 .f32) (col : Vec Ideal S1024x1 .f32) (row : Vec Ideal S1x1024 .f32)
    (h acc : Vec Ideal S1024x128 .f32) (p : Fin 1024) (f : Fin 128) :
    k0_pay2 (F := Ideal) a col row h acc (ix2 p f)
      = acc (ix2 p f) + ∑ c : Fin 1024,
          (a (ix2 p c) * Ideal.rsqrt (col (ix2 p (0 : Fin 1)) * row (ix2 (0 : Fin 1) c))) * h (ix2 c f) := by
  unfold k0_pay2
  simp only [shapeCast_self]
  rw [addf_apply]
  refine congrArg _ ((plain_tile0.matmul_zero_apply_formats none _ _ p f).trans (Finset.sum_congr rfl fun c _ => ?_))
  rw [truncf_apply, truncf_apply, mulf_apply]
  rw [show ∀ (v : FVec Ideal S1024x1024 .f32) (i : S1024x1024.Idx), rsqrt v i = Ideal.rsqrt (v i) from fun _ _ => rfl,
    mulf_apply, Cert.LibKeepdims.broadcastTo_a1_ab_apply, Cert.LibRowLayout.broadcastTo_1b_ab_apply]

/-- The zero the accumulator is reset to. -/
theorem pay1_apply0 (j : S1024x128.Idx) : k0_pay1 (F := Ideal) j = 0 := by
  unfold k0_pay1
  simp only [shapeCast_self]
  exact Ideal.ofBits_zero_f32

/-- The epilogue at entry `(p, o)`. -/
theorem pay3_apply0 (acc : Vec Ideal S1024x128 .f32) (w : Vec Ideal S128x64 .f32) (b : Vec Ideal S1x64 .f32)
    (p : Fin 1024) (o : Fin 64) :
    k0_pay3 (F := Ideal) acc w b (ix2 p o)
      = Scalar.select (Ideal.cmp .ogt ((∑ f : Fin 128, acc (ix2 p f) * w (ix2 f o)) + b (ix2 (0 : Fin 1) o)) 0)
          ((∑ f : Fin 128, acc (ix2 p f) * w (ix2 f o)) + b (ix2 (0 : Fin 1) o))
          (Ideal.ofBits .f32 0x3C23D70A#32 * ((∑ f : Fin 128, acc (ix2 p f) * w (ix2 f o)) + b (ix2 (0 : Fin 1) o))) := by
  have hm : (matmul (F := Ideal) dot_S1024x128_S128x64_S1024x64_1_0_0_1_n_n none
      (truncf .bf16 acc bitsLt_bf16_f32 : FVec Ideal S1024x128 .bf16) (truncf .bf16 w bitsLt_bf16_f32 : FVec Ideal S128x64 .bf16)
      (constant S1024x64 .f32 0x00000000#32) : FVec Ideal S1024x64 .f32) (ix2 p o)
        = ∑ f : Fin 128, acc (ix2 p f) * w (ix2 f o) :=
    (plain_lin0.matmul_zero_apply_formats none (truncf .bf16 acc bitsLt_bf16_f32 : FVec Ideal S1024x128 .bf16)
      (truncf .bf16 w bitsLt_bf16_f32 : FVec Ideal S128x64 .bf16) p o).trans rfl
  unfold k0_pay3
  simp only [shapeCast_self]
  rw [select_apply, cmpf_apply, mulf_apply, addf_apply, broadcast_apply, broadcast_apply, hm,
    Cert.LibRowLayout.broadcastTo_1b_ab_apply]
  show Scalar.select (Ideal.cmp .ogt _ (Ideal.ofBits .f32 0x00000000#32)) _ _ = _
  rw [Ideal.ofBits_zero_f32]
  rfl

end Cert.KernelIdeal.Hand

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.ConvSpec.lean ====
/-
  The graph-convolution layer as one function of its arrays, over the extended reals, and its tiling.

  For an adjacency array `a` [N, N], a column of row degrees `col` [N, 1], a row of column degrees `row` [1, N], features
  `h` [N, F], a weight `w` [F, O] and a bias row `b` [1, O], the layer's entry (i, o) is the leaky rectifier of
  `Σ_f (Σ_s a (i, s) · rsqrt (col i · row s) · h (s, f)) · w (f, o) + b o`.
  A kernel that walks the columns `s` in 8 tiles of 1024 adds the tiles' partial sums one after the other, starting from zero;
  because addition of extended reals is associative and commutative, after the last tile it holds the whole sum over `s`.
  Arrays are read through a total accessor indexed by natural numbers (zero outside the array), which keeps the tile
  arithmetic `tile · 1024 + offset` free of bound proofs.
-/
import Idealize.ShloMosaic.PureOps.Ideal
import Idealize.ShloMosaic.Lib.ValueIdx
import proofs.«180336_j68848325755002_1_alg».proof.Proof.LibTileSum

noncomputable section

namespace Cert.ConvSpec

open Idealize.ShloMosaic Idealize.ShloMosaic.ValueIdx

/-- A two-axis array read at natural-number coordinates; zero outside the array. -/
def at2 {n0 n1 : ℕ} (x : (⟨2, ![n0, n1]⟩ : Shape).Idx → EReal) (i j : ℕ) : EReal :=
  if h : i < n0 ∧ j < n1 then x (ix2 ⟨i, h.1⟩ ⟨j, h.2⟩) else 0

/-- Inside the array the accessor is the array. -/
theorem at2_ix2 {n0 n1 : ℕ} (x : (⟨2, ![n0, n1]⟩ : Shape).Idx → EReal) (i : Fin n0) (j : Fin n1) :
    x (ix2 i j) = at2 x i.val j.val := by
  unfold at2; rw [dif_pos ⟨i.isLt, j.isLt⟩]

/-- The same for an index given with its two coordinates' values. -/
theorem at2_of {n0 n1 : ℕ} (x : (⟨2, ![n0, n1]⟩ : Shape).Idx → EReal) (idx : (⟨2, ![n0, n1]⟩ : Shape).Idx) (i j : ℕ)
    (h0 : (idx 0).val = i) (h1 : (idx 1).val = j) : x idx = at2 x i j := by
  subst h0 h1
  rw [eq_ix2 idx]
  exact at2_ix2 x _ _

variable {N Fw O : ℕ}

/-- Column `s`'s contribution to the aggregation at (i, f). -/
def wTerm (a : (⟨2, ![N, N]⟩ : Shape).Idx → EReal) (col : (⟨2, ![N, 1]⟩ : Shape).Idx → EReal) (row : (⟨2, ![1, N]⟩ : Shape).Idx → EReal)
    (h : (⟨2, ![N, Fw]⟩ : Shape).Idx → EReal) (i f s : ℕ) : EReal :=
  at2 a i s * Ideal.rsqrt (at2 col i 0 * at2 row 0 s) * at2 h s f

/-- One tile's partial sum: the 1024 columns of tile `kb`. -/
def tileSum (a : (⟨2, ![N, N]⟩ : Shape).Idx → EReal) (col : (⟨2, ![N, 1]⟩ : Shape).Idx → EReal) (row : (⟨2, ![1, N]⟩ : Shape).Idx → EReal)
    (h : (⟨2, ![N, Fw]⟩ : Shape).Idx → EReal) (i f kb : ℕ) : EReal :=
  ∑ c : Fin 1024, wTerm a col row h i f (kb * 1024 + c.val)

/-- The accumulator after tiles `0 … k`. -/
def partialAgg (a : (⟨2, ![N, N]⟩ : Shape).Idx → EReal) (col : (⟨2, ![N, 1]⟩ : Shape).Idx → EReal) (row : (⟨2, ![1, N]⟩ : Shape).Idx → EReal)
    (h : (⟨2, ![N, Fw]⟩ : Shape).Idx → EReal) (i f k : ℕ) : EReal :=
  ∑ kb ∈ Finset.range (k + 1), tileSum a col row h i f kb

/-- The whole aggregation over 8 tiles of 1024 columns. -/
def agg (a : (⟨2, ![N, N]⟩ : Shape).Idx → EReal) (col : (⟨2, ![N, 1]⟩ : Shape).Idx → EReal) (row : (⟨2, ![1, N]⟩ : Shape).Idx → EReal)
    (h : (⟨2, ![N, Fw]⟩ : Shape).Idx → EReal) (i f : ℕ) : EReal :=
  ∑ s : Fin (8 * 1024), wTerm a col row h i f s.val

variable (a : (⟨2, ![N, N]⟩ : Shape).Idx → EReal) (col : (⟨2, ![N, 1]⟩ : Shape).Idx → EReal) (row : (⟨2, ![1, N]⟩ : Shape).Idx → EReal)
  (h : (⟨2, ![N, Fw]⟩ : Shape).Idx → EReal)

/-- The first tile alone. -/
theorem partialAgg_zero (i f : ℕ) : partialAgg a col row h i f 0 = tileSum a col row h i f 0 := by
  unfold partialAgg; rw [Finset.sum_range_one]

/-- One more tile. -/
theorem partialAgg_succ (i f k : ℕ) :
    partialAgg a col row h i f (k + 1) = partialAgg a col row h i f k + tileSum a col row h i f (k + 1) := by
  unfold partialAgg; rw [Finset.sum_range_succ]

/-- After the eighth tile the accumulator is the whole aggregation. -/
theorem partialAgg_seven (i f : ℕ) : partialAgg a col row h i f 7 = agg a col row h i f := by
  unfold partialAgg agg tileSum
  exact Cert.LibTileSum.tile_sum 1024 (wTerm a col row h i f) 8

/-- The leaky rectifier with slope word `c`, in the strict spelling. -/
def leakyGt (c x : EReal) : EReal := Scalar.select (Ideal.cmp .ogt x 0) x (c * x)

/-- The layer's output entry. -/
def convOut (w : (⟨2, ![Fw, O]⟩ : Shape).Idx → EReal) (b : (⟨2, ![1, O]⟩ : Shape).Idx → EReal) (slope : EReal) (i o : ℕ) : EReal :=
  leakyGt slope ((∑ f : Fin Fw, agg a col row h i f.val * at2 w f.val o) + at2 b 0 o)

end Cert.ConvSpec

end
-- ==== Proof.KI.Val0.lean ====
/-
  What the first graph-convolution region leaves in its result array, over the extended reals.

  The region's grid is 8 × 8: point `t` has row block `t / 8` and tile `t % 8`.  It holds the [1024, 1024] tile of the adjacency
  array at (row block, tile), the 1024 rows of the features at the tile, the row block's degrees as a column and the tile's
  degrees as a row, and the whole weight and bias.  The accumulator is zeroed at tile 0 and every point adds its tile's partial
  sum, so after the point at tile `k` it holds the partial aggregation over tiles `0 … k` of its row block (by induction on the
  point); at tile 7 that is the whole aggregation, and the point writes the layer's output for its 1024 rows.  The eight
  written blocks tile the result's 8192 rows, so the result array is the layer's closed form of the arrays the region finds.
-/
import proofs.«180336_j68848325755002_1_alg».proof.Proof.KI.Conv0Pieces
import proofs.«180336_j68848325755002_1_alg».proof.Proof.KI.Pay0
import proofs.«180336_j68848325755002_1_alg».proof.Proof.ConvSpec
import Idealize.ShloMosaic.Lib.Pipeline.Value

noncomputable section

namespace Cert.KernelIdeal.Hand

open Cert.KernelIdeal Cert.KernelIdeal.Gen Cert.ConvSpec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The arrays the region finds, typed as arrays of extended reals. -/
abbrev adj0 (c : Dev nD) : S8192x8192.Idx → EReal := V c main_arg2
abbrev feat0 (c : Dev nD) : S8192x128.Idx → EReal := V c main_arg1
abbrev col0 (c : Dev nD) : S8192x1.Idx → EReal := V c main_v11
abbrev row0 (c : Dev nD) : S1x8192.Idx → EReal := V c main_v12
abbrev wgt0 (c : Dev nD) : S128x64.Idx → EReal := V c main_arg3
abbrev bias0 (c : Dev nD) : S1x64.Idx → EReal := V c main_v13

/-- The rectifier's slope word. -/
abbrev slope : EReal := Ideal.ofBits .f32 0x3C23D70A#32

/-- The block index maps over the grid. -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

/-! ## The input blocks in array terms -/

theorem blk0_0 (c : Dev nD) (t : Fin cfg0.N) (p q : Fin 1024) :
    (iblk0 V c 0 t : Vec Ideal S1024x1024 .f32) (ix2 p q) = at2 (adj0 V c) (t.val / 8 * 1024 + p.val) (t.val % 8 * 1024 + q.val) := by
  obtain ⟨e0, e1, -⟩ := idx_facts0 t
  unfold iblk0
  rw [View.read_apply]
  show V c main_arg2 _ = _
  refine at2_of (n0 := 8192) (n1 := 8192) (V c main_arg2) _ _ _ ?_ ?_
  · show win0_0.index t (0 : Fin 2) * 1024 + 1 * p.val = _; rw [e0]; omega
  · show win0_0.index t (1 : Fin 2) * 1024 + 1 * q.val = _; rw [e1]; omega

theorem blk0_1 (c : Dev nD) (t : Fin cfg0.N) (q : Fin 1024) (f : Fin 128) :
    (iblk0 V c 1 t : Vec Ideal S1024x128 .f32) (ix2 q f) = at2 (feat0 V c) (t.val % 8 * 1024 + q.val) f.val := by
  obtain ⟨-, -, e2, e3, -⟩ := idx_facts0 t
  unfold iblk0
  rw [View.read_apply]
  show V c main_arg1 _ = _
  refine at2_of (n0 := 8192) (n1 := 128) (V c main_arg1) _ _ _ ?_ ?_
  · show win0_1.index t (0 : Fin 2) * 1024 + 1 * q.val = _; rw [e2]; omega
  · show win0_1.index t (1 : Fin 2) * 128 + 1 * f.val = _; rw [e3]; omega

theorem blk0_2 (c : Dev nD) (t : Fin cfg0.N) (p : Fin 1024) :
    (iblk0 V c 2 t : Vec Ideal S1024x1 .f32) (ix2 p (0 : Fin 1)) = at2 (col0 V c) (t.val / 8 * 1024 + p.val) 0 := by
  obtain ⟨-, -, -, -, e4, e5, -⟩ := idx_facts0 t
  unfold iblk0
  rw [View.read_apply]
  show V c main_v11 _ = _
  refine at2_of (n0 := 8192) (n1 := 1) (V c main_v11) _ _ _ ?_ ?_
  · show win0_2.index t (0 : Fin 2) * 1024 + 1 * p.val = _; rw [e4]; omega
  · show win0_2.index t (1 : Fin 2) * 1 + 1 * 0 = _; rw [e5]

theorem blk0_3 (c : Dev nD) (t : Fin cfg0.N) (q : Fin 1024) :
    (iblk0 V c 3 t : Vec Ideal S1x1024 .f32) (ix2 (0 : Fin 1) q) = at2 (row0 V c) 0 (t.val % 8 * 1024 + q.val) := by
  obtain ⟨-, -, -, -, -, -, e6, e7, -⟩ := idx_facts0 t
  unfold iblk0
  rw [View.read_apply]
  show V c main_v12 _ = _
  refine at2_of (n0 := 1) (n1 := 8192) (V c main_v12) _ _ _ ?_ ?_
  · show win0_3.index t (0 : Fin 2) * 1 + 1 * 0 = _; rw [e6]
  · show win0_3.index t (1 : Fin 2) * 1024 + 1 * q.val = _; rw [e7]; omega

theorem blk0_4 (c : Dev nD) (t : Fin cfg0.N) (f : Fin 128) (o : Fin 64) :
    (iblk0 V c 4 t : Vec Ideal S128x64 .f32) (ix2 f o) = at2 (wgt0 V c) f.val o.val := by
  obtain ⟨-, -, -, -, -, -, -, -, e8, e9, -⟩ := idx_facts0 t
  unfold iblk0
  rw [View.read_apply]
  show V c main_arg3 _ = _
  refine at2_of (n0 := 128) (n1 := 64) (V c main_arg3) _ _ _ ?_ ?_
  · show win0_4.index t (0 : Fin 2) * 128 + 1 * f.val = _; rw [e8]; omega
  · show win0_4.index t (1 : Fin 2) * 64 + 1 * o.val = _; rw [e9]; omega

theorem blk0_5 (c : Dev nD) (t : Fin cfg0.N) (o : Fin 64) :
    (iblk0 V c 5 t : Vec Ideal S1x64 .f32) (ix2 (0 : Fin 1) o) = at2 (bias0 V c) 0 o.val := by
  obtain ⟨-, -, -, -, -, -, -, -, -, -, e10, e11, -⟩ := idx_facts0 t
  unfold iblk0
  rw [View.read_apply]
  show V c main_v13 _ = _
  refine at2_of (n0 := 1) (n1 := 64) (V c main_v13) _ _ _ ?_ ?_
  · show win0_5.index t (0 : Fin 2) * 1 + 1 * 0 = _; rw [e10]
  · show win0_5.index t (1 : Fin 2) * 64 + 1 * o.val = _; rw [e11]; omega

/-! ## The accumulator point by point -/

/-- One accumulate step at an entry: the accumulator's entry plus the point's tile sum. -/
theorem step_acc0 (c : Dev nD) (t : Fin cfg0.N) (acc : Vec Ideal S1024x128 .f32) (p : Fin 1024) (f : Fin 128) :
    k0_pay2 (F := Ideal) (iblk0 V c 0 t) (iblk0 V c 2 t) (iblk0 V c 3 t) (iblk0 V c 1 t) acc (ix2 p f)
      = acc (ix2 p f) + tileSum (adj0 V c) (col0 V c) (row0 V c) (feat0 V c) (t.val / 8 * 1024 + p.val) f.val (t.val % 8) := by
  rw [pay2_apply0]
  unfold tileSum wTerm
  refine congrArg _ (Finset.sum_congr rfl fun q _ => ?_)
  rw [blk0_0, blk0_2, blk0_3, blk0_1]

/-- After the point at position `n` the accumulator holds the partial aggregation over tiles `0 … n % 8` of row block `n / 8`. -/
theorem acc_eq0 (c : Dev nD) : ∀ (n : ℕ) (hn : n < cfg0.N) (p : Fin 1024) (f : Fin 128),
    ((outsAt0 V c n hn).2 : Vec Ideal S1024x128 .f32) (ix2 p f)
      = partialAgg (adj0 V c) (col0 V c) (row0 V c) (feat0 V c) (n / 8 * 1024 + p.val) f.val (n % 8) := by
  intro n
  induction n with
  | zero =>
    intro hn p f
    have e := outsAt0_A V c ⟨0, hn⟩ (Nat.zero_mod 8) (by show ¬(0 % 8 = 7); decide)
    rw [show outsAt0 V c 0 hn = _ from e, step0_A_snd, step_acc0, pay1_apply0, zero_add]
    exact (partialAgg_zero _ _ _ _ _ _).symm
  | succ n ih =>
    intro hn p f
    by_cases h0 : (n + 1) % 8 = 0
    · have h1 : ¬(n + 1) % 8 = 7 := by omega
      have e := outsAt0_A V c ⟨n + 1, hn⟩ h0 h1
      rw [show outsAt0 V c (n + 1) hn = _ from e, step0_A_snd, step_acc0, pay1_apply0, zero_add]
      show tileSum _ _ _ _ _ _ ((n + 1) % 8) = partialAgg _ _ _ _ _ _ ((n + 1) % 8)
      rw [h0]
      exact (partialAgg_zero _ _ _ _ _ _).symm
    · have ihn := ih (Nat.lt_of_succ_lt hn) p f
      have hd : (n + 1) / 8 = n / 8 := by omega
      have hm : (n + 1) % 8 = n % 8 + 1 := by omega
      by_cases h1 : (n + 1) % 8 = 7
      · have e := outsAt0_C V c ⟨n + 1, hn⟩ h0 h1
        rw [show outsAt0 V c (n + 1) hn = _ from e, step0_C_snd, step_acc0]
        show ((outsAt0 V c n _).2 : Vec Ideal S1024x128 .f32) (ix2 p f) + tileSum _ _ _ _ ((n + 1) / 8 * 1024 + p.val) f.val ((n + 1) % 8) = _
        rw [ihn, hd, hm]
        exact (partialAgg_succ _ _ _ _ _ _ _).symm
      · have e := outsAt0_B V c ⟨n + 1, hn⟩ h0 h1
        rw [show outsAt0 V c (n + 1) hn = _ from e, step0_B_snd, step_acc0]
        show ((outsAt0 V c n _).2 : Vec Ideal S1024x128 .f32) (ix2 p f) + tileSum _ _ _ _ ((n + 1) / 8 * 1024 + p.val) f.val ((n + 1) % 8) = _
        rw [ihn, hd, hm]
        exact (partialAgg_succ _ _ _ _ _ _ _).symm

/-! ## The written block and the array -/

/-- The layer's closed form as a function of the result array's index. -/
def G0 (a : S8192x8192.Idx → EReal) (col : S8192x1.Idx → EReal) (row : S1x8192.Idx → EReal) (h : S8192x128.Idx → EReal)
    (w : S128x64.Idx → EReal) (b : S1x64.Idx → EReal) : S8192x64.Idx → EReal :=
  fun i => convOut a col row h w b slope (i 0).val (i 1).val

/-- At the last tile of a row block the output buffer holds the layer's output for the block's rows. -/
theorem out_eq0 (c : Dev nD) (t : Fin cfg0.N) (h1 : t.val % 8 = 7) (p : Fin 1024) (o : Fin 64) :
    ((outsAt0 V c t.val t.isLt).1 : Vec Ideal S1024x64 .f32) (ix2 p o)
      = convOut (adj0 V c) (col0 V c) (row0 V c) (feat0 V c) (wgt0 V c) (bias0 V c) slope (t.val / 8 * 1024 + p.val) o.val := by
  have h0 : ¬t.val % 8 = 0 := by omega
  have e := outsAt0_C V c t h0 h1
  have hacc : ∀ f : Fin 128, k0_pay2 (F := Ideal) (iblk0 V c 0 t) (iblk0 V c 2 t) (iblk0 V c 3 t) (iblk0 V c 1 t)
        (outsAt0 V c (t.val - 1) (Nat.lt_of_le_of_lt (Nat.sub_le _ _) t.isLt)).2 (ix2 p f)
      = agg (adj0 V c) (col0 V c) (row0 V c) (feat0 V c) (t.val / 8 * 1024 + p.val) f.val := fun f => by
    have e2 := congrArg Prod.snd e
    rw [step0_C_snd] at e2
    rw [← e2, acc_eq0 V c t.val t.isLt p f, h1]
    exact partialAgg_seven _ _ _ _ _ _
  rw [e, step0_C_fst, pay3_apply0]
  unfold convOut leakyGt
  simp only [hacc, blk0_4, blk0_5]

/-- What a writing point writes back is its block of the closed form. -/
theorem flushed0_eq (c : Dev nD) (t : Fin cfg0.N) (hf : (cfg0.win 6).flush t = true) :
    (dat0 V c).flushed 6 t = ((cfg0.win 6).blk t).view.read (Elt Ideal)
      (G0 (adj0 V c) (col0 V c) (row0 V c) (feat0 V c) (wgt0 V c) (bias0 V c)) := by
  have h1 : t.val % 8 = 7 := (flush0_6 t).mp hf
  obtain ⟨-, -, -, -, -, -, -, -, -, -, -, -, e12, e13⟩ := idx_facts0 t
  show (cfg0.win 6).cut (grid0.coords t) ((dat0 V c).after 6 t) = _
  rw [after0_6]
  funext j
  obtain ⟨p, o, rfl⟩ : ∃ (p : Fin 1024) (o : Fin 64), j = ix2 p o := ⟨j 0, j 1, eq_ix2 j⟩
  show ((outsAt0 V c t.val t.isLt).1 : Vec Ideal S1024x64 .f32) (ix2 p o)
    = G0 (adj0 V c) (col0 V c) (row0 V c) (feat0 V c) (wgt0 V c) (bias0 V c) (((cfg0.win 6).blk t).view.emb (ix2 p o))
  rw [out_eq0 V c t h1 p o]
  unfold G0
  have a0 : ((((cfg0.win 6).blk t).view.emb (ix2 p o)) 0).val = t.val / 8 * 1024 + p.val := by
    show win0_6.index t (0 : Fin 2) * 1024 + 1 * p.val = _; rw [e12]; omega
  have a1 : ((((cfg0.win 6).blk t).view.emb (ix2 p o)) 1).val = o.val := by
    show win0_6.index t (1 : Fin 2) * 64 + 1 * o.val = _; rw [e13]; omega
  rw [a0, a1]

/-- An index of the result array is in point `t`'s block iff each coordinate is in the block's range. -/
theorem mem_blk0 (t : Fin cfg0.N) (i : S8192x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v14).slice (win0_6.rect t)).set ↔ _
  rw [View.set_slice_whole, Rect.mem_set_unit]
  exact Iff.rfl

/-- The result array after the region: the layer's closed form of the arrays the region finds. -/
theorem final0 (c : Dev nD) : (dat0 V c).arrAt 6 cfg0.N
    = G0 (adj0 V c) (col0 V c) (row0 V c) (feat0 V c) (wgt0 V c) (bias0 V c) :=
  (dat0 V c).arrAt_eq_of_cover 6 _ (fun t hf => flushed0_eq V c t hf) fun i => by
    have hi0 : (i 0).val < 8192 := idx2_lt0 i
    have hi1 : (i 1).val < 64 := idx2_lt1 i
    let t : Fin cfg0.N := ⟨(i 0).val / 1024 * 8 + 7, (by omega : (i 0).val / 1024 * 8 + 7 < 64).trans_eq N_0.symm⟩
    obtain ⟨-, -, -, -, -, -, -, -, -, -, -, -, e12, e13⟩ := idx_facts0 t
    refine ⟨t, (flush0_6 t).mpr (by show ((i 0).val / 1024 * 8 + 7) % 8 = 7; omega), ?_⟩
    rw [mem_blk0]
    intro a
    match a with
    | ⟨0, _⟩ =>
      show win0_6.index t (0 : Fin 2) * 1024 ≤ (i 0).val ∧ (i 0).val < win0_6.index t (0 : Fin 2) * 1024 + 1024
      rw [e12]
      show ((i 0).val / 1024 * 8 + 7) / 8 * 1024 ≤ (i 0).val ∧ (i 0).val < ((i 0).val / 1024 * 8 + 7) / 8 * 1024 + 1024
      omega
    | ⟨1, _⟩ =>
      show win0_6.index t (1 : Fin 2) * 64 ≤ (i 1).val ∧ (i 1).val < win0_6.index t (1 : Fin 2) * 64 + 64
      rw [e13]; omega

end Cert.KernelIdeal.Hand

end
-- ==== Proof.KI.Conv1Pieces.lean ====
import proofs.«180336_j68848325755002_1_alg».proof.Proof.KI.Conv1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: what the stores of each case read back as, over the arithmetic of the body

`k1_pay1` is the zero tile, `k1_pay2` one accumulation step (of the adjacency tile, the two degree vectors, the
feature tile and the accumulator's previous contents), `k1_pay3` the epilogue (of the accumulator, the weights and
the bias). -/

theorem hz1 : (![0, 0] : Fin 2 → Nat) = fun _ => 0 := funext fun a => by fin_cases a <;> rfl

set_option maxHeartbeats 1000000 in
/-- At `k = 0` the accumulator ends as one step over the zero tile. -/
theorem soutA_eq1 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) :
    sout1_A_0 c i arg2 harg2 arg3 harg3 arg4 harg4 arg5 harg5 arg6 harg6 arg7 harg7 arg8 harg8 arg9 harg9 hc0 hc1 x0 x1 x2 x3 x4 x5 = k1_pay2 x0 x2 x3 x1 k1_pay1 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3 x4 x5)]
  unfold kernelRun1_A
  dsimp only
  try sl_unfold_words
  rw [View.canon_cons_unit_zero hz1]
  simp only [View.readAt_eq_ld, View.readCov_unit_zero (S := S1024x64) _ hz1, harg2.read_unread, harg3.read_unread, harg4.read_unread, harg5.read_unread, harg6.read_unread, harg7.read_unread, harg9.read_unread, View.ld_unit_zero (S := S1024x1024) hz1, View.ld_unit_zero (S := S1024x64) hz1, View.ld_unit_zero (S := S1024x1) hz1, View.ld_unit_zero (S := S1x1024) hz1, View.ld_unit_zero (S := S64x64) hz1, View.ld_unit_zero (S := S1x64) hz1, shapeCast_self]

set_option maxHeartbeats 1000000 in
/-- At `0 < k < 7` the accumulator ends as one step over its previous contents. -/
theorem soutB_eq1 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : ¬cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    sout1_B_0 c i arg2 harg2 arg3 harg3 arg4 harg4 arg5 harg5 arg6 harg6 arg7 harg7 arg8 harg8 arg9 harg9 hc0 hc1 x0 x1 x2 x3 x4 x5 xs0 = k1_pay2 x0 x2 x3 x1 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 x4 x5 xs0)]
  unfold kernelRun1_B
  dsimp only
  try sl_unfold_words
  rw [View.canon_unit_zero hz1]
  simp only [View.readAt_eq_ld, harg2.read_unread, harg3.read_unread, harg4.read_unread, harg5.read_unread, harg6.read_unread, harg7.read_unread, harg9.read_unread, View.ld_unit_zero (S := S1024x1024) hz1, View.ld_unit_zero (S := S1024x64) hz1, View.ld_unit_zero (S := S1024x1) hz1, View.ld_unit_zero (S := S1x1024) hz1, View.ld_unit_zero (S := S64x64) hz1, View.ld_unit_zero (S := S1x64) hz1, shapeCast_self]

set_option maxHeartbeats 1000000 in
/-- At `k = 7` the accumulator ends as one step over its previous contents, -/
theorem soutC_eq1 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    sout1_C_0 c i arg2 harg2 arg3 harg3 arg4 harg4 arg5 harg5 arg6 harg6 arg7 harg7 arg8 harg8 arg9 harg9 hc0 hc1 x0 x1 x2 x3 x4 x5 xs0 = k1_pay2 x0 x2 x3 x1 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  rw [View.canon_unit_zero hz1]
  simp only [View.readAt_eq_ld, harg2.read_unread, harg3.read_unread, harg4.read_unread, harg5.read_unread, harg6.read_unread, harg7.read_unread, harg9.read_unread, View.ld_unit_zero (S := S1024x1024) hz1, View.ld_unit_zero (S := S1024x64) hz1, View.ld_unit_zero (S := S1024x1) hz1, View.ld_unit_zero (S := S1x1024) hz1, View.ld_unit_zero (S := S64x64) hz1, View.ld_unit_zero (S := S1x64) hz1, shapeCast_self]

set_option maxHeartbeats 1000000 in
/-- and the output block is the epilogue of that. -/
theorem outC_eq1 (c : Dev nD) (i : grid1.Coords) (arg2 : Memref sig .tc .vmem S1024x1024 .f32) (harg2 : arg2.IsWhole) (arg3 : Memref sig .tc .vmem S1024x64 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1024x64 .f32) (harg8 : arg8.IsWhole) (arg9 : Memref sig .tc .vmem S1024x64 .f32) (harg9 : arg9.IsWhole) (hc0 : ¬cond1_0 i) (hc1 : cond1_1 i)
    (x0 : Vec F S1024x1024 .f32) (x1 : Vec F S1024x64 .f32) (x2 : Vec F S1024x1 .f32) (x3 : Vec F S1x1024 .f32) (x4 : Vec F S64x64 .f32) (x5 : Vec F S1x64 .f32) (xs0 : Vec F S1024x64 .f32) :
    out1_C_6 c i arg2 harg2 arg3 harg3 arg4 harg4 arg5 harg5 arg6 harg6 arg7 harg7 arg8 harg8 arg9 harg9 hc0 hc1 x0 x1 x2 x3 x4 x5 xs0 = k1_pay3 (k1_pay2 x0 x2 x3 x1 xs0) x4 x5 := by
  unfold out1_C_6
  rw [View.read_writes_eq_canon _ _ _ (cover1_C_6 c i arg2 harg2 arg3 harg3 arg4 harg4 arg5 harg5 arg6 harg6 arg7 harg7 arg8 harg8 arg9 harg9 hc0 hc1 x0 x1 x2 x3 x4 x5 xs0)]
  unfold kernelRun1_C
  dsimp only
  try sl_unfold_words
  rw [View.canon_unit_zero hz1]
  simp only [View.readAt_eq_ld, View.readCov_unit_zero (S := S1024x64) _ hz1, harg2.read_unread, harg3.read_unread, harg4.read_unread, harg5.read_unread, harg6.read_unread, harg7.read_unread, harg9.read_unread, View.ld_unit_zero (S := S1024x1024) hz1, View.ld_unit_zero (S := S1024x64) hz1, View.ld_unit_zero (S := S1024x1) hz1, View.ld_unit_zero (S := S1x1024) hz1, View.ld_unit_zero (S := S64x64) hz1, View.ld_unit_zero (S := S1x64) hz1, shapeCast_self]

section Region1
variable (V : (c : Dev nD) → (b : Ref sig .tc) → Buf (Elt F) ((c : Thread nD τ).loc b))

theorem step1_A_snd (c : Dev nD) (t : Fin cfg1.N) (h0 : t.val % 8 = 0) (h1 : ¬t.val % 8 = 7) :
    (step1_A V c t h0 h1).2 = k1_pay2 (iblk1 V c 0 t) (iblk1 V c 2 t) (iblk1 V c 3 t) (iblk1 V c 1 t) k1_pay1 := by
  unfold step1_A; dsimp only; exact soutA_eq1 ..

theorem step1_B_snd (c : Dev nD) (t : Fin cfg1.N) (h0 : ¬t.val % 8 = 0) (h1 : ¬t.val % 8 = 7) (xs0 : Vec F S1024x64 .f32) :
    (step1_B V c t h0 h1 xs0).2 = k1_pay2 (iblk1 V c 0 t) (iblk1 V c 2 t) (iblk1 V c 3 t) (iblk1 V c 1 t) xs0 := by
  unfold step1_B; dsimp only; exact soutB_eq1 ..

theorem step1_C_snd (c : Dev nD) (t : Fin cfg1.N) (h0 : ¬t.val % 8 = 0) (h1 : t.val % 8 = 7) (xs0 : Vec F S1024x64 .f32) :
    (step1_C V c t h0 h1 xs0).2 = k1_pay2 (iblk1 V c 0 t) (iblk1 V c 2 t) (iblk1 V c 3 t) (iblk1 V c 1 t) xs0 := by
  unfold step1_C; dsimp only; exact soutC_eq1 ..

theorem step1_C_fst (c : Dev nD) (t : Fin cfg1.N) (h0 : ¬t.val % 8 = 0) (h1 : t.val % 8 = 7) (xs0 : Vec F S1024x64 .f32) :
    (step1_C V c t h0 h1 xs0).1 = k1_pay3 (k1_pay2 (iblk1 V c 0 t) (iblk1 V c 2 t) (iblk1 V c 3 t) (iblk1 V c 1 t) xs0) (iblk1 V c 4 t) (iblk1 V c 5 t) := by
  unfold step1_C; dsimp only; exact outC_eq1 ..

end Region1

end Cert.KernelIdeal.Hand

end
-- ==== Proof.KI.Pay1.lean ====
/-
  The arithmetic of the second graph-convolution kernel, entry by entry, over the extended reals.

  One grid point of the kernel holds a [1024, 1024] tile `a` of the adjacency matrix, the 1024 row degrees of the tile's
  rows as a column `col`, the 1024 column degrees of the tile's columns as a row `row`, a [1024, 64] tile `h` of the
  first layer's output and the running accumulator `acc`.  The accumulate step adds to `acc (p, f)` the tile's share of the normalised
  aggregation, `Σ_c a (p, c) · rsqrt (col p · row c) · h (c, f)`: the two degree vectors are spread over the tile, multiplied,
  the reciprocal square root taken and multiplied into the tile entry by entry, and the product with `h` is a plain matrix
  product into zero (the narrowing of both operands to a shorter format is the identity on extended reals).
  The epilogue, at the last tile of a row block, turns the finished accumulator into the layer's output:
  `lin (p, o) = Σ_f acc (p, f) · w (f, o) + b o`, then `lin` where `0 < lin` and `0.01 · lin` elsewhere.
-/
import proofs.«180336_j68848325755002_1_alg».proof.Proof.Gen.KernelIdeal.Skeleton
import proofs.«180336_j68848325755002_1_alg».proof.Proof.LibPlainDotFormats
import proofs.«180336_j68848325755002_1_alg».proof.Proof.LibKeepdims
import proofs.«180336_j68848325755002_1_alg».proof.Proof.LibRowLayout
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

/-- The tile product of the accumulate step contracts the tile's columns against the feature tile's rows. -/
theorem plain_tile1 : Cert.LibPlainDot.Plain dot_S1024x1024_S1024x64_S1024x64_1_0_0_1_n_n := ⟨rfl, rfl, rfl, rfl, rfl, rfl⟩

/-- The epilogue's product contracts the accumulator's features against the weight's rows. -/
theorem plain_lin1 : Cert.LibPlainDot.Plain dot_S1024x64_S64x64_S1024x64_1_0_0_1_n_n := ⟨rfl, rfl, rfl, rfl, rfl, rfl⟩

/-- The accumulate step at entry `(p, f)`. -/
theorem pay2_apply1 (a : Vec Ideal S1024x1024 .f32) (col : Vec Ideal S1024x1 .f32) (row : Vec Ideal S1x1024 .f32)
    (h acc : Vec Ideal S1024x64 .f32) (p : Fin 1024) (f : Fin 64) :
    k1_pay2 (F := Ideal) a col row h acc (ix2 p f)
      = acc (ix2 p f) + ∑ c : Fin 1024,
          (a (ix2 p c) * Ideal.rsqrt (col (ix2 p (0 : Fin 1)) * row (ix2 (0 : Fin 1) c))) * h (ix2 c f) := by
  unfold k1_pay2
  simp only [shapeCast_self]
  rw [addf_apply]
  refine congrArg _ ((plain_tile1.matmul_zero_apply_formats none _ _ p f).trans (Finset.sum_congr rfl fun c _ => ?_))
  rw [truncf_apply, truncf_apply, mulf_apply]
  rw [show ∀ (v : FVec Ideal S1024x1024 .f32) (i : S1024x1024.Idx), rsqrt v i = Ideal.rsqrt (v i) from fun _ _ => rfl,
    mulf_apply, Cert.LibKeepdims.broadcastTo_a1_ab_apply, Cert.LibRowLayout.broadcastTo_1b_ab_apply]

/-- The zero the accumulator is reset to. -/
theorem pay1_apply1 (j : S1024x64.Idx) : k1_pay1 (F := Ideal) j = 0 := by
  unfold k1_pay1
  simp only [shapeCast_self]
  exact Ideal.ofBits_zero_f32

/-- The epilogue at entry `(p, o)`. -/
theorem pay3_apply1 (acc : Vec Ideal S1024x64 .f32) (w : Vec Ideal S64x64 .f32) (b : Vec Ideal S1x64 .f32)
    (p : Fin 1024) (o : Fin 64) :
    k1_pay3 (F := Ideal) acc w b (ix2 p o)
      = Scalar.select (Ideal.cmp .ogt ((∑ f : Fin 64, acc (ix2 p f) * w (ix2 f o)) + b (ix2 (0 : Fin 1) o)) 0)
          ((∑ f : Fin 64, acc (ix2 p f) * w (ix2 f o)) + b (ix2 (0 : Fin 1) o))
          (Ideal.ofBits .f32 0x3C23D70A#32 * ((∑ f : Fin 64, acc (ix2 p f) * w (ix2 f o)) + b (ix2 (0 : Fin 1) o))) := by
  have hm : (matmul (F := Ideal) dot_S1024x64_S64x64_S1024x64_1_0_0_1_n_n none
      (truncf .bf16 acc bitsLt_bf16_f32 : FVec Ideal S1024x64 .bf16) (truncf .bf16 w bitsLt_bf16_f32 : FVec Ideal S64x64 .bf16)
      (constant S1024x64 .f32 0x00000000#32) : FVec Ideal S1024x64 .f32) (ix2 p o)
        = ∑ f : Fin 64, acc (ix2 p f) * w (ix2 f o) :=
    (plain_lin1.matmul_zero_apply_formats none (truncf .bf16 acc bitsLt_bf16_f32 : FVec Ideal S1024x64 .bf16)
      (truncf .bf16 w bitsLt_bf16_f32 : FVec Ideal S64x64 .bf16) p o).trans rfl
  unfold k1_pay3
  simp only [shapeCast_self]
  rw [select_apply, cmpf_apply, mulf_apply, addf_apply, broadcast_apply, broadcast_apply, hm,
    Cert.LibRowLayout.broadcastTo_1b_ab_apply]
  show Scalar.select (Ideal.cmp .ogt _ (Ideal.ofBits .f32 0x00000000#32)) _ _ = _
  rw [Ideal.ofBits_zero_f32]
  rfl

end Cert.KernelIdeal.Hand

end
-- ==== Proof.KI.Val1.lean ====
/-
  What the second graph-convolution region leaves in its result array, over the extended reals.

  The region's grid is 8 × 8: point `t` has row block `t / 8` and tile `t % 8`.  It holds the [1024, 1024] tile of the adjacency
  array at (row block, tile), the 1024 rows of the features at the tile, the row block's degrees as a column and the tile's
  degrees as a row, and the whole weight and bias.  The accumulator is zeroed at tile 0 and every point adds its tile's partial
  sum, so after the point at tile `k` it holds the partial aggregation over tiles `0 … k` of its row block (by induction on the
  point); at tile 7 that is the whole aggregation, and the point writes the layer's output for its 1024 rows.  The eight
  written blocks tile the result's 8192 rows, so the result array is the layer's closed form of the arrays the region finds.
-/
import proofs.«180336_j68848325755002_1_alg».proof.Proof.KI.Conv1Pieces
import proofs.«180336_j68848325755002_1_alg».proof.Proof.KI.Pay1
import proofs.«180336_j68848325755002_1_alg».proof.Proof.KI.Val0
import proofs.«180336_j68848325755002_1_alg».proof.Proof.ConvSpec
import Idealize.ShloMosaic.Lib.Pipeline.Value

noncomputable section

namespace Cert.KernelIdeal.Hand

open Cert.KernelIdeal Cert.KernelIdeal.Gen Cert.ConvSpec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The arrays the region finds, typed as arrays of extended reals. -/
abbrev adj1 (c : Dev nD) : S8192x8192.Idx → EReal := V c main_arg2
abbrev feat1 (c : Dev nD) : S8192x64.Idx → EReal := V c main_v14
abbrev col1 (c : Dev nD) : S8192x1.Idx → EReal := V c main_v11
abbrev row1 (c : Dev nD) : S1x8192.Idx → EReal := V c main_v12
abbrev wgt1 (c : Dev nD) : S64x64.Idx → EReal := V c main_arg5
abbrev bias1 (c : Dev nD) : S1x64.Idx → EReal := V c main_v15

/-- The block index maps over the grid. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

/-! ## The input blocks in array terms -/

theorem blk1_0 (c : Dev nD) (t : Fin cfg1.N) (p q : Fin 1024) :
    (iblk1 V c 0 t : Vec Ideal S1024x1024 .f32) (ix2 p q) = at2 (adj1 V c) (t.val / 8 * 1024 + p.val) (t.val % 8 * 1024 + q.val) := by
  obtain ⟨e0, e1, -⟩ := idx_facts1 t
  unfold iblk1
  rw [View.read_apply]
  show V c main_arg2 _ = _
  refine at2_of (n0 := 8192) (n1 := 8192) (V c main_arg2) _ _ _ ?_ ?_
  · show win1_0.index t (0 : Fin 2) * 1024 + 1 * p.val = _; rw [e0]; omega
  · show win1_0.index t (1 : Fin 2) * 1024 + 1 * q.val = _; rw [e1]; omega

theorem blk1_1 (c : Dev nD) (t : Fin cfg1.N) (q : Fin 1024) (f : Fin 64) :
    (iblk1 V c 1 t : Vec Ideal S1024x64 .f32) (ix2 q f) = at2 (feat1 V c) (t.val % 8 * 1024 + q.val) f.val := by
  obtain ⟨-, -, e2, e3, -⟩ := idx_facts1 t
  unfold iblk1
  rw [View.read_apply]
  show V c main_v14 _ = _
  refine at2_of (n0 := 8192) (n1 := 64) (V c main_v14) _ _ _ ?_ ?_
  · show win1_1.index t (0 : Fin 2) * 1024 + 1 * q.val = _; rw [e2]; omega
  · show win1_1.index t (1 : Fin 2) * 64 + 1 * f.val = _; rw [e3]; omega

theorem blk1_2 (c : Dev nD) (t : Fin cfg1.N) (p : Fin 1024) :
    (iblk1 V c 2 t : Vec Ideal S1024x1 .f32) (ix2 p (0 : Fin 1)) = at2 (col1 V c) (t.val / 8 * 1024 + p.val) 0 := by
  obtain ⟨-, -, -, -, e4, e5, -⟩ := idx_facts1 t
  unfold iblk1
  rw [View.read_apply]
  show V c main_v11 _ = _
  refine at2_of (n0 := 8192) (n1 := 1) (V c main_v11) _ _ _ ?_ ?_
  · show win1_2.index t (0 : Fin 2) * 1024 + 1 * p.val = _; rw [e4]; omega
  · show win1_2.index t (1 : Fin 2) * 1 + 1 * 0 = _; rw [e5]

theorem blk1_3 (c : Dev nD) (t : Fin cfg1.N) (q : Fin 1024) :
    (iblk1 V c 3 t : Vec Ideal S1x1024 .f32) (ix2 (0 : Fin 1) q) = at2 (row1 V c) 0 (t.val % 8 * 1024 + q.val) := by
  obtain ⟨-, -, -, -, -, -, e6, e7, -⟩ := idx_facts1 t
  unfold iblk1
  rw [View.read_apply]
  show V c main_v12 _ = _
  refine at2_of (n0 := 1) (n1 := 8192) (V c main_v12) _ _ _ ?_ ?_
  · show win1_3.index t (0 : Fin 2) * 1 + 1 * 0 = _; rw [e6]
  · show win1_3.index t (1 : Fin 2) * 1024 + 1 * q.val = _; rw [e7]; omega

theorem blk1_4 (c : Dev nD) (t : Fin cfg1.N) (f : Fin 64) (o : Fin 64) :
    (iblk1 V c 4 t : Vec Ideal S64x64 .f32) (ix2 f o) = at2 (wgt1 V c) f.val o.val := by
  obtain ⟨-, -, -, -, -, -, -, -, e8, e9, -⟩ := idx_facts1 t
  unfold iblk1
  rw [View.read_apply]
  show V c main_arg5 _ = _
  refine at2_of (n0 := 64) (n1 := 64) (V c main_arg5) _ _ _ ?_ ?_
  · show win1_4.index t (0 : Fin 2) * 64 + 1 * f.val = _; rw [e8]; omega
  · show win1_4.index t (1 : Fin 2) * 64 + 1 * o.val = _; rw [e9]; omega

theorem blk1_5 (c : Dev nD) (t : Fin cfg1.N) (o : Fin 64) :
    (iblk1 V c 5 t : Vec Ideal S1x64 .f32) (ix2 (0 : Fin 1) o) = at2 (bias1 V c) 0 o.val := by
  obtain ⟨-, -, -, -, -, -, -, -, -, -, e10, e11, -⟩ := idx_facts1 t
  unfold iblk1
  rw [View.read_apply]
  show V c main_v15 _ = _
  refine at2_of (n0 := 1) (n1 := 64) (V c main_v15) _ _ _ ?_ ?_
  · show win1_5.index t (0 : Fin 2) * 1 + 1 * 0 = _; rw [e10]
  · show win1_5.index t (1 : Fin 2) * 64 + 1 * o.val = _; rw [e11]; omega

/-! ## The accumulator point by point -/

/-- One accumulate step at an entry: the accumulator's entry plus the point's tile sum. -/
theorem step_acc1 (c : Dev nD) (t : Fin cfg1.N) (acc : Vec Ideal S1024x64 .f32) (p : Fin 1024) (f : Fin 64) :
    k1_pay2 (F := Ideal) (iblk1 V c 0 t) (iblk1 V c 2 t) (iblk1 V c 3 t) (iblk1 V c 1 t) acc (ix2 p f)
      = acc (ix2 p f) + tileSum (adj1 V c) (col1 V c) (row1 V c) (feat1 V c) (t.val / 8 * 1024 + p.val) f.val (t.val % 8) := by
  rw [pay2_apply1]
  unfold tileSum wTerm
  refine congrArg _ (Finset.sum_congr rfl fun q _ => ?_)
  rw [blk1_0, blk1_2, blk1_3, blk1_1]

/-- After the point at position `n` the accumulator holds the partial aggregation over tiles `0 … n % 8` of row block `n / 8`. -/
theorem acc_eq1 (c : Dev nD) : ∀ (n : ℕ) (hn : n < cfg1.N) (p : Fin 1024) (f : Fin 64),
    ((outsAt1 V c n hn).2 : Vec Ideal S1024x64 .f32) (ix2 p f)
      = partialAgg (adj1 V c) (col1 V c) (row1 V c) (feat1 V c) (n / 8 * 1024 + p.val) f.val (n % 8) := by
  intro n
  induction n with
  | zero =>
    intro hn p f
    have e := outsAt1_A V c ⟨0, hn⟩ (Nat.zero_mod 8) (by show ¬(0 % 8 = 7); decide)
    rw [show outsAt1 V c 0 hn = _ from e, step1_A_snd, step_acc1, pay1_apply1, zero_add]
    exact (partialAgg_zero _ _ _ _ _ _).symm
  | succ n ih =>
    intro hn p f
    by_cases h0 : (n + 1) % 8 = 0
    · have h1 : ¬(n + 1) % 8 = 7 := by omega
      have e := outsAt1_A V c ⟨n + 1, hn⟩ h0 h1
      rw [show outsAt1 V c (n + 1) hn = _ from e, step1_A_snd, step_acc1, pay1_apply1, zero_add]
      show tileSum _ _ _ _ _ _ ((n + 1) % 8) = partialAgg _ _ _ _ _ _ ((n + 1) % 8)
      rw [h0]
      exact (partialAgg_zero _ _ _ _ _ _).symm
    · have ihn := ih (Nat.lt_of_succ_lt hn) p f
      have hd : (n + 1) / 8 = n / 8 := by omega
      have hm : (n + 1) % 8 = n % 8 + 1 := by omega
      by_cases h1 : (n + 1) % 8 = 7
      · have e := outsAt1_C V c ⟨n + 1, hn⟩ h0 h1
        rw [show outsAt1 V c (n + 1) hn = _ from e, step1_C_snd, step_acc1]
        show ((outsAt1 V c n _).2 : Vec Ideal S1024x64 .f32) (ix2 p f) + tileSum _ _ _ _ ((n + 1) / 8 * 1024 + p.val) f.val ((n + 1) % 8) = _
        rw [ihn, hd, hm]
        exact (partialAgg_succ _ _ _ _ _ _ _).symm
      · have e := outsAt1_B V c ⟨n + 1, hn⟩ h0 h1
        rw [show outsAt1 V c (n + 1) hn = _ from e, step1_B_snd, step_acc1]
        show ((outsAt1 V c n _).2 : Vec Ideal S1024x64 .f32) (ix2 p f) + tileSum _ _ _ _ ((n + 1) / 8 * 1024 + p.val) f.val ((n + 1) % 8) = _
        rw [ihn, hd, hm]
        exact (partialAgg_succ _ _ _ _ _ _ _).symm

/-! ## The written block and the array -/

/-- The layer's closed form as a function of the result array's index. -/
def G1 (a : S8192x8192.Idx → EReal) (col : S8192x1.Idx → EReal) (row : S1x8192.Idx → EReal) (h : S8192x64.Idx → EReal)
    (w : S64x64.Idx → EReal) (b : S1x64.Idx → EReal) : S8192x64.Idx → EReal :=
  fun i => convOut a col row h w b slope (i 0).val (i 1).val

/-- At the last tile of a row block the output buffer holds the layer's output for the block's rows. -/
theorem out_eq1 (c : Dev nD) (t : Fin cfg1.N) (h1 : t.val % 8 = 7) (p : Fin 1024) (o : Fin 64) :
    ((outsAt1 V c t.val t.isLt).1 : Vec Ideal S1024x64 .f32) (ix2 p o)
      = convOut (adj1 V c) (col1 V c) (row1 V c) (feat1 V c) (wgt1 V c) (bias1 V c) slope (t.val / 8 * 1024 + p.val) o.val := by
  have h0 : ¬t.val % 8 = 0 := by omega
  have e := outsAt1_C V c t h0 h1
  have hacc : ∀ f : Fin 64, k1_pay2 (F := Ideal) (iblk1 V c 0 t) (iblk1 V c 2 t) (iblk1 V c 3 t) (iblk1 V c 1 t)
        (outsAt1 V c (t.val - 1) (Nat.lt_of_le_of_lt (Nat.sub_le _ _) t.isLt)).2 (ix2 p f)
      = agg (adj1 V c) (col1 V c) (row1 V c) (feat1 V c) (t.val / 8 * 1024 + p.val) f.val := fun f => by
    have e2 := congrArg Prod.snd e
    rw [step1_C_snd] at e2
    rw [← e2, acc_eq1 V c t.val t.isLt p f, h1]
    exact partialAgg_seven _ _ _ _ _ _
  rw [e, step1_C_fst, pay3_apply1]
  unfold convOut leakyGt
  simp only [hacc, blk1_4, blk1_5]

/-- What a writing point writes back is its block of the closed form. -/
theorem flushed1_eq (c : Dev nD) (t : Fin cfg1.N) (hf : (cfg1.win 6).flush t = true) :
    (dat1 V c).flushed 6 t = ((cfg1.win 6).blk t).view.read (Elt Ideal)
      (G1 (adj1 V c) (col1 V c) (row1 V c) (feat1 V c) (wgt1 V c) (bias1 V c)) := by
  have h1 : t.val % 8 = 7 := (flush1_6 t).mp hf
  obtain ⟨-, -, -, -, -, -, -, -, -, -, -, -, e12, e13⟩ := idx_facts1 t
  show (cfg1.win 6).cut (grid1.coords t) ((dat1 V c).after 6 t) = _
  rw [after1_6]
  funext j
  obtain ⟨p, o, rfl⟩ : ∃ (p : Fin 1024) (o : Fin 64), j = ix2 p o := ⟨j 0, j 1, eq_ix2 j⟩
  show ((outsAt1 V c t.val t.isLt).1 : Vec Ideal S1024x64 .f32) (ix2 p o)
    = G1 (adj1 V c) (col1 V c) (row1 V c) (feat1 V c) (wgt1 V c) (bias1 V c) (((cfg1.win 6).blk t).view.emb (ix2 p o))
  rw [out_eq1 V c t h1 p o]
  unfold G1
  have a0 : ((((cfg1.win 6).blk t).view.emb (ix2 p o)) 0).val = t.val / 8 * 1024 + p.val := by
    show win1_6.index t (0 : Fin 2) * 1024 + 1 * p.val = _; rw [e12]; omega
  have a1 : ((((cfg1.win 6).blk t).view.emb (ix2 p o)) 1).val = o.val := by
    show win1_6.index t (1 : Fin 2) * 64 + 1 * o.val = _; rw [e13]; omega
  rw [a0, a1]

/-- An index of the result array is in point `t`'s block iff each coordinate is in the block's range. -/
theorem mem_blk1 (t : Fin cfg1.N) (i : S8192x64.Idx) :
    i ∈ ((cfg1.win 6).blk t).view.set ↔ ∀ a : Fin 2, win1_6.index t a * S1024x64.size a ≤ (i a).val ∧ (i a).val < win1_6.index t a * S1024x64.size a + S1024x64.size a := by
  show i ∈ ((View.whole main_v16).slice (win1_6.rect t)).set ↔ _
  rw [View.set_slice_whole, Rect.mem_set_unit]
  exact Iff.rfl

/-- The result array after the region: the layer's closed form of the arrays the region finds. -/
theorem final1 (c : Dev nD) : (dat1 V c).arrAt 6 cfg1.N
    = G1 (adj1 V c) (col1 V c) (row1 V c) (feat1 V c) (wgt1 V c) (bias1 V c) :=
  (dat1 V c).arrAt_eq_of_cover 6 _ (fun t hf => flushed1_eq V c t hf) fun i => by
    have hi0 : (i 0).val < 8192 := idx2_lt0 i
    have hi1 : (i 1).val < 64 := idx2_lt1 i
    let t : Fin cfg1.N := ⟨(i 0).val / 1024 * 8 + 7, (by omega : (i 0).val / 1024 * 8 + 7 < 64).trans_eq N_1.symm⟩
    obtain ⟨-, -, -, -, -, -, -, -, -, -, -, -, e12, e13⟩ := idx_facts1 t
    refine ⟨t, (flush1_6 t).mpr (by show ((i 0).val / 1024 * 8 + 7) % 8 = 7; omega), ?_⟩
    rw [mem_blk1]
    intro a
    match a with
    | ⟨0, _⟩ =>
      show win1_6.index t (0 : Fin 2) * 1024 ≤ (i 0).val ∧ (i 0).val < win1_6.index t (0 : Fin 2) * 1024 + 1024
      rw [e12]
      show ((i 0).val / 1024 * 8 + 7) / 8 * 1024 ≤ (i 0).val ∧ (i 0).val < ((i 0).val / 1024 * 8 + 7) / 8 * 1024 + 1024
      omega
    | ⟨1, _⟩ =>
      show win1_6.index t (1 : Fin 2) * 64 ≤ (i 1).val ∧ (i 1).val < win1_6.index t (1 : Fin 2) * 64 + 64
      rw [e13]; omega

end Cert.KernelIdeal.Hand

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.KI.Pay2.lean ====
/-
  The arithmetic of the classifier kernel, entry by entry, over the extended reals.

  One grid point holds a [1024, 64] tile `h` of the second layer's output, the [64, 16] weight `w` and the bias row `b`.
  With `lin (p, o) = Σ_f h (p, f) · w (f, o) + b o`, the kernel writes the log-softmax of each row of `lin`:
  `(lin (p, o) − M p) − log (Σ_k exp (lin (p, k) − M p))`, where `M p` is the larger of −∞ and the row's supremum.
-/
import proofs.«180336_j68848325755002_1_alg».proof.Proof.Gen.KernelIdeal.Skeleton
import proofs.«180336_j68848325755002_1_alg».proof.Proof.LibPlainDotFormats
import proofs.«180336_j68848325755002_1_alg».proof.Proof.LibKeepdims
import proofs.«180336_j68848325755002_1_alg».proof.Proof.LibRowLayout
import proofs.«180336_j68848325755002_1_alg».proof.Proof.LibRowMax
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

/-- The log-softmax of one row of extended reals, as both programs spell it: shift by the larger of −∞ and the
    row's supremum, then subtract the logarithm of the shifted exponentials' sum. -/
def logSoftmaxRow {n : ℕ} (x : Fin n → EReal) (o : Fin n) : EReal :=
  (x o - max ⊥ (Finset.univ.sup x)) - Ideal.log (∑ k : Fin n, Ideal.exp (x k - max ⊥ (Finset.univ.sup x)))

/-- The row maximum from −∞ with its accumulator's side condition spelt as the printed kernel spells it. -/
theorem max_rows_printed {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i) = Finset.univ.sup fun k : Fin b => src (ix2 i k) :=
  Cert.LibRowMax.multiReduction_max_rows_apply src h hφ hacc i

/-- The row sum from zero with its accumulator's side condition spelt as the printed kernel spells it. -/
theorem add_rows_printed {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  Cert.LibKeepdims.multiReduction_add_rows_apply src h hφ hacc i

/-- The classifier's product contracts the tile's features against the weight's rows. -/
theorem plain_cls : Cert.LibPlainDot.Plain dot_S1024x64_S64x16_S1024x16_1_0_0_1_n_n := ⟨rfl, rfl, rfl, rfl, rfl, rfl⟩

/-- The classifier's linear layer at entry `(p, o)`. -/
def clsLin (h : Vec Ideal S1024x64 .f32) (w : Vec Ideal S64x16 .f32) (b : Vec Ideal S1x16 .f32) (p : Fin 1024) (o : Fin 16) : EReal :=
  (∑ f : Fin 64, h (ix2 p f) * w (ix2 f o)) + b (ix2 (0 : Fin 1) o)

/-- The classifier's payload at entry `(p, o)` is the log-softmax of row `p` of the linear layer. -/
theorem pay1_apply2 (h : Vec Ideal S1024x64 .f32) (w : Vec Ideal S64x16 .f32) (b : Vec Ideal S1x16 .f32)
    (p : Fin 1024) (o : Fin 16) :
    k2_pay1 (F := Ideal) h w b (ix2 p o) = logSoftmaxRow (clsLin h w b p) o := by
  have hlin : ∀ k : Fin 16, (addf (matmul (F := Ideal) dot_S1024x64_S64x16_S1024x16_1_0_0_1_n_n none
        (truncf .bf16 h bitsLt_bf16_f32 : FVec Ideal S1024x64 .bf16) (truncf .bf16 w bitsLt_bf16_f32 : FVec Ideal S64x16 .bf16)
        (constant S1024x16 .f32 0x00000000#32) : FVec Ideal S1024x16 .f32)
        (broadcastTo S1024x16 b broadcasts_S1x16_S1024x16)) (ix2 p k) = clsLin h w b p k := fun k => by
    rw [addf_apply, Cert.LibRowLayout.broadcastTo_1b_ab_apply]
    exact congrArg (· + _) ((plain_cls.matmul_zero_apply_formats none (truncf .bf16 h bitsLt_bf16_f32 : FVec Ideal S1024x64 .bf16)
      (truncf .bf16 w bitsLt_bf16_f32 : FVec Ideal S64x16 .bf16) p k).trans rfl)
  have hmax : (multiReduction (F := Ideal) .maximumf [1] S1024
        (addf (matmul (F := Ideal) dot_S1024x64_S64x16_S1024x16_1_0_0_1_n_n none
          (truncf .bf16 h bitsLt_bf16_f32 : FVec Ideal S1024x64 .bf16) (truncf .bf16 w bitsLt_bf16_f32 : FVec Ideal S64x16 .bf16)
          (constant S1024x16 .f32 0x00000000#32) : FVec Ideal S1024x16 .f32) (broadcastTo S1024x16 b broadcasts_S1x16_S1024x16))
        0xFF800000#32 reduces_S1024x16_S1024 (.inl rfl) rfl : FVec Ideal S1024 .f32) (ix1 p)
      = Finset.univ.sup (clsLin h w b p) :=
    (max_rows_printed _ _ _ _ p).trans (congrArg _ (funext hlin))
  unfold k2_pay1 logSoftmaxRow
  simp only [shapeCast_self]
  rw [subf_apply, subf_apply, Cert.LibKeepdims.broadcastTo_a1_ab_apply, Cert.LibKeepdims.broadcastTo_a1_ab_apply,
    Cert.LibKeepdims.shapeCast_a_a1_apply, maximumf_apply, broadcast_apply, hmax, hlin]
  rw [show ∀ (v : FVec Ideal S1024x1 .f32) (i : S1024x1.Idx), log v i = Ideal.log (v i) from fun _ _ => rfl,
    Cert.LibKeepdims.shapeCast_a_a1_apply, add_rows_printed]
  simp only [show ∀ (v : FVec Ideal S1024x16 .f32) (i : S1024x16.Idx), exp v i = Ideal.exp (v i) from fun _ _ => rfl,
    subf_apply, Cert.LibKeepdims.broadcastTo_a1_ab_apply, Cert.LibKeepdims.shapeCast_a_a1_apply, maximumf_apply, broadcast_apply,
    hmax, hlin]
  rw [show (FloatOps.ofBits (F := Ideal) .f32 0xFF800000#32 : EReal) = ⊥ from Cert.LibRowMax.ofBits_neg_inf_f32]

end Cert.KernelIdeal.Hand

end
-- ==== Proof.KI.Val2.lean ====
/-
  What the classifier region leaves in its result array, over the extended reals.

  The region's grid has eight points; point `t` holds rows `1024·t … 1024·t + 1023` of the second layer's output (all 64
  columns), the whole weight and the whole bias row, and writes rows `1024·t …` of the result.  Each point's block is the
  log-softmax of the linear layer of its rows, so the eight blocks, which tile the result's 8192 rows, are the blocks of ONE
  function of the three arrays: row `r`, column `o` is the log-softmax at `o` of `k ↦ Σ_f h (r, f) · w (f, k) + b k`.
-/
import proofs.«180336_j68848325755002_1_alg».proof.Proof.KI.Cls
import proofs.«180336_j68848325755002_1_alg».proof.Proof.KI.Pay2
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The classifier over whole arrays: row `r`, column `o`. -/
def clsArr (h : S8192x64.Idx → EReal) (w : S64x16.Idx → EReal) (b : S1x16.Idx → EReal) (r : Fin 8192) (o : Fin 16) : EReal :=
  logSoftmaxRow (fun k : Fin 16 => (∑ f : Fin 64, h (ix2 r f) * w (ix2 f k)) + b (ix2 (0 : Fin 1) k)) o

/-- The same as a function of the result array's index. -/
def G2 (h : S8192x64.Idx → EReal) (w : S64x16.Idx → EReal) (b : S1x16.Idx → EReal) : S8192x16.Idx → EReal :=
  fun i => clsArr h w b ⟨(i 0).val, idx2_lt0 i⟩ ⟨(i 1).val, idx2_lt1 i⟩

/-- At an index built from a row and a column the closed form is the row-and-column form. -/
theorem G2_ix2 (h : S8192x64.Idx → EReal) (w : S64x16.Idx → EReal) (b : S1x16.Idx → EReal) (r : Fin 8192) (o : Fin 16) :
    G2 h w b (ix2 r o) = clsArr h w b r o := rfl

/-- The block index maps over the grid: the feature rows and the result move with the point, the weight and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the classifier of the arrays the region finds. -/
theorem flushed2_eq (c : Dev nD) (t : Fin cfg2.N) :
    (dat2 V c).flushed 3 t = ((cfg2.win 3).blk t).view.read (Elt Ideal)
      (G2 (V c main_v16) (V c main_arg7) (V c main_v17)) := by
  have ht : t.val < 8 := t.isLt.trans_eq N_2
  obtain ⟨e0, e1, e2, e3, e4, e5, e6, e7⟩ := idx_facts2 t
  show (cfg2.win 3).cut (grid2.coords t) ((dat2 V c).after 3 t) = _
  rw [after2_3]
  unfold out2_3
  rw [View.canon_unit_zero hz2]
  simp only [View.ld_unit_zero (S := S1024x64) hz2, View.ld_unit_zero (S := S64x16) hz2, View.ld_unit_zero (S := S1x16) hz2]
  funext j
  obtain ⟨p, o, rfl⟩ : ∃ (p : Fin 1024) (o : Fin 16), j = ix2 p o := ⟨j 0, j 1, eq_ix2 j⟩
  show (k2_pay1 (F := Ideal) (iblk2 V c 0 t) (iblk2 V c 1 t) (iblk2 V c 2 t) : FVec Ideal S1024x16 .f32) (ix2 p o)
    = G2 (V c main_v16) (V c main_arg7) (V c main_v17) (((cfg2.win 3).blk t).view.emb (ix2 p o))
  rw [pay1_apply2]
  have hemb : ((cfg2.win 3).blk t).view.emb (ix2 p o) = ix2 (⟨t.val * 1024 + p.val, by omega⟩ : Fin 8192) o :=
    funext fun a => Fin.ext (by
      match a with
      | ⟨0, _⟩ => show win2_3.index t (0 : Fin 2) * 1024 + 1 * p.val = t.val * 1024 + p.val; rw [e6]; omega
      | ⟨1, _⟩ => show win2_3.index t (1 : Fin 2) * 16 + 1 * o.val = o.val; rw [e7]; omega)
  rw [hemb, G2_ix2]
  unfold clsArr
  refine congrArg (fun x => logSoftmaxRow x o) (funext fun k => ?_)
  unfold clsLin
  have h0 : ∀ f : Fin 64, (iblk2 V c 0 t : Vec Ideal S1024x64 .f32) (ix2 p f)
      = (V c main_v16 : S8192x64.Idx → EReal) (ix2 (⟨t.val * 1024 + p.val, by omega⟩ : Fin 8192) f) := fun f => by
    unfold iblk2
    rw [View.read_apply]
    show V c main_v16 _ = V c main_v16 _
    refine congrArg _ (funext fun a => Fin.ext ?_)
    match a with
    | ⟨0, _⟩ => show win2_0.index t (0 : Fin 2) * 1024 + 1 * p.val = t.val * 1024 + p.val; rw [e0]; omega
    | ⟨1, _⟩ => show win2_0.index t (1 : Fin 2) * 64 + 1 * f.val = f.val; rw [e1]; omega
  have h1 : ∀ f : Fin 64, (iblk2 V c 1 t : Vec Ideal S64x16 .f32) (ix2 f k) = (V c main_arg7 : S64x16.Idx → EReal) (ix2 f k) := fun f => by
    unfold iblk2
    rw [View.read_apply]
    show V c main_arg7 _ = V c main_arg7 _
    refine congrArg _ (funext fun a => Fin.ext ?_)
    match a with
    | ⟨0, _⟩ => show win2_1.index t (0 : Fin 2) * 64 + 1 * f.val = f.val; rw [e2]; omega
    | ⟨1, _⟩ => show win2_1.index t (1 : Fin 2) * 16 + 1 * k.val = k.val; rw [e3]; omega
  have h2 : (iblk2 V c 2 t : Vec Ideal S1x16 .f32) (ix2 (0 : Fin 1) k) = (V c main_v17 : S1x16.Idx → EReal) (ix2 (0 : Fin 1) k) := by
    unfold iblk2
    rw [View.read_apply]
    show V c main_v17 _ = V c main_v17 _
    refine congrArg _ (funext fun a => Fin.ext ?_)
    match a with
    | ⟨0, _⟩ => show win2_2.index t (0 : Fin 2) * 1 + 1 * 0 = 0; rw [e4]
    | ⟨1, _⟩ => show win2_2.index t (1 : Fin 2) * 16 + 1 * k.val = k.val; rw [e5]; omega
  rw [h2]
  exact congrArg (· + _) (Finset.sum_congr rfl fun f _ => by rw [h0, h1])

/-- An index of the result array is in point `t`'s block iff each coordinate is in the block's range. -/
theorem mem_blk2 (t : Fin cfg2.N) (i : S8192x16.Idx) :
    i ∈ ((cfg2.win 3).blk t).view.set ↔ ∀ a : Fin 2, win2_3.index t a * S1024x16.size a ≤ (i a).val ∧ (i a).val < win2_3.index t a * S1024x16.size a + S1024x16.size a := by
  show i ∈ ((View.whole main_v18).slice (win2_3.rect t)).set ↔ _
  rw [View.set_slice_whole, Rect.mem_set_unit]
  exact Iff.rfl

/-- The result array after the region: the classifier of the arrays the region finds. -/
theorem final2 (c : Dev nD) : (dat2 V c).arrAt 3 cfg2.N = G2 (V c main_v16) (V c main_arg7) (V c main_v17) :=
  (dat2 V c).arrAt_eq_of_cover 3 _ (fun t _ => flushed2_eq V c t) fun i => by
    have hi0 : (i 0).val < 8192 := idx2_lt0 i
    have hi1 : (i 1).val < 16 := idx2_lt1 i
    let t : Fin cfg2.N := ⟨(i 0).val / 1024, (by omega : (i 0).val / 1024 < 8).trans_eq N_2.symm⟩
    obtain ⟨-, -, -, -, -, -, e6, e7⟩ := idx_facts2 t
    refine ⟨t, flush2_3 t, ?_⟩
    rw [mem_blk2]
    intro a
    match a with
    | ⟨0, _⟩ => show win2_3.index t (0 : Fin 2) * 1024 ≤ (i 0).val ∧ (i 0).val < win2_3.index t (0 : Fin 2) * 1024 + 1024; rw [e6]; show (i 0).val / 1024 * 1024 ≤ (i 0).val ∧ (i 0).val < (i 0).val / 1024 * 1024 + 1024; omega
    | ⟨1, _⟩ => show win2_3.index t (1 : Fin 2) * 16 ≤ (i 1).val ∧ (i 1).val < win2_3.index t (1 : Fin 2) * 16 + 16; rw [e7]; omega

end Cert.KernelIdeal.Hand

end
-- ==== Proof.KI.KernelValue.lean ====
/-
  The kernel's result array as one function of its argument arrays, over the extended reals.

  The last region's result array is the classifier of what it finds; what it finds in its feature window is the second
  graph-convolution region's result array, which is the layer's closed form of what THAT region finds, whose feature window
  holds the first region's result array; the degree column and row, and the three bias rows, are what the host operations
  before each region left: reshapes of the gathered degrees, of the degrees, and of the bias vectors.  Composing the three
  closed forms through those boundary contents gives the result as one term of the launch memory.
-/
import proofs.«180336_j68848325755002_1_alg».proof.Proof.KI.Host
import proofs.«180336_j68848325755002_1_alg».proof.Proof.KI.Val0
import proofs.«180336_j68848325755002_1_alg».proof.Proof.KI.Val1
import proofs.«180336_j68848325755002_1_alg».proof.Proof.KI.Val2

noncomputable section

namespace Cert.KernelIdeal.Hand

open Cert.KernelIdeal Cert.KernelIdeal.Gen Cert.ConvSpec
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The degree column the convolution regions stage: the gathered degrees as an [8192, 1] array. -/
def colK (d a : FVec Ideal S8192x8192 .f32) : S8192x1.Idx → EReal :=
  shapeCast S8192x1 (degFirstK (F := Ideal) d a) shapeCasts_S8192_S8192x1

/-- The degree row they stage: the degrees as a [1, 8192] array. -/
def rowK (d : FVec Ideal S8192x8192 .f32) : S1x8192.Idx → EReal :=
  shapeCast S1x8192 (degK (F := Ideal) d) shapeCasts_S8192_S1x8192

/-- The kernel's result as a function of the nine argument arrays. -/
def kernelResult (a0 : FVec Ideal S8192x8192 .f32) (a1 : FVec Ideal S8192x128 .f32) (a2 : FVec Ideal S8192x8192 .f32)
    (a3 : FVec Ideal S128x64 .f32) (a4 : FVec Ideal S64 .f32) (a5 : FVec Ideal S64x64 .f32) (a6 : FVec Ideal S64 .f32)
    (a7 : FVec Ideal S64x16 .f32) (a8 : FVec Ideal S16 .f32) : S8192x16.Idx → EReal :=
  G2 (G1 a2 (colK a0 a2) (rowK a0)
        (G0 a2 (colK a0 a2) (rowK a0) a1 a3 (shapeCast S1x64 a4 shapeCasts_S64_S1x64))
        a5 (shapeCast S1x64 a6 shapeCasts_S64_S1x64))
     a7 (shapeCast S1x16 a8 shapeCasts_S16_S1x16)

/-- What the run leaves in the result array on core `c` is `kernelResult` of the launch contents of the arguments. -/
theorem kernel_value (c : Dev nD) :
    W8 m ρ c (Proc.devRef .tc main_v18)
      = kernelResult (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W8_main_v18, final2 (V7 m ρ) c, V7_main_v16, V7_main_arg7, V7_main_v17, final1 (V5 m ρ) c]
  dsimp only [adj1, feat1, col1, row1, wgt1, bias1]
  rw [V5_main_arg2, V5_main_v11, V5_main_v12, V5_main_arg5, V5_main_v15, V5_main_v14, final0 (V3 m ρ) c]
  dsimp only [adj0, feat0, col0, row0, wgt0, bias0]
  rw [V3_main_arg2, V3_main_arg1, V3_main_arg3, V3_main_v11, V3_main_v12, V3_main_v13]
  rfl

end Cert.KernelIdeal.Hand

end
-- ==== Proof.Ref.Ops.lean ====
/- The reference program's @main as the list of its 69 host operations in order, each outlined
   function's operations listed at its call site over that call's own buffers, and the equation of
   @main with the straight line over that list. -/
import proofs.«180336_j68848325755002_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order. The row maximum of the first argument (two operations); the
    comparison of the third argument with zero and the index of the first positive entry of each row
    (the two-result reduce over the comparison and a column iota: five operations into the first call's
    buffers), wrapped where negative and broadcast to a column; the gather of the row maxima at those
    indices, the outer product of the gathered and the plain row maxima, its square root and the
    quotient of the third argument by it; then each layer — two contractions, the bias broadcast and
    added, and the leaky rectifier (seven operations into that call's buffers, the last the select of
    the nested call) —; the classifier's contraction and bias; and the log-softmax's fifteen
    operations into the last call's buffers. -/
abbrev ops : List (HloOp τ sig (Elt F)) :=
  [
    nullary main_cst (constant S_ .f32 0xFF800000#32),
    binary main_arg0 main_cst main_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0x00000000#32),
    unary main_cst_0 main_v1 (broadcastInDim S8192x8192 ![] bcast_S_S8192x8192 : (⟨S_, .f32⟩ : BufTy).Contents (Elt F) → (⟨S8192x8192, .f32⟩ : BufTy).Contents (Elt F)),
    binary main_arg2 main_v1 main_v2 (cmpf .ogt : (⟨S8192x8192, .f32⟩ : BufTy).Contents (Elt F) → (⟨S8192x8192, .f32⟩ : BufTy).Contents (Elt F) → (⟨S8192x8192, .i1⟩ : BufTy).Contents (Elt F)),
    TRef.nullary main_call0.v0 (iotaInDim S8192x8192 32 1),
    TRef.nullary main_call0.c (constantI S_ 1 0#1),
    TRef.nullary main_call0.c_0 (constantI S_ 32 0#32),
    TRef.quaternary (.of main_v2 : TRef sig ⟨S8192x8192, .i1⟩) main_call0.v0 main_call0.c main_call0.c_0 main_call0.v1_0 (fun x y u v j => (Host.reduce2 reducer_argmax_i1_i32 x y u v reducesTo_S8192x8192_S8192_d1 h_S_ j).1),
    TRef.quaternary (.of main_v2 : TRef sig ⟨S8192x8192, .i1⟩) main_call0.v0 main_call0.c main_call0.c_0 main_call0.v1_1 (fun x y u v j => (Host.reduce2 reducer_argmax_i1_i32 x y u v reducesTo_S8192x8192_S8192_d1 h_S_ j).2),
    nullary main_c (constantI S_ 32 0#32),
    unary main_c main_v4 (broadcastInDim S8192 ![] bcast_S_S8192 : (⟨S_, .i32⟩ : BufTy).Contents (Elt F) → (⟨S8192, .i32⟩ : BufTy).Contents (Elt F)),
    binary main_v3 main_v4 main_v5 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v6 (broadcastInDim S8192 ![] bcast_S_S8192 : (⟨S_, .i32⟩ : BufTy).Contents (Elt F) → (⟨S8192, .i32⟩ : BufTy).Contents (Elt F)),
    binary main_v3 main_v6 main_v7 (addi : (⟨S8192, .i32⟩ : BufTy).Contents (Elt F) → (⟨S8192, .i32⟩ : BufTy).Contents (Elt F) → (⟨S8192, .i32⟩ : BufTy).Contents (Elt F)),
    ternary main_v5 main_v7 main_v3 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v8 main_v9 (broadcastInDim S8192x1 ![0] bcast_S8192_S8192x1_0 : (⟨S8192, .i32⟩ : BufTy).Contents (Elt F) → (⟨S8192x1, .i32⟩ : BufTy).Contents (Elt F)),
    binary main_v0 main_v9 main_v10 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    unary main_v0 main_v12 (broadcastInDim S1x8192 ![1] bcast_S8192_S1x8192_1 : (⟨S8192, .f32⟩ : BufTy).Contents (Elt F) → (⟨S1x8192, .f32⟩ : BufTy).Contents (Elt F)),
    unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (mulf : (⟨S8192x8192, .f32⟩ : BufTy).Contents (Elt F) → (⟨S8192x8192, .f32⟩ : BufTy).Contents (Elt F) → (⟨S8192x8192, .f32⟩ : BufTy).Contents (Elt F)),
    unary main_v15 main_v16 (Host.sqrt : (⟨S8192x8192, .f32⟩ : BufTy).Contents (Elt F) → (⟨S8192x8192, .f32⟩ : BufTy).Contents (Elt F)),
    binary main_arg2 main_v16 main_v17 (Host.divf : (⟨S8192x8192, .f32⟩ : BufTy).Contents (Elt F) → (⟨S8192x8192, .f32⟩ : BufTy).Contents (Elt F) → (⟨S8192x8192, .f32⟩ : BufTy).Contents (Elt F)),
    binary main_v17 main_arg1 main_v18 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v18 main_arg3 main_v19 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg4 main_v20 (broadcastInDim S1x64 ![1] bcast_S64_S1x64_1 : (⟨S64, .f32⟩ : BufTy).Contents (Elt F) → (⟨S1x64, .f32⟩ : BufTy).Contents (Elt F)),
    unary main_v20 main_v21 (broadcastInDim S8192x64 ![0, 1] bcast_S1x64_S8192x64_0_1 : (⟨S1x64, .f32⟩ : BufTy).Contents (Elt F) → (⟨S8192x64, .f32⟩ : BufTy).Contents (Elt F)),
    binary main_v19 main_v21 main_v22 (addf : (⟨S8192x64, .f32⟩ : BufTy).Contents (Elt F) → (⟨S8192x64, .f32⟩ : BufTy).Contents (Elt F) → (⟨S8192x64, .f32⟩ : BufTy).Contents (Elt F)),
    TRef.nullary main_call1.cst (constant S_ .f32 0x00000000#32),
    TRef.unary main_call1.cst main_call1.v0 (broadcastInDim S8192x64 ![] bcast_S_S8192x64),
    TRef.binary (.of main_v22 : TRef sig ⟨S8192x64, .f32⟩) main_call1.v0 main_call1.v1 (cmpf .oge),
    TRef.nullary main_call1.cst_0 (constant S_ .f32 0x3C23D70A#32),
    TRef.unary main_call1.cst_0 main_call1.v2 (broadcastInDim S8192x64 ![] bcast_S_S8192x64),
    TRef.binary main_call1.v2 (.of main_v22 : TRef sig ⟨S8192x64, .f32⟩) main_call1.v3 mulf,
    TRef.ternary main_call1.v1 (.of main_v22 : TRef sig ⟨S8192x64, .f32⟩) main_call1.v3 main_call1.call0.v0 select,
    binary main_v17 main_v23 main_v24 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v24 main_arg5 main_v25 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S8192x64 ![0, 1] bcast_S1x64_S8192x64_0_1 : (⟨S1x64, .f32⟩ : BufTy).Contents (Elt F) → (⟨S8192x64, .f32⟩ : BufTy).Contents (Elt F)),
    binary main_v25 main_v27 main_v28 (addf : (⟨S8192x64, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v28 : TRef sig ⟨S8192x64, .f32⟩) main_call2.v0 main_call2.v1 (cmpf .oge),
    TRef.nullary main_call2.cst_0 (constant S_ .f32 0x3C23D70A#32),
    TRef.unary main_call2.cst_0 main_call2.v2 (broadcastInDim S8192x64 ![] bcast_S_S8192x64),
    TRef.binary main_call2.v2 (.of main_v28 : TRef sig ⟨S8192x64, .f32⟩) main_call2.v3 mulf,
    TRef.ternary main_call2.v1 (.of main_v28 : TRef sig ⟨S8192x64, .f32⟩) main_call2.v3 main_call2.call0.v0 select,
    binary main_v29 main_arg7 main_v30 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    unary main_arg8 main_v31 (broadcastInDim S1x16 ![1] bcast_S16_S1x16_1 : (⟨S16, .f32⟩ : BufTy).Contents (Elt F) → (⟨S1x16, .f32⟩ : BufTy).Contents (Elt F)),
    unary main_v31 main_v32 (broadcastInDim S8192x16 ![0, 1] bcast_S1x16_S8192x16_0_1 : (⟨S1x16, .f32⟩ : BufTy).Contents (Elt F) → (⟨S8192x16, .f32⟩ : BufTy).Contents (Elt F)),
    binary main_v30 main_v32 main_v33 (addf : (⟨S8192x16, .f32⟩ : BufTy).Contents (Elt F) → (⟨S8192x16, .f32⟩ : BufTy).Contents (Elt F) → (⟨S8192x16, .f32⟩ : BufTy).Contents (Elt F)),
    TRef.nullary main_call3.cst (constant S_ .f32 0xFF800000#32),
    TRef.binary (.of main_v33 : TRef sig ⟨S8192x16, .f32⟩) main_call3.cst main_call3.v0 (fun x v => Host.reduce FloatOps.maximumf x v reducesTo_S8192x16_S8192_d1 h_S_),
    TRef.nullary main_call3.cst_0 (constant S_ .f32 0xFF800000#32),
    TRef.unary main_call3.cst_0 main_call3.v1 (broadcastInDim S8192 ![] bcast_S_S8192),
    TRef.binary main_call3.v1 main_call3.v0 main_call3.v2 maximumf,
    TRef.unary main_call3.v2 main_call3.v3 (broadcastInDim S8192x1 ![0] bcast_S8192_S8192x1_0),
    TRef.unary main_call3.v3 main_call3.v4 (broadcastInDim S8192x16 ![0, 1] bcast_S8192x1_S8192x16_0_1),
    TRef.binary (.of main_v33 : TRef sig ⟨S8192x16, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S8192x16_S8192_d1 h_S_),
    TRef.unary main_call3.v7 main_call3.v8 (broadcastInDim S8192x1 ![0] bcast_S8192_S8192x1_0),
    TRef.unary main_call3.v8 main_call3.v9 Host.log,
    TRef.unary main_call3.v9 main_call3.v10 (broadcastInDim S8192x16 ![0, 1] bcast_S8192x1_S8192x16_0_1),
    TRef.binary main_call3.v5 main_call3.v10 main_call3.v11 subf ]

set_option maxRecDepth 2048 in
set_option maxHeartbeats 2000000 in
/-- @main is that straight line: the functions' definitions unfolded at their calls and the records at
    their fields, both sides are one chain of host steps once sequencing is reassociated. -/
theorem main_eq (c : Dev nD) : main (F := F) c = seq ops := by
  simp only [main, fn_argmax.body, fn_leaky_relu.body, fn_where.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., binary_bufs_sub .., nullary_bufs_sub .., unary_bufs_sub .., binary_bufs_sub .., nullary_bufs_sub ..,
    nullary_bufs_sub .., nullary_bufs_sub .., quaternary_bufs_sub .., quaternary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., unary_bufs_sub .., binary_bufs_sub ..,
    unary_bufs_sub .., binary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

end Cert.ReferenceIdeal.Hand

end
-- ==== Proof.Ref.Run.lean ====
/- The reference's run: its result as a composition of named pure stages of the nine arguments, and
   the statement that every weakly fair execution of @main ends with the result buffer at that term
   and the arguments unchanged. -/
import proofs.«180336_j68848325755002_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages

The reference's result as a composition of named pure stages of the nine arguments. -/

/-- The degree vector: the maximum of each row of the degree matrix, from -∞. -/
def deg (d : (⟨S8192x8192, .f32⟩ : BufTy).Contents (Elt F)) : (⟨S8192, .f32⟩ : BufTy).Contents (Elt F) :=
  Host.reduce FloatOps.maximumf d (constant (F := F) S_ .f32 0xFF800000#32) reducesTo_S8192x8192_S8192_d1 h_S_

/-- Where the adjacency matrix is positive. -/
def positive (a : (⟨S8192x8192, .f32⟩ : BufTy).Contents (Elt F)) : (⟨S8192x8192, .i1⟩ : BufTy).Contents (Elt F) :=
  (cmpf .ogt : (⟨S8192x8192, .f32⟩ : BufTy).Contents (Elt F) → (⟨S8192x8192, .f32⟩ : BufTy).Contents (Elt F) → (⟨S8192x8192, .i1⟩ : BufTy).Contents (Elt F)) a
    ((broadcastInDim S8192x8192 ![] bcast_S_S8192x8192 : (⟨S_, .f32⟩ : BufTy).Contents (Elt F) → (⟨S8192x8192, .f32⟩ : BufTy).Contents (Elt F)) (constant (F := F) S_ .f32 0x00000000#32))

/-- The column of the greatest entry of each row of a mask, the smaller column on a tie: the second
    component of the two-operand reduce over the mask and the column iota, from (false, 0). -/
def argmaxIdx (p : (⟨S8192x8192, .i1⟩ : BufTy).Contents (Elt F)) : (⟨S8192, .i32⟩ : BufTy).Contents (Elt F) := fun j =>
  (Host.reduce2 reducer_argmax_i1_i32 p (iotaInDim S8192x8192 32 1) (constantI S_ 1 0#1) (constantI S_ 32 0#32)
    reducesTo_S8192x8192_S8192_d1 h_S_ j).2

/-- An index below zero counted from the end: 8192 added where it is negative. -/
def wrapIdx (k : (⟨S8192, .i32⟩ : BufTy).Contents (Elt F)) : (⟨S8192, .i32⟩ : BufTy).Contents (Elt F) :=
  (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
    ((cmpi .slt : (⟨S8192, .i32⟩ : BufTy).Contents (Elt F) → (⟨S8192, .i32⟩ : BufTy).Contents (Elt F) → (⟨S8192, .i1⟩ : BufTy).Contents (Elt F)) k
      ((broadcastInDim S8192 ![] bcast_S_S8192 : (⟨S_, .i32⟩ : BufTy).Contents (Elt F) → (⟨S8192, .i32⟩ : BufTy).Contents (Elt F)) (constantI S_ 32 0#32)))
    ((addi : (⟨S8192, .i32⟩ : BufTy).Contents (Elt F) → (⟨S8192, .i32⟩ : BufTy).Contents (Elt F) → (⟨S8192, .i32⟩ : BufTy).Contents (Elt F)) k
      ((broadcastInDim S8192 ![] bcast_S_S8192 : (⟨S_, .i32⟩ : BufTy).Contents (Elt F) → (⟨S8192, .i32⟩ : BufTy).Contents (Elt F)) (constantI S_ 32 8192#32)))
    k

/-- The column of the first positive entry of each row of the adjacency matrix. -/
def firstIdx (a : (⟨S8192x8192, .f32⟩ : BufTy).Contents (Elt F)) : (⟨S8192, .i32⟩ : BufTy).Contents (Elt F) := wrapIdx (argmaxIdx (positive (F := F) a))

/-- The degrees gathered at the given indices. -/
def degFirst (dg : (⟨S8192, .f32⟩ : BufTy).Contents (Elt F)) (k : (⟨S8192, .i32⟩ : BufTy).Contents (Elt F)) : (⟨S8192, .f32⟩ : BufTy).Contents (Elt F) :=
  Host.gather gather_S8192_S8192x1_S8192_n_0_n_n_0_1_1 dg
    ((broadcastInDim S8192x1 ![0] bcast_S8192_S8192x1_0 : (⟨S8192, .i32⟩ : BufTy).Contents (Elt F) → (⟨S8192x1, .i32⟩ : BufTy).Contents (Elt F)) k)

/-- The outer product of a column vector and a row vector: entry (i, j) is u i * v j. -/
def outer (u v : (⟨S8192, .f32⟩ : BufTy).Contents (Elt F)) : (⟨S8192x8192, .f32⟩ : BufTy).Contents (Elt F) :=
  (mulf : (⟨S8192x8192, .f32⟩ : BufTy).Contents (Elt F) → (⟨S8192x8192, .f32⟩ : BufTy).Contents (Elt F) → (⟨S8192x8192, .f32⟩ : BufTy).Contents (Elt F))
    ((broadcastInDim S8192x8192 ![0, 1] bcast_S8192x1_S8192x8192_0_1 : (⟨S8192x1, .f32⟩ : BufTy).Contents (Elt F) → (⟨S8192x8192, .f32⟩ : BufTy).Contents (Elt F))
      ((broadcastInDim S8192x1 ![0] bcast_S8192_S8192x1_0 : (⟨S8192, .f32⟩ : BufTy).Contents (Elt F) → (⟨S8192x1, .f32⟩ : BufTy).Contents (Elt F)) u))
    ((broadcastInDim S8192x8192 ![0, 1] bcast_S1x8192_S8192x8192_0_1 : (⟨S1x8192, .f32⟩ : BufTy).Contents (Elt F) → (⟨S8192x8192, .f32⟩ : BufTy).Contents (Elt F))
      ((broadcastInDim S1x8192 ![1] bcast_S8192_S1x8192_1 : (⟨S8192, .f32⟩ : BufTy).Contents (Elt F) → (⟨S1x8192, .f32⟩ : BufTy).Contents (Elt F)) v))

/-- The normalized adjacency: entry (i, j) of the adjacency matrix divided by the square root of the
    product of the degree gathered for row i and the degree of column j. -/
def normAdj (d a : (⟨S8192x8192, .f32⟩ : BufTy).Contents (Elt F)) : (⟨S8192x8192, .f32⟩ : BufTy).Contents (Elt F) :=
  Host.divf (F := F) a (Host.sqrt (F := F) (outer (degFirst (deg d) (firstIdx a)) (deg d)))

/-- The leaky rectifier with slope 0.01: x where x ≥ 0, 0.01 * x elsewhere. -/
def leaky (x : (⟨S8192x64, .f32⟩ : BufTy).Contents (Elt F)) : (⟨S8192x64, .f32⟩ : BufTy).Contents (Elt F) :=
  (select : (⟨S8192x64, .i1⟩ : BufTy).Contents (Elt F) → (⟨S8192x64, .f32⟩ : BufTy).Contents (Elt F) → (⟨S8192x64, .f32⟩ : BufTy).Contents (Elt F) → (⟨S8192x64, .f32⟩ : BufTy).Contents (Elt F))
    ((cmpf .oge : (⟨S8192x64, .f32⟩ : BufTy).Contents (Elt F) → (⟨S8192x64, .f32⟩ : BufTy).Contents (Elt F) → (⟨S8192x64, .i1⟩ : BufTy).Contents (Elt F)) x
      ((broadcastInDim S8192x64 ![] bcast_S_S8192x64 : (⟨S_, .f32⟩ : BufTy).Contents (Elt F) → (⟨S8192x64, .f32⟩ : BufTy).Contents (Elt F)) (constant (F := F) S_ .f32 0x00000000#32)))
    x
    ((mulf : (⟨S8192x64, .f32⟩ : BufTy).Contents (Elt F) → (⟨S8192x64, .f32⟩ : BufTy).Contents (Elt F) → (⟨S8192x64, .f32⟩ : BufTy).Contents (Elt F))
      ((broadcastInDim S8192x64 ![] bcast_S_S8192x64 : (⟨S_, .f32⟩ : BufTy).Contents (Elt F) → (⟨S8192x64, .f32⟩ : BufTy).Contents (Elt F)) (constant (F := F) S_ .f32 0x3C23D70A#32)) x)

/-- A bias of 64 entries repeated down the 8192 rows. -/
def biasRows64 (b : (⟨S64, .f32⟩ : BufTy).Contents (Elt F)) : (⟨S8192x64, .f32⟩ : BufTy).Contents (Elt F) :=
  (broadcastInDim S8192x64 ![0, 1] bcast_S1x64_S8192x64_0_1 : (⟨S1x64, .f32⟩ : BufTy).Contents (Elt F) → (⟨S8192x64, .f32⟩ : BufTy).Contents (Elt F))
    ((broadcastInDim S1x64 ![1] bcast_S64_S1x64_1 : (⟨S64, .f32⟩ : BufTy).Contents (Elt F) → (⟨S1x64, .f32⟩ : BufTy).Contents (Elt F)) b)

/-- One graph-convolution layer: the features aggregated by the normalized adjacency, multiplied by
    the weights, the bias added, the leaky rectifier applied. -/
def layer {Sh Sw : Shape} (dA : DotDims S8192x8192 Sh Sh) (dW : DotDims Sh Sw S8192x64)
    (w : (⟨S8192x8192, .f32⟩ : BufTy).Contents (Elt F)) (h : (⟨Sh, .f32⟩ : BufTy).Contents (Elt F)) (wl : (⟨Sw, .f32⟩ : BufTy).Contents (Elt F)) (bl : (⟨S64, .f32⟩ : BufTy).Contents (Elt F)) : (⟨S8192x64, .f32⟩ : BufTy).Contents (Elt F) :=
  leaky ((addf : (⟨S8192x64, .f32⟩ : BufTy).Contents (Elt F) → (⟨S8192x64, .f32⟩ : BufTy).Contents (Elt F) → (⟨S8192x64, .f32⟩ : BufTy).Contents (Elt F))
    (Host.dotGeneral (F := F) dW none (Host.dotGeneral (F := F) dA none w h) wl) (biasRows64 bl))

/-- The classifier's affine map: the features times the weights plus the bias repeated down the rows. -/
def logits (h : (⟨S8192x64, .f32⟩ : BufTy).Contents (Elt F)) (w3 : (⟨S64x16, .f32⟩ : BufTy).Contents (Elt F)) (b3 : (⟨S16, .f32⟩ : BufTy).Contents (Elt F)) : (⟨S8192x16, .f32⟩ : BufTy).Contents (Elt F) :=
  (addf : (⟨S8192x16, .f32⟩ : BufTy).Contents (Elt F) → (⟨S8192x16, .f32⟩ : BufTy).Contents (Elt F) → (⟨S8192x16, .f32⟩ : BufTy).Contents (Elt F))
    (Host.dotGeneral (F := F) dot_S8192x64_S64x16_S8192x16_1_0_0_1_n_n none h w3)
    ((broadcastInDim S8192x16 ![0, 1] bcast_S1x16_S8192x16_0_1 : (⟨S1x16, .f32⟩ : BufTy).Contents (Elt F) → (⟨S8192x16, .f32⟩ : BufTy).Contents (Elt F))
      ((broadcastInDim S1x16 ![1] bcast_S16_S1x16_1 : (⟨S16, .f32⟩ : BufTy).Contents (Elt F) → (⟨S1x16, .f32⟩ : BufTy).Contents (Elt F)) b3))

/-- The maximum of each row from -∞, joined once more with -∞. -/
def rowMax (x : (⟨S8192x16, .f32⟩ : BufTy).Contents (Elt F)) : (⟨S8192, .f32⟩ : BufTy).Contents (Elt F) :=
  (maximumf : (⟨S8192, .f32⟩ : BufTy).Contents (Elt F) → (⟨S8192, .f32⟩ : BufTy).Contents (Elt F) → (⟨S8192, .f32⟩ : BufTy).Contents (Elt F))
    ((broadcastInDim S8192 ![] bcast_S_S8192 : (⟨S_, .f32⟩ : BufTy).Contents (Elt F) → (⟨S8192, .f32⟩ : BufTy).Contents (Elt F)) (constant (F := F) S_ .f32 0xFF800000#32))
    (Host.reduce FloatOps.maximumf x (constant (F := F) S_ .f32 0xFF800000#32) reducesTo_S8192x16_S8192_d1 h_S_)

/-- A column of 8192 entries repeated across the 16 classes. -/
def acrossClasses (v : (⟨S8192x1, .f32⟩ : BufTy).Contents (Elt F)) : (⟨S8192x16, .f32⟩ : BufTy).Contents (Elt F) :=
  (broadcastInDim S8192x16 ![0, 1] bcast_S8192x1_S8192x16_0_1 : (⟨S8192x1, .f32⟩ : BufTy).Contents (Elt F) → (⟨S8192x16, .f32⟩ : BufTy).Contents (Elt F)) v

/-- The logits with their row maximum subtracted. -/
def shifted (x : (⟨S8192x16, .f32⟩ : BufTy).Contents (Elt F)) : (⟨S8192x16, .f32⟩ : BufTy).Contents (Elt F) :=
  (subf : (⟨S8192x16, .f32⟩ : BufTy).Contents (Elt F) → (⟨S8192x16, .f32⟩ : BufTy).Contents (Elt F) → (⟨S8192x16, .f32⟩ : BufTy).Contents (Elt F)) x
    (acrossClasses ((broadcastInDim S8192x1 ![0] bcast_S8192_S8192x1_0 : (⟨S8192, .f32⟩ : BufTy).Contents (Elt F) → (⟨S8192x1, .f32⟩ : BufTy).Contents (Elt F)) (rowMax x)))

/-- The logarithm of each row's sum of exponentials (the sum from 0), repeated across the classes. -/
def logSumExp (s : (⟨S8192x16, .f32⟩ : BufTy).Contents (Elt F)) : (⟨S8192x16, .f32⟩ : BufTy).Contents (Elt F) :=
  acrossClasses (Host.log (F := F)
    ((broadcastInDim S8192x1 ![0] bcast_S8192_S8192x1_0 : (⟨S8192, .f32⟩ : BufTy).Contents (Elt F) → (⟨S8192x1, .f32⟩ : BufTy).Contents (Elt F))
      (Host.reduceAdd (F := F) (Host.exp (F := F) s) (constant (F := F) S_ .f32 0x00000000#32) reducesTo_S8192x16_S8192_d1 h_S_)))

/-- The logarithm of the softmax along the classes. -/
def logSoftmax (x : (⟨S8192x16, .f32⟩ : BufTy).Contents (Elt F)) : (⟨S8192x16, .f32⟩ : BufTy).Contents (Elt F) :=
  (subf : (⟨S8192x16, .f32⟩ : BufTy).Contents (Elt F) → (⟨S8192x16, .f32⟩ : BufTy).Contents (Elt F) → (⟨S8192x16, .f32⟩ : BufTy).Contents (Elt F)) (shifted x) (logSumExp (shifted x))

/-- The reference's result as a function of its nine arguments. -/
def result (a0 : (⟨S8192x8192, .f32⟩ : BufTy).Contents (Elt F)) (a1 : (⟨S8192x128, .f32⟩ : BufTy).Contents (Elt F)) (a2 : (⟨S8192x8192, .f32⟩ : BufTy).Contents (Elt F)) (a3 : (⟨S128x64, .f32⟩ : BufTy).Contents (Elt F)) (a4 : (⟨S64, .f32⟩ : BufTy).Contents (Elt F)) (a5 : (⟨S64x64, .f32⟩ : BufTy).Contents (Elt F)) (a6 : (⟨S64, .f32⟩ : BufTy).Contents (Elt F))
    (a7 : (⟨S64x16, .f32⟩ : BufTy).Contents (Elt F)) (a8 : (⟨S16, .f32⟩ : BufTy).Contents (Elt F)) : (⟨S8192x16, .f32⟩ : BufTy).Contents (Elt F) :=
  logSoftmax (logits
    (layer dot_S8192x8192_S8192x64_S8192x64_1_0_0_1_n_n dot_S8192x64_S64x64_S8192x64_1_0_0_1_n_n (normAdj a0 a2)
      (layer dot_S8192x8192_S8192x128_S8192x128_1_0_0_1_n_n dot_S8192x128_S128x64_S8192x64_1_0_0_1_n_n (normAdj a0 a2) a1 a3 a4)
      a5 a6)
    a7 a8)

/-! ## The operations in four stretches -/

/-- The operations up to the normalized adjacency (26). -/
abbrev opsA : List (HloOp τ sig (Elt F)) :=
  [
    nullary main_cst (constant S_ .f32 0xFF800000#32),
    binary main_arg0 main_cst main_v0 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0x00000000#32),
    unary main_cst_0 main_v1 (broadcastInDim S8192x8192 ![] bcast_S_S8192x8192 : (⟨S_, .f32⟩ : BufTy).Contents (Elt F) → (⟨S8192x8192, .f32⟩ : BufTy).Contents (Elt F)),
    binary main_arg2 main_v1 main_v2 (cmpf .ogt : (⟨S8192x8192, .f32⟩ : BufTy).Contents (Elt F) → (⟨S8192x8192, .f32⟩ : BufTy).Contents (Elt F) → (⟨S8192x8192, .i1⟩ : BufTy).Contents (Elt F)),
    TRef.nullary main_call0.v0 (iotaInDim S8192x8192 32 1),
    TRef.nullary main_call0.c (constantI S_ 1 0#1),
    TRef.nullary main_call0.c_0 (constantI S_ 32 0#32),
    TRef.quaternary (.of main_v2 : TRef sig ⟨S8192x8192, .i1⟩) main_call0.v0 main_call0.c main_call0.c_0 main_call0.v1_0 (fun x y u v j => (Host.reduce2 reducer_argmax_i1_i32 x y u v reducesTo_S8192x8192_S8192_d1 h_S_ j).1),
    TRef.quaternary (.of main_v2 : TRef sig ⟨S8192x8192, .i1⟩) main_call0.v0 main_call0.c main_call0.c_0 main_call0.v1_1 (fun x y u v j => (Host.reduce2 reducer_argmax_i1_i32 x y u v reducesTo_S8192x8192_S8192_d1 h_S_ j).2),
    nullary main_c (constantI S_ 32 0#32),
    unary main_c main_v4 (broadcastInDim S8192 ![] bcast_S_S8192 : (⟨S_, .i32⟩ : BufTy).Contents (Elt F) → (⟨S8192, .i32⟩ : BufTy).Contents (Elt F)),
    binary main_v3 main_v4 main_v5 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v6 (broadcastInDim S8192 ![] bcast_S_S8192 : (⟨S_, .i32⟩ : BufTy).Contents (Elt F) → (⟨S8192, .i32⟩ : BufTy).Contents (Elt F)),
    binary main_v3 main_v6 main_v7 (addi : (⟨S8192, .i32⟩ : BufTy).Contents (Elt F) → (⟨S8192, .i32⟩ : BufTy).Contents (Elt F) → (⟨S8192, .i32⟩ : BufTy).Contents (Elt F)),
    ternary main_v5 main_v7 main_v3 main_v8 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v8 main_v9 (broadcastInDim S8192x1 ![0] bcast_S8192_S8192x1_0 : (⟨S8192, .i32⟩ : BufTy).Contents (Elt F) → (⟨S8192x1, .i32⟩ : BufTy).Contents (Elt F)),
    binary main_v0 main_v9 main_v10 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    unary main_v10 main_v11 (broadcastInDim S8192x1 ![0] bcast_S8192_S8192x1_0 : (⟨S8192, .f32⟩ : BufTy).Contents (Elt F) → (⟨S8192x1, .f32⟩ : BufTy).Contents (Elt F)),
    unary main_v0 main_v12 (broadcastInDim S1x8192 ![1] bcast_S8192_S1x8192_1 : (⟨S8192, .f32⟩ : BufTy).Contents (Elt F) → (⟨S1x8192, .f32⟩ : BufTy).Contents (Elt F)),
    unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (mulf : (⟨S8192x8192, .f32⟩ : BufTy).Contents (Elt F) → (⟨S8192x8192, .f32⟩ : BufTy).Contents (Elt F) → (⟨S8192x8192, .f32⟩ : BufTy).Contents (Elt F)),
    unary main_v15 main_v16 (Host.sqrt : (⟨S8192x8192, .f32⟩ : BufTy).Contents (Elt F) → (⟨S8192x8192, .f32⟩ : BufTy).Contents (Elt F)),
    binary main_arg2 main_v16 main_v17 (Host.divf : (⟨S8192x8192, .f32⟩ : BufTy).Contents (Elt F) → (⟨S8192x8192, .f32⟩ : BufTy).Contents (Elt F) → (⟨S8192x8192, .f32⟩ : BufTy).Contents (Elt F)) ]

/-- The first layer (12). -/
abbrev opsB : List (HloOp τ sig (Elt F)) :=
  [
    binary main_v17 main_arg1 main_v18 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    binary main_v18 main_arg3 main_v19 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg4 main_v20 (broadcastInDim S1x64 ![1] bcast_S64_S1x64_1 : (⟨S64, .f32⟩ : BufTy).Contents (Elt F) → (⟨S1x64, .f32⟩ : BufTy).Contents (Elt F)),
    unary main_v20 main_v21 (broadcastInDim S8192x64 ![0, 1] bcast_S1x64_S8192x64_0_1 : (⟨S1x64, .f32⟩ : BufTy).Contents (Elt F) → (⟨S8192x64, .f32⟩ : BufTy).Contents (Elt F)),
    binary main_v19 main_v21 main_v22 (addf : (⟨S8192x64, .f32⟩ : BufTy).Contents (Elt F) → (⟨S8192x64, .f32⟩ : BufTy).Contents (Elt F) → (⟨S8192x64, .f32⟩ : BufTy).Contents (Elt F)),
    TRef.nullary main_call1.cst (constant S_ .f32 0x00000000#32),
    TRef.unary main_call1.cst main_call1.v0 (broadcastInDim S8192x64 ![] bcast_S_S8192x64),
    TRef.binary (.of main_v22 : TRef sig ⟨S8192x64, .f32⟩) main_call1.v0 main_call1.v1 (cmpf .oge),
    TRef.nullary main_call1.cst_0 (constant S_ .f32 0x3C23D70A#32),
    TRef.unary main_call1.cst_0 main_call1.v2 (broadcastInDim S8192x64 ![] bcast_S_S8192x64),
    TRef.binary main_call1.v2 (.of main_v22 : TRef sig ⟨S8192x64, .f32⟩) main_call1.v3 mulf,
    TRef.ternary main_call1.v1 (.of main_v22 : TRef sig ⟨S8192x64, .f32⟩) main_call1.v3 main_call1.call0.v0 select ]

/-- The second layer (12). -/
abbrev opsC : List (HloOp τ sig (Elt F)) :=
  [
    binary main_v17 main_v23 main_v24 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v24 main_arg5 main_v25 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg6 main_v26 (broadcastInDim S1x64 ![1] bcast_S64_S1x64_1 : (⟨S64, .f32⟩ : BufTy).Contents (Elt F) → (⟨S1x64, .f32⟩ : BufTy).Contents (Elt F)),
    unary main_v26 main_v27 (broadcastInDim S8192x64 ![0, 1] bcast_S1x64_S8192x64_0_1 : (⟨S1x64, .f32⟩ : BufTy).Contents (Elt F) → (⟨S8192x64, .f32⟩ : BufTy).Contents (Elt F)),
    binary main_v25 main_v27 main_v28 (addf : (⟨S8192x64, .f32⟩ : BufTy).Contents (Elt F) → (⟨S8192x64, .f32⟩ : BufTy).Contents (Elt F) → (⟨S8192x64, .f32⟩ : BufTy).Contents (Elt F)),
    TRef.nullary main_call2.cst (constant S_ .f32 0x00000000#32),
    TRef.unary main_call2.cst main_call2.v0 (broadcastInDim S8192x64 ![] bcast_S_S8192x64),
    TRef.binary (.of main_v28 : TRef sig ⟨S8192x64, .f32⟩) main_call2.v0 main_call2.v1 (cmpf .oge),
    TRef.nullary main_call2.cst_0 (constant S_ .f32 0x3C23D70A#32),
    TRef.unary main_call2.cst_0 main_call2.v2 (broadcastInDim S8192x64 ![] bcast_S_S8192x64),
    TRef.binary main_call2.v2 (.of main_v28 : TRef sig ⟨S8192x64, .f32⟩) main_call2.v3 mulf,
    TRef.ternary main_call2.v1 (.of main_v28 : TRef sig ⟨S8192x64, .f32⟩) main_call2.v3 main_call2.call0.v0 select ]

/-- The classifier and the log-softmax (19). -/
abbrev opsD : List (HloOp τ sig (Elt F)) :=
  [
    binary main_v29 main_arg7 main_v30 ((fun l r => Host.dotGeneral dot_S8192x64_S64x16_S8192x16_1_0_0_1_n_n none l r) : (⟨S8192x64, .f32⟩ : BufTy).Contents (Elt F) → (⟨S64x16, .f32⟩ : BufTy).Contents (Elt F) → (⟨S8192x16, .f32⟩ : BufTy).Contents (Elt F)),
    unary main_arg8 main_v31 (broadcastInDim S1x16 ![1] bcast_S16_S1x16_1 : (⟨S16, .f32⟩ : BufTy).Contents (Elt F) → (⟨S1x16, .f32⟩ : BufTy).Contents (Elt F)),
    unary main_v31 main_v32 (broadcastInDim S8192x16 ![0, 1] bcast_S1x16_S8192x16_0_1 : (⟨S1x16, .f32⟩ : BufTy).Contents (Elt F) → (⟨S8192x16, .f32⟩ : BufTy).Contents (Elt F)),
    binary main_v30 main_v32 main_v33 (addf : (⟨S8192x16, .f32⟩ : BufTy).Contents (Elt F) → (⟨S8192x16, .f32⟩ : BufTy).Contents (Elt F) → (⟨S8192x16, .f32⟩ : BufTy).Contents (Elt F)),
    TRef.nullary main_call3.cst (constant S_ .f32 0xFF800000#32),
    TRef.binary (.of main_v33 : TRef sig ⟨S8192x16, .f32⟩) main_call3.cst main_call3.v0 (fun x v => Host.reduce FloatOps.maximumf x v reducesTo_S8192x16_S8192_d1 h_S_),
    TRef.nullary main_call3.cst_0 (constant S_ .f32 0xFF800000#32),
    TRef.unary main_call3.cst_0 main_call3.v1 (broadcastInDim S8192 ![] bcast_S_S8192),
    TRef.binary main_call3.v1 main_call3.v0 main_call3.v2 maximumf,
    TRef.unary main_call3.v2 main_call3.v3 (broadcastInDim S8192x1 ![0] bcast_S8192_S8192x1_0),
    TRef.unary main_call3.v3 main_call3.v4 (broadcastInDim S8192x16 ![0, 1] bcast_S8192x1_S8192x16_0_1),
    TRef.binary (.of main_v33 : TRef sig ⟨S8192x16, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S8192x16_S8192_d1 h_S_),
    TRef.unary main_call3.v7 main_call3.v8 (broadcastInDim S8192x1 ![0] bcast_S8192_S8192x1_0),
    TRef.unary main_call3.v8 main_call3.v9 Host.log,
    TRef.unary main_call3.v9 main_call3.v10 (broadcastInDim S8192x16 ![0, 1] bcast_S8192x1_S8192x16_0_1),
    TRef.binary main_call3.v5 main_call3.v10 main_call3.v11 subf ]

theorem ops_split : (ops : List (HloOp τ sig (Elt F))) = opsA ++ (opsB ++ (opsC ++ opsD)) := rfl

/-- The contents after two lines run one after the other. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### What each stretch leaves

Each stretch's result buffer holds its stage of the contents the stretch started from; the buffers a
later stretch reads are left as they were. The folds and searches inside the reductions and the
gather are kept folded: the equations never look inside them. -/

attribute [local irreducible] Host.reduce Host.reduce2 Host.gather Host.reduceAdd

theorem opsA_v17 (W : Valuation τ sig (Elt F)) :
    after opsA W (main_v17 : DevRef τ sig) = normAdj (W (main_arg0 : DevRef τ sig)) (W (main_arg2 : DevRef τ sig)) := by
  after_results_simp
  rfl

theorem opsA_arg1 (W : Valuation τ sig (Elt F)) :
    after opsA W (main_arg1 : DevRef τ sig) = W (main_arg1 : DevRef τ sig) := by
  after_results_simp
theorem opsA_arg3 (W : Valuation τ sig (Elt F)) :
    after opsA W (main_arg3 : DevRef τ sig) = W (main_arg3 : DevRef τ sig) := by
  after_results_simp
theorem opsA_arg4 (W : Valuation τ sig (Elt F)) :
    after opsA W (main_arg4 : DevRef τ sig) = W (main_arg4 : DevRef τ sig) := by
  after_results_simp
theorem opsA_arg5 (W : Valuation τ sig (Elt F)) :
    after opsA W (main_arg5 : DevRef τ sig) = W (main_arg5 : DevRef τ sig) := by
  after_results_simp
theorem opsA_arg6 (W : Valuation τ sig (Elt F)) :
    after opsA W (main_arg6 : DevRef τ sig) = W (main_arg6 : DevRef τ sig) := by
  after_results_simp
theorem opsA_arg7 (W : Valuation τ sig (Elt F)) :
    after opsA W (main_arg7 : DevRef τ sig) = W (main_arg7 : DevRef τ sig) := by
  after_results_simp
theorem opsA_arg8 (W : Valuation τ sig (Elt F)) :
    after opsA W (main_arg8 : DevRef τ sig) = W (main_arg8 : DevRef τ sig) := by
  after_results_simp

theorem opsB_v23 (W : Valuation τ sig (Elt F)) :
    after opsB W (main_v23 : DevRef τ sig)
      = layer dot_S8192x8192_S8192x128_S8192x128_1_0_0_1_n_n dot_S8192x128_S128x64_S8192x64_1_0_0_1_n_n
          (W (main_v17 : DevRef τ sig)) (W (main_arg1 : DevRef τ sig)) (W (main_arg3 : DevRef τ sig)) (W (main_arg4 : DevRef τ sig)) := by
  after_results_simp
  rfl

theorem opsB_v17 (W : Valuation τ sig (Elt F)) :
    after opsB W (main_v17 : DevRef τ sig) = W (main_v17 : DevRef τ sig) := by
  after_results_simp
theorem opsB_arg5 (W : Valuation τ sig (Elt F)) :
    after opsB W (main_arg5 : DevRef τ sig) = W (main_arg5 : DevRef τ sig) := by
  after_results_simp
theorem opsB_arg6 (W : Valuation τ sig (Elt F)) :
    after opsB W (main_arg6 : DevRef τ sig) = W (main_arg6 : DevRef τ sig) := by
  after_results_simp
theorem opsB_arg7 (W : Valuation τ sig (Elt F)) :
    after opsB W (main_arg7 : DevRef τ sig) = W (main_arg7 : DevRef τ sig) := by
  after_results_simp
theorem opsB_arg8 (W : Valuation τ sig (Elt F)) :
    after opsB W (main_arg8 : DevRef τ sig) = W (main_arg8 : DevRef τ sig) := by
  after_results_simp

theorem opsC_v29 (W : Valuation τ sig (Elt F)) :
    after opsC W (main_v29 : DevRef τ sig)
      = layer dot_S8192x8192_S8192x64_S8192x64_1_0_0_1_n_n dot_S8192x64_S64x64_S8192x64_1_0_0_1_n_n
          (W (main_v17 : DevRef τ sig)) (W (main_v23 : DevRef τ sig)) (W (main_arg5 : DevRef τ sig)) (W (main_arg6 : DevRef τ sig)) := by
  after_results_simp
  rfl

theorem opsC_arg7 (W : Valuation τ sig (Elt F)) :
    after opsC W (main_arg7 : DevRef τ sig) = W (main_arg7 : DevRef τ sig) := by
  after_results_simp
theorem opsC_arg8 (W : Valuation τ sig (Elt F)) :
    after opsC W (main_arg8 : DevRef τ sig) = W (main_arg8 : DevRef τ sig) := by
  after_results_simp

theorem opsD_v34 (W : Valuation τ sig (Elt F)) :
    after opsD W (main_v34 : DevRef τ sig)
      = logSoftmax (logits (W (main_v29 : DevRef τ sig)) (W (main_arg7 : DevRef τ sig)) (W (main_arg8 : DevRef τ sig))) := by
  after_results_simp
  rfl

/-! ## The whole line -/

/-- After all 69 operations the result buffer holds `result` of the arguments' contents. -/
theorem after_v34 (V : Valuation τ sig (Elt F)) :
    after ops V (main_v34 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [ops_split, after_app, after_app, after_app, opsD_v34, opsC_v29, opsC_arg7, opsC_arg8, opsB_v23, opsB_v17, opsB_arg5,
    opsB_arg6, opsB_arg7, opsB_arg8, opsA_v17, opsA_arg1, opsA_arg3, opsA_arg4, opsA_arg5, opsA_arg6, opsA_arg7, opsA_arg8]
  rfl

theorem after_arg0 (V : Valuation τ sig (Elt F)) :
    after ops V (main_arg0 : DevRef τ sig) = V (main_arg0 : DevRef τ sig) := by
  after_results_simp
theorem after_arg1 (V : Valuation τ sig (Elt F)) :
    after ops V (main_arg1 : DevRef τ sig) = V (main_arg1 : DevRef τ sig) := by
  after_results_simp
theorem after_arg2 (V : Valuation τ sig (Elt F)) :
    after ops V (main_arg2 : DevRef τ sig) = V (main_arg2 : DevRef τ sig) := by
  after_results_simp
theorem after_arg3 (V : Valuation τ sig (Elt F)) :
    after ops V (main_arg3 : DevRef τ sig) = V (main_arg3 : DevRef τ sig) := by
  after_results_simp
theorem after_arg4 (V : Valuation τ sig (Elt F)) :
    after ops V (main_arg4 : DevRef τ sig) = V (main_arg4 : DevRef τ sig) := by
  after_results_simp
theorem after_arg5 (V : Valuation τ sig (Elt F)) :
    after ops V (main_arg5 : DevRef τ sig) = V (main_arg5 : DevRef τ sig) := by
  after_results_simp
theorem after_arg6 (V : Valuation τ sig (Elt F)) :
    after ops V (main_arg6 : DevRef τ sig) = V (main_arg6 : DevRef τ sig) := by
  after_results_simp
theorem after_arg7 (V : Valuation τ sig (Elt F)) :
    after ops V (main_arg7 : DevRef τ sig) = V (main_arg7 : DevRef τ sig) := by
  after_results_simp
theorem after_arg8 (V : Valuation τ sig (Elt F)) :
    after ops V (main_arg8 : DevRef τ sig) = V (main_arg8 : DevRef τ sig) := by
  after_results_simp

/-- From any memory whose counters are zero, on every device and at any float instance, @main always
    terminates; at the end the result buffer holds `result` of what the nine argument buffers held at
    launch, and those nine buffers hold what they held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v34).trans (after_v34 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _)⟩)
    (run_seq scopedRefs_eq scopedSems_eq defs main (fun _ => ops) main_eq (fun _ => ops_sub) m ρ)

end Cert.ReferenceIdeal.Hand

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.Ref.Read.lean ====
/- The reference's stages read at an entry, over the extended reals: sums over the contracted axes,
   entries by their coordinates, the rectifier as a choice on the sign test, division and root as the
   extended reals' own. -/
import proofs.«180336_j68848325755002_1_alg».proof.Proof.Ref.Run
import proofs.«180336_j68848325755002_1_alg».proof.Proof.KI.Pay2
import proofs.«180336_j68848325755002_1_alg».proof.Proof.LibPlainDot
import proofs.«180336_j68848325755002_1_alg».proof.Proof.LibRowBcast
import proofs.«180336_j68848325755002_1_alg».proof.Proof.LibJoinedRows
import proofs.«180336_j68848325755002_1_alg».proof.Proof.LibRowMax
import proofs.«180336_j68848325755002_1_alg».proof.Proof.LibGatherRows
import Idealize.ShloMosaic.Lib.ValueIdx
import Idealize.ShloMosaic.PureOps.Ideal.Laws
import Idealize.ShloMosaic.PureOps.Reduce

noncomputable section

open scoped BigOperators

namespace Cert.ReferenceIdeal.Hand

open Cert.ReferenceIdeal Cert.ReferenceIdeal.Gen Idealize.ShloMosaic Idealize.ShloMosaic.ValueIdx

/-! ## The layers -/

/-- The leaky rectifier at an entry: the entry where it is at least zero, the slope times it elsewhere. -/
theorem leaky_apply (x : FVec Ideal S8192x64 .f32) (j : S8192x64.Idx) :
    leaky (F := Ideal) x j = Scalar.select (Ideal.cmp .oge (x j) 0) (x j) (Ideal.ofBits .f32 0x3C23D70A#32 * x j) := by
  unfold leaky
  rw [select_apply, cmpf_apply, mulf_apply, Cert.LibJoinedRows.bcast_scalar_apply, Cert.LibJoinedRows.bcast_scalar_apply,
    constant_apply, constant_apply, Ideal.ofBits_zero_f32, Ideal.cmpf_def]

/-- The bias repeated down the rows reads the bias's entry of that column. -/
theorem biasRows64_apply (b : FVec Ideal S64 .f32) (r : Fin 8192) (o : Fin 64) :
    biasRows64 (F := Ideal) b (ix2 r o) = b (ix1 o) :=
  Cert.LibRowBcast.bcast_vec_rows_apply _ _ b r o

/-- One layer at an entry, for any feature width and any pair of plain contractions. -/
theorem layer_apply {Fw : Nat} (dA : DotDims S8192x8192 ⟨2, ![8192, Fw]⟩ ⟨2, ![8192, Fw]⟩) (dW : DotDims ⟨2, ![8192, Fw]⟩ ⟨2, ![Fw, 64]⟩ S8192x64)
    (hA : Cert.LibPlainDot.Plain dA) (hW : Cert.LibPlainDot.Plain dW)
    (w : FVec Ideal S8192x8192 .f32) (h : FVec Ideal ⟨2, ![8192, Fw]⟩ .f32) (wl : FVec Ideal ⟨2, ![Fw, 64]⟩ .f32) (bl : FVec Ideal S64 .f32)
    (r : Fin 8192) (o : Fin 64) :
    layer (F := Ideal) dA dW w h wl bl (ix2 r o)
      = Scalar.select (Ideal.cmp .oge ((∑ f : Fin Fw, (∑ s : Fin 8192, w (ix2 r s) * h (ix2 s f)) * wl (ix2 f o)) + bl (ix1 o)) 0)
          ((∑ f : Fin Fw, (∑ s : Fin 8192, w (ix2 r s) * h (ix2 s f)) * wl (ix2 f o)) + bl (ix1 o))
          (Ideal.ofBits .f32 0x3C23D70A#32 * ((∑ f : Fin Fw, (∑ s : Fin 8192, w (ix2 r s) * h (ix2 s f)) * wl (ix2 f o)) + bl (ix1 o))) := by
  have hlin : (addf (Host.dotGeneral (F := Ideal) dW none (Host.dotGeneral (F := Ideal) dA none w h) wl) (biasRows64 (F := Ideal) bl)
        : FVec Ideal S8192x64 .f32) (ix2 r o)
      = (∑ f : Fin Fw, (∑ s : Fin 8192, w (ix2 r s) * h (ix2 s f)) * wl (ix2 f o)) + bl (ix1 o) :=
    (addf_apply _ _ _).trans (congrArg₂ (· + ·)
      ((hW.dotGeneral_apply none .single _ wl r o).trans
        (Finset.sum_congr rfl fun f _ => congrArg (· * wl (ix2 f o)) (hA.dotGeneral_apply none .single w h r f)))
      (biasRows64_apply bl r o))
  unfold layer
  rw [leaky_apply, hlin]

theorem plain_A128 : Cert.LibPlainDot.Plain dot_S8192x8192_S8192x128_S8192x128_1_0_0_1_n_n := ⟨rfl, rfl, rfl, rfl, rfl, rfl⟩
theorem plain_W128 : Cert.LibPlainDot.Plain dot_S8192x128_S128x64_S8192x64_1_0_0_1_n_n := ⟨rfl, rfl, rfl, rfl, rfl, rfl⟩
theorem plain_A64 : Cert.LibPlainDot.Plain dot_S8192x8192_S8192x64_S8192x64_1_0_0_1_n_n := ⟨rfl, rfl, rfl, rfl, rfl, rfl⟩
theorem plain_W64 : Cert.LibPlainDot.Plain dot_S8192x64_S64x64_S8192x64_1_0_0_1_n_n := ⟨rfl, rfl, rfl, rfl, rfl, rfl⟩
theorem plain_cls : Cert.LibPlainDot.Plain dot_S8192x64_S64x16_S8192x16_1_0_0_1_n_n := ⟨rfl, rfl, rfl, rfl, rfl, rfl⟩

/-- The first layer (feature width 128) at an entry. -/
theorem layer_apply128 (w : FVec Ideal S8192x8192 .f32) (h : FVec Ideal S8192x128 .f32) (wl : FVec Ideal S128x64 .f32) (bl : FVec Ideal S64 .f32)
    (r : Fin 8192) (o : Fin 64) :
    layer (F := Ideal) dot_S8192x8192_S8192x128_S8192x128_1_0_0_1_n_n dot_S8192x128_S128x64_S8192x64_1_0_0_1_n_n w h wl bl (ix2 r o)
      = (let lin := (∑ f : Fin 128, (∑ s : Fin 8192, w (ix2 r s) * h (ix2 s f)) * wl (ix2 f o)) + bl (ix1 o)
         Scalar.select (Ideal.cmp .oge lin 0) lin (Ideal.ofBits .f32 0x3C23D70A#32 * lin)) :=
  layer_apply _ _ plain_A128 plain_W128 w h wl bl r o

/-- The second layer (feature width 64) at an entry. -/
theorem layer_apply64 (w : FVec Ideal S8192x8192 .f32) (h : FVec Ideal S8192x64 .f32) (wl : FVec Ideal S64x64 .f32) (bl : FVec Ideal S64 .f32)
    (r : Fin 8192) (o : Fin 64) :
    layer (F := Ideal) dot_S8192x8192_S8192x64_S8192x64_1_0_0_1_n_n dot_S8192x64_S64x64_S8192x64_1_0_0_1_n_n w h wl bl (ix2 r o)
      = (let lin := (∑ f : Fin 64, (∑ s : Fin 8192, w (ix2 r s) * h (ix2 s f)) * wl (ix2 f o)) + bl (ix1 o)
         Scalar.select (Ideal.cmp .oge lin 0) lin (Ideal.ofBits .f32 0x3C23D70A#32 * lin)) :=
  layer_apply _ _ plain_A64 plain_W64 w h wl bl r o

/-! ## The normalized adjacency -/

/-- The host's quotient and root at an entry are the extended reals' own. -/
theorem hostDivf_apply {s : Shape} (x y : FVec Ideal s .f32) (j : s.Idx) : Host.divf x y j = Ideal.div (x j) (y j) := rfl
theorem hostSqrt_apply {s : Shape} (x : FVec Ideal s .f32) (j : s.Idx) : Host.sqrt x j = Ideal.sqrt (x j) := rfl
theorem hostExp_apply {s : Shape} (x : FVec Ideal s .f32) (j : s.Idx) : Host.exp x j = Ideal.exp (x j) := rfl
theorem hostLog_apply {s : Shape} (x : FVec Ideal s .f32) (j : s.Idx) : Host.log x j = Ideal.log (x j) := rfl

/-- The outer product at an entry. -/
theorem outer_apply (u v : FVec Ideal S8192 .f32) (i s : Fin 8192) :
    outer (F := Ideal) u v (ix2 i s) = u (ix1 i) * v (ix1 s) :=
  (mulf_apply _ _ _).trans (congrArg₂ (· * ·)
    ((Cert.LibJoinedRows.bcast_col_rows_apply _ _ i s).trans (Cert.LibJoinedRows.bcast_vec_col_apply _ u i 0))
    (Cert.LibRowBcast.bcast_vec_rows_apply _ _ v i s))

/-- The normalized adjacency at an entry: the adjacency's entry over the root of the product of the
    gathered degree of its row and the degree of its column. -/
theorem normAdj_apply (d a : FVec Ideal S8192x8192 .f32) (i s : Fin 8192) :
    normAdj (F := Ideal) d a (ix2 i s)
      = Ideal.div (a (ix2 i s)) (Ideal.sqrt (degFirst (F := Ideal) (deg (F := Ideal) d) (firstIdx (F := Ideal) a) (ix1 i) * deg (F := Ideal) d (ix1 s))) := by
  unfold normAdj
  rw [hostDivf_apply, hostSqrt_apply, outer_apply]

/-- A gathered degree is some entry of the degree vector: the entry at the row number read signed
    and clamped into the vector. -/
theorem degFirst_mem (dg : FVec Ideal S8192 .f32) (k : IVec S8192 32) (i : Fin 8192) :
    ∃ j : Fin 8192, degFirst (F := Ideal) dg k (ix1 i) = dg (ix1 j) :=
  ⟨_, Cert.LibGatherRows.host_gather_vec_apply gather_S8192_S8192x1_S8192_n_0_n_n_0_1_1_wf (by decide)
    gather_S8192_S8192x1_S8192_n_0_n_n_0_1_1 rfl dg _ i⟩

/-! ## The classifier and the log-softmax -/

/-- The classifier's affine map at an entry. -/
theorem logits_apply (h : FVec Ideal S8192x64 .f32) (w3 : FVec Ideal S64x16 .f32) (b3 : FVec Ideal S16 .f32) (r : Fin 8192) (k : Fin 16) :
    logits (F := Ideal) h w3 b3 (ix2 r k) = (∑ f : Fin 64, h (ix2 r f) * w3 (ix2 f k)) + b3 (ix1 k) :=
  (addf_apply _ _ _).trans (congrArg₂ (· + ·) (plain_cls.dotGeneral_apply none .single h w3 r k)
    (Cert.LibRowBcast.bcast_vec_rows_apply _ _ b3 r k))

theorem reduces_cls : S8192x16.Reduces [1] S8192 := by decide

/-- The coordinate inserted along the classes. -/
theorem lift_cls (r : Fin 8192) (k : Fin 16) : reduces_cls.lift (ix1 r) k = ix2 r k :=
  funext fun ax => Fin.ext (by
    match ax with
    | ⟨0, _⟩ => rfl
    | ⟨1, _⟩ => rfl)

/-- The row maximum: the larger of -∞ and the supremum of the row. -/
theorem rowMax_apply (x : FVec Ideal S8192x16 .f32) (r : Fin 8192) :
    rowMax (F := Ideal) x (ix1 r) = max ⊥ (Finset.univ.sup fun k : Fin 16 => x (ix2 r k)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  unfold rowMax
  rw [maximumf_apply, Cert.LibJoinedRows.bcast_scalar_apply, constant_apply, Cert.LibRowMax.ofBits_neg_inf_f32,
    Host.reduce_eq_fold_single FloatOps.maximumf x _ reducesTo_S8192x16_S8192_d1 reduces_cls h_S_ (ix1 r), constant_apply,
    Cert.LibRowMax.ofBits_neg_inf_f32]
  have hf : (x ∘ reduces_cls.lift (ix1 r)) = fun k : Fin 16 => x (ix2 r k) := funext fun k => congrArg x (lift_cls r k)
  rw [hf]
  rfl

/-- The sum along the classes of the exponentials, from zero. -/
theorem sumExp_apply (s : FVec Ideal S8192x16 .f32) (r : Fin 8192) :
    (Host.reduceAdd (F := Ideal) (Host.exp (F := Ideal) s) (constant (F := Ideal) S_ .f32 0x00000000#32)
        reducesTo_S8192x16_S8192_d1 h_S_ : FVec Ideal S8192 .f32) (ix1 r)
      = ∑ k : Fin 16, Ideal.exp (s (ix2 r k)) := by
  unfold Host.reduceAdd
  rw [Ideal.hostReduceAdd_def, Ideal.hostReduceAdd_single reducesTo_S8192x16_S8192_d1 reduces_cls, constant_apply,
    Ideal.ofBits_zero_f32, zero_add]
  exact Finset.sum_congr rfl fun k _ => (hostExp_apply s _).trans (congrArg (fun j => Ideal.exp (s j)) (lift_cls r k))

/-- A column repeated across the classes reads the column's entry of that row. -/
theorem acrossClasses_apply (v : FVec Ideal S8192x1 .f32) (r : Fin 8192) (o : Fin 16) :
    acrossClasses (F := Ideal) v (ix2 r o) = v (ix2 r (0 : Fin 1)) :=
  Cert.LibJoinedRows.bcast_col_rows_apply _ v r o

/-- The shifted logits at an entry. -/
theorem shifted_apply (x : FVec Ideal S8192x16 .f32) (r : Fin 8192) (o : Fin 16) :
    shifted (F := Ideal) x (ix2 r o) = x (ix2 r o) - max ⊥ (Finset.univ.sup fun k : Fin 16 => x (ix2 r k)) := by
  unfold shifted
  rw [subf_apply, acrossClasses_apply, Cert.LibJoinedRows.bcast_vec_col_apply, rowMax_apply]

/-- The logarithm of the row's sum of exponentials at an entry. -/
theorem logSumExp_apply (s : FVec Ideal S8192x16 .f32) (r : Fin 8192) (o : Fin 16) :
    logSumExp (F := Ideal) s (ix2 r o) = Ideal.log (∑ k : Fin 16, Ideal.exp (s (ix2 r k))) := by
  unfold logSumExp
  rw [acrossClasses_apply, hostLog_apply, Cert.LibJoinedRows.bcast_vec_col_apply, sumExp_apply]

/-- The log-softmax at an entry is the log-softmax of its row. -/
theorem logSoftmax_apply (x : FVec Ideal S8192x16 .f32) (r : Fin 8192) (o : Fin 16) :
    logSoftmax (F := Ideal) x (ix2 r o) = Cert.KernelIdeal.Hand.logSoftmaxRow (fun k : Fin 16 => x (ix2 r k)) o := by
  unfold logSoftmax Cert.KernelIdeal.Hand.logSoftmaxRow
  rw [subf_apply, logSumExp_apply, shifted_apply]
  simp only [shifted_apply]

/-- The classifier followed by the log-softmax, at an entry: the log-softmax of the row of the affine map. -/
theorem logits_softmax_apply (h : FVec Ideal S8192x64 .f32) (w3 : FVec Ideal S64x16 .f32) (b3 : FVec Ideal S16 .f32) (r : Fin 8192) (o : Fin 16) :
    logSoftmax (F := Ideal) (logits (F := Ideal) h w3 b3) (ix2 r o)
      = Cert.KernelIdeal.Hand.logSoftmaxRow (fun k : Fin 16 => (∑ f : Fin 64, h (ix2 r f) * w3 (ix2 f k)) + b3 (ix1 k)) o :=
  (logSoftmax_apply _ r o).trans (congrArg (fun x => Cert.KernelIdeal.Hand.logSoftmaxRow x o) (funext fun k => logits_apply h w3 b3 r k))

end Cert.ReferenceIdeal.Hand

end
-- ==== Proof.PreDomain.lean ====
/-
  What the precondition says about the degree matrix.

  The precondition's last conjunct compares the row maxima of the first argument (each row's maximum, taken from −∞)
  with zero: either every row maximum is positive, or every row maximum is negative.  This module reads that
  disjunction off the printed predicate: the predicate being one at its single index makes the last `and`'s second
  operand one, that operand is an `or` of two "all" reductions, and an "all" reduction that is one has a one at every
  index, where the comparison of the row maximum with the zero word says `0 < max` (respectively `max < 0`).
-/
import proofs.«180336_j68848325755002_1_alg».proof.Pre_finite_inputs
import proofs.«180336_j68848325755002_1_alg».proof.Proof.LibJoinedRows
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Domain

open Idealize.ShloMosaic Idealize.ShloMosaic.ValueIdx Cert.Pre_finite_inputs

variable [Facts]
open Facts

instance : Subsingleton S_.Idx := ⟨fun _ _ => funext fun d => d.elim0⟩

/-- A strict "greater" comparison of extended reals is one exactly when the second is below the first. -/
theorem cmp_ogt_eq_one {x y : EReal} : Ideal.cmp .ogt x y = 1#1 ↔ y < x := by
  unfold Ideal.cmp; by_cases h : y < x <;> simp [h]

/-- A strict "less" comparison of extended reals is one exactly when the first is below the second. -/
theorem cmp_olt_eq_one {x y : EReal} : Ideal.cmp .olt x y = 1#1 ↔ x < y := by
  unfold Ideal.cmp; by_cases h : x < y <;> simp [h]

/-- The row maxima of a square array, each taken from −∞. -/
def rowMax (d : FVec Ideal S8192x8192 .f32) : FVec Ideal S8192 .f32 :=
  Host.reduce FloatOps.maximumf d (constant (F := Ideal) S_ .f32 0xFF800000#32) reducesTo_S8192x8192_S8192_d1 h_S_

/-- Under the precondition the row maxima of the first argument are all positive or all negative. -/
theorem one_sign (a0 : FVec Ideal S8192x8192 .f32) (a1 : FVec Ideal S8192x128 .f32) (a2 : FVec Ideal S8192x8192 .f32)
    (a3 : FVec Ideal S128x64 .f32) (a4 : FVec Ideal S64 .f32) (a5 : FVec Ideal S64x64 .f32) (a6 : FVec Ideal S64 .f32)
    (a7 : FVec Ideal S64x16 .f32) (a8 : FVec Ideal S16 .f32)
    (h : fn (F := Ideal) a0 a1 a2 a3 a4 a5 a6 a7 a8 = fun _ => 1#1) :
    (∀ j, 0 < rowMax a0 j) ∨ (∀ j, rowMax a0 j < 0) := by
  have h0 := congrFun h ix0
  dsimp only [fn, fn_part1, fn_part2, fn_part3] at h0
  obtain ⟨-, h52⟩ := IntOp.andi_eq_one.mp h0
  have hz : ∀ j : S8192.Idx, broadcastInDim S8192 ![] bcast_S_S8192 (constant (F := Ideal) S_ .f32 0x00000000#32) j = 0 :=
    fun j => (Cert.LibJoinedRows.bcast_scalar_apply bcast_S_S8192 _ j).trans (by rw [constant_apply]; exact Ideal.ofBits_zero_f32)
  rcases IntOp.ori_eq_one.mp h52 with hp | hn
  · left; intro j
    have hj := Host.reduce_andi_all _ _ _ _ ix0 hp j
    rw [cmpf_apply, Ideal.cmpf_def, cmp_ogt_eq_one, hz] at hj
    exact hj
  · right; intro j
    have hj := Host.reduce_andi_all _ _ _ _ ix0 hn j
    rw [cmpf_apply, Ideal.cmpf_def, cmp_olt_eq_one, hz] at hj
    exact hj

end Cert.Pre_finite_inputs.Domain

end
-- ==== Proof.LibRsqrtDivide.lean ====
/-
  Three small facts about floats read as exact extended reals, each generic (no program is imported).

  * Multiplying by a reciprocal square root is dividing by the square root wherever the radicand is positive:
    `a · rsqrt x = a / √x` for every extended real `a` and every `x > 0`, the top element included
    (at `x = ⊤` both sides are `a · 0`; at a positive real `r` both are `a · (√r)⁻¹`, the divisor `√r` being nonzero).
    At `x = 0` and at `x < 0` the two sides differ (`0 · ⊤ = 0` against `0 / 0 = ⊥`; `a · ⊥` against `a / ⊥ = 0`),
    so positivity of the radicand is exactly what the law needs.
  * A family of extended reals all of one strict sign has every pairwise product positive, and conversely a
    family whose products `d (f i) · d j` are all positive is of one strict sign: "all positive or all negative"
    is the weakest condition on the family that keeps every such product positive.
  * The two spellings of a leaky rectifier, `x` where `0 < x` and `c · x` elsewhere against `x` where `0 ≤ x`
    and `c · x` elsewhere, are one function: they differ only at `x = 0`, where `c · 0 = 0`.
-/
import Idealize.ShloMosaic.PureOps.Ideal

noncomputable section

namespace Cert.Lib.RsqrtDivide

open Idealize.ShloMosaic

/-- `a · rsqrt x = a / √x` on the extended reals for every `a` and every positive `x` (`⊤` included). -/
theorem mul_rsqrt_eq_div_sqrt (a x : EReal) (hx : 0 < x) :
    a * Ideal.rsqrt x = Ideal.div a (Ideal.sqrt x) := by
  induction x using EReal.rec with
  | bot => exact absurd hx (by simp)
  | top => simp [Ideal.div, EReal.top_ne_zero, EReal.inv_top]
  | coe r =>
    have hr : 0 < r := by exact_mod_cast hx
    have hs : Real.sqrt r ≠ 0 := (Real.sqrt_pos.mpr hr).ne'
    have hs' : ((Real.sqrt r : ℝ) : EReal) ≠ 0 := by exact_mod_cast hs
    rw [Ideal.rsqrt_coe, Ideal.sqrt_coe, if_neg (not_lt.mpr hr.le), if_neg hr.ne', if_neg (not_lt.mpr hr.le),
      Ideal.div, if_neg hs', EReal.coe_inv]

/-- In a family of one strict sign every product of two members is positive. -/
theorem mul_pos_of_same_sign {ι : Type*} (d : ι → EReal) (h : (∀ j, 0 < d j) ∨ (∀ j, d j < 0)) (i j : ι) :
    0 < d i * d j :=
  EReal.mul_pos_iff.mpr (h.elim (fun hp => .inl ⟨hp i, hp j⟩) (fun hn => .inr ⟨hn i, hn j⟩))

/-- Conversely: if every product `d (f i) · d j` is positive (`f` any re-indexing, as a gather is), the family is
    of one strict sign. -/
theorem same_sign_of_mul_pos {ι : Type*} [Nonempty ι] (d : ι → EReal) (f : ι → ι)
    (h : ∀ i j, 0 < d (f i) * d j) : (∀ j, 0 < d j) ∨ (∀ j, d j < 0) := by
  obtain ⟨i0⟩ := ‹Nonempty ι›
  rcases EReal.mul_pos_iff.mp (h i0 i0) with ⟨h0, _⟩ | ⟨h0, _⟩
  · left; intro j
    rcases EReal.mul_pos_iff.mp (h i0 j) with ⟨_, hj⟩ | ⟨hneg, _⟩
    · exact hj
    · exact absurd h0 (not_lt.mpr hneg.le)
  · right; intro j
    rcases EReal.mul_pos_iff.mp (h i0 j) with ⟨hpos, _⟩ | ⟨_, hj⟩
    · exact absurd h0 (not_lt.mpr hpos.le)
    · exact hj

/-- The strict and the weak spelling of a leaky rectifier agree: at `x = 0` the other branch is `c · 0 = 0`. -/
theorem leaky_gt_eq_ge (c x : EReal) :
    (if 0 < x then x else c * x) = (if 0 ≤ x then x else c * x) := by
  rcases lt_trichotomy 0 x with h | h | h
  · rw [if_pos h, if_pos h.le]
  · subst h; simp
  · rw [if_neg (not_lt.mpr h.le), if_neg (not_le.mpr h)]

end Cert.Lib.RsqrtDivide

end
-- ==== Proof.ConvBridge.lean ====
/-
  The two spellings of the graph-convolution layer are one function where every radicand is positive.

  The layer is written over an arbitrary normalised weight `wt i s` and an arbitrary rectifier; the kernel's weight is
  `a (i, s) · rsqrt (dF i · dG s)` and the reference's is `a (i, s) / √(dF i · dG s)`, which agree wherever
  `0 < dF i · dG s`; the kernel's rectifier tests `0 < x` and the reference's `0 ≤ x`, which agree everywhere because the
  other branch at `x = 0` is `c · 0 = 0`.
-/
import proofs.«180336_j68848325755002_1_alg».proof.Proof.ConvSpec
import proofs.«180336_j68848325755002_1_alg».proof.Proof.LibRsqrtDivide

noncomputable section

namespace Cert.ConvSpec

open Idealize.ShloMosaic Idealize.ShloMosaic.ValueIdx

/-- The leaky rectifier in the weak spelling. -/
def leakyGe (c x : EReal) : EReal := Scalar.select (Ideal.cmp .oge x 0) x (c * x)

/-- The strict and the weak spelling agree. -/
theorem leakyGt_eq_leakyGe (c x : EReal) : leakyGt c x = leakyGe c x := by
  unfold leakyGt leakyGe Scalar.select Ideal.cmp
  rcases lt_trichotomy 0 x with h | h | h
  · simp [h, h.le]
  · subst h; simp
  · simp [not_lt.mpr h.le, not_le.mpr h]

variable {N Fw O : ℕ}

/-- The aggregation over an arbitrary normalised weight. -/
def aggW (wt : ℕ → ℕ → EReal) (h : (⟨2, ![N, Fw]⟩ : Shape).Idx → EReal) (i f : ℕ) : EReal :=
  ∑ s : Fin (8 * 1024), wt i s.val * at2 h s.val f

/-- The layer's output entry over an arbitrary weight and rectifier. -/
def convOutW (leak : EReal → EReal) (wt : ℕ → ℕ → EReal) (h : (⟨2, ![N, Fw]⟩ : Shape).Idx → EReal)
    (w : (⟨2, ![Fw, O]⟩ : Shape).Idx → EReal) (b : (⟨2, ![1, O]⟩ : Shape).Idx → EReal) (i o : ℕ) : EReal :=
  leak ((∑ f : Fin Fw, aggW wt h i f.val * at2 w f.val o) + at2 b 0 o)

/-- The kernel's weight. -/
def wtRsqrt (a : (⟨2, ![N, N]⟩ : Shape).Idx → EReal) (col : (⟨2, ![N, 1]⟩ : Shape).Idx → EReal) (row : (⟨2, ![1, N]⟩ : Shape).Idx → EReal)
    (i s : ℕ) : EReal := at2 a i s * Ideal.rsqrt (at2 col i 0 * at2 row 0 s)

/-- The reference's weight. -/
def wtDiv (a : (⟨2, ![N, N]⟩ : Shape).Idx → EReal) (col : (⟨2, ![N, 1]⟩ : Shape).Idx → EReal) (row : (⟨2, ![1, N]⟩ : Shape).Idx → EReal)
    (i s : ℕ) : EReal := Ideal.div (at2 a i s) (Ideal.sqrt (at2 col i 0 * at2 row 0 s))

/-- The layer of ConvSpec is the weight-parameterised layer at the kernel's weight and rectifier. -/
theorem convOut_eq_convOutW (a : (⟨2, ![N, N]⟩ : Shape).Idx → EReal) (col : (⟨2, ![N, 1]⟩ : Shape).Idx → EReal)
    (row : (⟨2, ![1, N]⟩ : Shape).Idx → EReal) (h : (⟨2, ![N, Fw]⟩ : Shape).Idx → EReal)
    (w : (⟨2, ![Fw, O]⟩ : Shape).Idx → EReal) (b : (⟨2, ![1, O]⟩ : Shape).Idx → EReal) (slope : EReal) (i o : ℕ) :
    convOut a col row h w b slope i o = convOutW (leakyGt slope) (wtRsqrt a col row) h w b i o := rfl

/-- Where every radicand is positive the kernel's and the reference's weights agree. -/
theorem wtRsqrt_eq_wtDiv (a : (⟨2, ![N, N]⟩ : Shape).Idx → EReal) (col : (⟨2, ![N, 1]⟩ : Shape).Idx → EReal)
    (row : (⟨2, ![1, N]⟩ : Shape).Idx → EReal) (hpos : ∀ i s : ℕ, i < N → s < N → 0 < at2 col i 0 * at2 row 0 s)
    (i s : ℕ) (hi : i < N) (hs : s < N) : wtRsqrt a col row i s = wtDiv a col row i s :=
  Cert.Lib.RsqrtDivide.mul_rsqrt_eq_div_sqrt _ _ (hpos i s hi hs)

/-- Two weight-parameterised layers with weights that agree on the array's columns, the same arrays and rectifiers that
    agree, are equal (here `N = 8 · 1024`: every summed column is inside the array). -/
theorem convOutW_congr (leak leak' : EReal → EReal) (hl : ∀ x, leak x = leak' x) (wt wt' : ℕ → ℕ → EReal)
    (h : (⟨2, ![N, Fw]⟩ : Shape).Idx → EReal) (w : (⟨2, ![Fw, O]⟩ : Shape).Idx → EReal) (b : (⟨2, ![1, O]⟩ : Shape).Idx → EReal)
    (i o : ℕ) (hw : ∀ s : ℕ, s < 8 * 1024 → wt i s = wt' i s) :
    convOutW leak wt h w b i o = convOutW leak' wt' h w b i o := by
  unfold convOutW aggW
  rw [hl]
  refine congrArg leak' (congrArg (· + _) (Finset.sum_congr rfl fun f _ => congrArg (· * _) (Finset.sum_congr rfl fun s _ => ?_)))
  rw [hw s.val s.isLt]

end Cert.ConvSpec

end
-- ==== Proof.LayerBridge.lean ====
/-
  One graph-convolution layer, kernel spelling against reference spelling, entry by entry.

  The kernel's closed form reads its arrays through the natural-number accessor, multiplies by the reciprocal square root of
  the product of a row degree and a column degree, sums over `8 · 1024` columns, and rectifies with the strict test.  The
  reference divides by the square root of that product, sums over the 8192 columns, and rectifies with the weak test.  Given
  that the kernel's degree column and row and its bias row read the same numbers as the reference's vectors, and that every
  product of a row degree and a column degree is positive, the two are equal.
-/
import proofs.«180336_j68848325755002_1_alg».proof.Proof.ConvBridge

noncomputable section

namespace Cert.ConvSpec

open Idealize.ShloMosaic Idealize.ShloMosaic.ValueIdx

/-- The reference's spelling of a layer's entry: `lin` where `0 ≤ lin`, `slope · lin` elsewhere, with
    `lin = Σ_f (Σ_s wn (r, s) · h (s, f)) · w (f, o) + bl o`. -/
def refLayerAt {Fw O : ℕ} (slope : EReal) (wn : (⟨2, ![8192, 8192]⟩ : Shape).Idx → EReal) (h : (⟨2, ![8192, Fw]⟩ : Shape).Idx → EReal)
    (w : (⟨2, ![Fw, O]⟩ : Shape).Idx → EReal) (bl : (⟨1, ![O]⟩ : Shape).Idx → EReal) (r : Fin 8192) (o : Fin O) : EReal :=
  leakyGe slope ((∑ f : Fin Fw, (∑ s : Fin 8192, wn (ix2 r s) * h (ix2 s f)) * w (ix2 f o)) + bl (ix1 o))

theorem layer_eq {Fw O : ℕ} (slope : EReal) (a : (⟨2, ![8192, 8192]⟩ : Shape).Idx → EReal) (col : (⟨2, ![8192, 1]⟩ : Shape).Idx → EReal)
    (row : (⟨2, ![1, 8192]⟩ : Shape).Idx → EReal) (dF dG : (⟨1, ![8192]⟩ : Shape).Idx → EReal)
    (hcol : ∀ i : Fin 8192, col (ix2 i (0 : Fin 1)) = dF (ix1 i)) (hrow : ∀ s : Fin 8192, row (ix2 (0 : Fin 1) s) = dG (ix1 s))
    (hpos : ∀ i s : Fin 8192, 0 < dF (ix1 i) * dG (ix1 s))
    (h : (⟨2, ![8192, Fw]⟩ : Shape).Idx → EReal) (w : (⟨2, ![Fw, O]⟩ : Shape).Idx → EReal) (b : (⟨2, ![1, O]⟩ : Shape).Idx → EReal)
    (bl : (⟨1, ![O]⟩ : Shape).Idx → EReal) (hb : ∀ o : Fin O, b (ix2 (0 : Fin 1) o) = bl (ix1 o))
    (wn : (⟨2, ![8192, 8192]⟩ : Shape).Idx → EReal)
    (hwn : ∀ i s : Fin 8192, wn (ix2 i s) = Ideal.div (a (ix2 i s)) (Ideal.sqrt (dF (ix1 i) * dG (ix1 s))))
    (r : Fin 8192) (o : Fin O) :
    convOut a col row h w b slope r.val o.val = refLayerAt slope wn h w bl r o := by
  unfold convOut refLayerAt
  rw [leakyGt_eq_leakyGe]
  refine congrArg (leakyGe slope) ?_
  have hbias : at2 b 0 o.val = bl (ix1 o) := by
    rw [← hb o]; exact (at2_ix2 b (0 : Fin 1) o).symm
  rw [hbias]
  refine congrArg (· + _) (Finset.sum_congr rfl fun f _ => ?_)
  have hw : at2 w f.val o.val = w (ix2 f o) := (at2_ix2 w f o).symm
  rw [hw]
  refine congrArg (· * _) ?_
  unfold agg
  show ∑ s : Fin 8192, wTerm a col row h r.val f.val s.val = _
  refine Finset.sum_congr rfl fun s _ => ?_
  unfold wTerm
  have ha : at2 a r.val s.val = a (ix2 r s) := (at2_ix2 a r s).symm
  have hc : at2 col r.val 0 = dF (ix1 r) := by rw [← hcol r]; exact (at2_ix2 col r (0 : Fin 1)).symm
  have hr : at2 row 0 s.val = dG (ix1 s) := by rw [← hrow s]; exact (at2_ix2 row (0 : Fin 1) s).symm
  have hh : at2 h s.val f.val = h (ix2 s f) := (at2_ix2 h s f).symm
  rw [ha, hc, hr, hh, hwn, Cert.Lib.RsqrtDivide.mul_rsqrt_eq_div_sqrt _ _ (hpos r s)]

end Cert.ConvSpec

end
-- ==== Proof.Bridge.lean ====
/-
  The kernel's result and the reference's result are one function of the nine argument arrays, under the precondition.

  Both compute the row degrees `deg` (row maxima of the degree matrix), gather the degree of each row's first neighbour
  `degFirst`, normalise the adjacency, apply two graph-convolution layers and a classifier with a log-softmax.  They differ in
  the normalisation only: the kernel multiplies an adjacency entry by the reciprocal square root of `degFirst i · deg s`, the
  reference divides it by the square root.  The precondition makes every row degree of one strict sign; a gathered degree is
  one of the row degrees; so every such product is positive and the two normalisations agree.  The rest is layout: the
  kernel reads the degrees through a column and a row array and each bias through a one-row array, the reference through
  the vectors themselves, and the kernel's sum over 8 tiles of 1024 columns is the reference's sum over 8192 columns.
-/
import proofs.«180336_j68848325755002_1_alg».proof.Proof.KI.KernelValue
import proofs.«180336_j68848325755002_1_alg».proof.Proof.Ref.Read
import proofs.«180336_j68848325755002_1_alg».proof.Proof.PreDomain
import proofs.«180336_j68848325755002_1_alg».proof.Proof.Gen.Pre_finite_inputs
import proofs.«180336_j68848325755002_1_alg».proof.Proof.LayerBridge
import proofs.«180336_j68848325755002_1_alg».proof.Proof.LibKeepdims
import proofs.«180336_j68848325755002_1_alg».proof.Proof.LibRowLayout
import proofs.«180336_j68848325755002_1_alg».proof.Proof.LibRsqrtDivide

noncomputable section

namespace Cert.Proof.Bridge

open Idealize.ShloMosaic Idealize.ShloMosaic.ValueIdx Cert.ConvSpec
open Cert.KernelIdeal.Hand (kernelResult colK rowK G0 G1 G2 clsArr logSoftmaxRow slope G2_ix2)

theorem kernel_eq_reference
    (a0 : FVec Ideal Cert.KernelIdeal.S8192x8192 .f32) (a1 : FVec Ideal Cert.KernelIdeal.S8192x128 .f32)
    (a2 : FVec Ideal Cert.KernelIdeal.S8192x8192 .f32) (a3 : FVec Ideal Cert.KernelIdeal.S128x64 .f32)
    (a4 : FVec Ideal Cert.KernelIdeal.S64 .f32) (a5 : FVec Ideal Cert.KernelIdeal.S64x64 .f32)
    (a6 : FVec Ideal Cert.KernelIdeal.S64 .f32) (a7 : FVec Ideal Cert.KernelIdeal.S64x16 .f32)
    (a8 : FVec Ideal Cert.KernelIdeal.S16 .f32)
    (hpre : Cert.Pre_finite_inputs.fn (F := Ideal) a0 a1 a2 a3 a4 a5 a6 a7 a8 = fun _ => 1#1) :
    kernelResult a0 a1 a2 a3 a4 a5 a6 a7 a8 = Cert.ReferenceIdeal.Hand.result (F := Ideal) a0 a1 a2 a3 a4 a5 a6 a7 a8 := by
  have hsign := Cert.Pre_finite_inputs.Domain.one_sign a0 a1 a2 a3 a4 a5 a6 a7 a8 hpre
  -- the degrees and the gathered degrees, as the reference names them
  let dG : FVec Ideal Cert.ReferenceIdeal.S8192 .f32 := Cert.ReferenceIdeal.Hand.deg (F := Ideal) a0
  let dF : FVec Ideal Cert.ReferenceIdeal.S8192 .f32 :=
    Cert.ReferenceIdeal.Hand.degFirst (F := Ideal) dG (Cert.ReferenceIdeal.Hand.firstIdx (F := Ideal) a2)
  have hsign' : (∀ k : Fin 8192, 0 < dG (ix1 k)) ∨ (∀ k : Fin 8192, dG (ix1 k) < 0) :=
    hsign.imp (fun h k => h (ix1 k)) (fun h k => h (ix1 k))
  have hpos : ∀ i s : Fin 8192, 0 < dF (ix1 i) * dG (ix1 s) := fun i s => by
    obtain ⟨j, hj⟩ := Cert.ReferenceIdeal.Hand.degFirst_mem dG (Cert.ReferenceIdeal.Hand.firstIdx (F := Ideal) a2) i
    show 0 < Cert.ReferenceIdeal.Hand.degFirst (F := Ideal) dG (Cert.ReferenceIdeal.Hand.firstIdx (F := Ideal) a2) (ix1 i) * dG (ix1 s)
    rw [hj]
    exact Cert.Lib.RsqrtDivide.mul_pos_of_same_sign (fun k : Fin 8192 => dG (ix1 k)) hsign' j s
  have hcol : ∀ i : Fin 8192, colK a0 a2 (ix2 i (0 : Fin 1)) = dF (ix1 i) := fun i =>
    Cert.LibKeepdims.shapeCast_a_a1_apply _ _ i 0
  have hrow : ∀ s : Fin 8192, rowK a0 (ix2 (0 : Fin 1) s) = dG (ix1 s) := fun s =>
    Cert.LibRowLayout.shapeCast_b_1b_apply _ _ 0 s
  have hwn : ∀ i s : Fin 8192, Cert.ReferenceIdeal.Hand.normAdj (F := Ideal) a0 a2 (ix2 i s)
      = Ideal.div (a2 (ix2 i s)) (Ideal.sqrt (dF (ix1 i) * dG (ix1 s))) :=
    fun i s => Cert.ReferenceIdeal.Hand.normAdj_apply a0 a2 i s
  -- the first layer
  have hL1 : ∀ hc : Cert.KernelIdeal.S64.ShapeCasts Cert.KernelIdeal.S1x64,
      G0 a2 (colK a0 a2) (rowK a0) a1 a3 (shapeCast Cert.KernelIdeal.S1x64 a4 hc)
        = Cert.ReferenceIdeal.Hand.layer (F := Ideal) Cert.ReferenceIdeal.dot_S8192x8192_S8192x128_S8192x128_1_0_0_1_n_n
            Cert.ReferenceIdeal.dot_S8192x128_S128x64_S8192x64_1_0_0_1_n_n (Cert.ReferenceIdeal.Hand.normAdj (F := Ideal) a0 a2) a1 a3 a4 :=
    fun hc => funext fun idx => by
      obtain ⟨r, o, rfl⟩ : ∃ (r : Fin 8192) (o : Fin 64), idx = ix2 r o := ⟨idx 0, idx 1, eq_ix2 idx⟩
      rw [Cert.ReferenceIdeal.Hand.layer_apply128]
      exact layer_eq slope a2 _ _ dF dG hcol hrow hpos a1 a3 _ a4
        (fun o => Cert.LibRowLayout.shapeCast_b_1b_apply _ _ 0 o) _ hwn r o
  -- the second layer, over any first-layer output
  have hL2 : ∀ (h1 : FVec Ideal Cert.KernelIdeal.S8192x64 .f32) (hc : Cert.KernelIdeal.S64.ShapeCasts Cert.KernelIdeal.S1x64),
      G1 a2 (colK a0 a2) (rowK a0) h1 a5 (shapeCast Cert.KernelIdeal.S1x64 a6 hc)
        = Cert.ReferenceIdeal.Hand.layer (F := Ideal) Cert.ReferenceIdeal.dot_S8192x8192_S8192x64_S8192x64_1_0_0_1_n_n
            Cert.ReferenceIdeal.dot_S8192x64_S64x64_S8192x64_1_0_0_1_n_n (Cert.ReferenceIdeal.Hand.normAdj (F := Ideal) a0 a2) h1 a5 a6 :=
    fun h1 hc => funext fun idx => by
      obtain ⟨r, o, rfl⟩ : ∃ (r : Fin 8192) (o : Fin 64), idx = ix2 r o := ⟨idx 0, idx 1, eq_ix2 idx⟩
      rw [Cert.ReferenceIdeal.Hand.layer_apply64]
      exact layer_eq slope a2 _ _ dF dG hcol hrow hpos h1 a5 _ a6
        (fun o => Cert.LibRowLayout.shapeCast_b_1b_apply _ _ 0 o) _ hwn r o
  -- the classifier
  funext idx
  obtain ⟨r, o, rfl⟩ : ∃ (r : Fin 8192) (o : Fin 16), idx = ix2 r o := ⟨idx 0, idx 1, eq_ix2 idx⟩
  unfold kernelResult Cert.ReferenceIdeal.Hand.result
  rw [hL1, hL2, G2_ix2, Cert.ReferenceIdeal.Hand.logits_softmax_apply]
  unfold clsArr
  refine congrArg (fun x => logSoftmaxRow x o) (funext fun k => ?_)
  rw [Cert.LibRowLayout.shapeCast_b_1b_apply]

end Cert.Proof.Bridge

end
-- ==== Proof.lean ====
/-
  The five claims of this certificate.

  The kernel program, read at machine words and read at the extended reals, and the reference program each run to the end
  without a fault and leave their argument arrays unchanged: each frame is the program's run with the result forgotten.  The
  idealised kernel is the kernel's own text (no rewrite was applied), so nothing is owed for it.  And the two idealised
  programs end with equal results: the kernel's result array is one function of the argument arrays, the reference's is
  another, and under the precondition (finite inputs, the row maxima of the degree matrix all of one strict sign) the two
  functions agree entry by entry.
-/
import proofs.«180336_j68848325755002_1_alg».proof.Defs
import proofs.«180336_j68848325755002_1_alg».proof.Proof.Gen.Kernel
import proofs.«180336_j68848325755002_1_alg».proof.Proof.Gen.KernelIdeal
import proofs.«180336_j68848325755002_1_alg».proof.Proof.Gen.ReferenceIdeal
import proofs.«180336_j68848325755002_1_alg».proof.Proof.Gen.Pre_finite_inputs
import proofs.«180336_j68848325755002_1_alg».proof.Proof.K.Run
import proofs.«180336_j68848325755002_1_alg».proof.Proof.KI.Run
import proofs.«180336_j68848325755002_1_alg».proof.Proof.KI.KernelValue
import proofs.«180336_j68848325755002_1_alg».proof.Proof.Ref.Run
import proofs.«180336_j68848325755002_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ =>
  (θ_run Cert.Kernel.defs _ _).mono (fun _ h c => (h c).2) (Cert.Kernel.Hand.run_main (F := Bits) m ρ)

/-- The idealised kernel runs and keeps its arguments. -/
theorem frame_ki : Cert.frame_KernelIdeal := fun m ρ _ =>
  (θ_run Cert.KernelIdeal.defs _ _).mono (fun _ h c => (h c).2) (Cert.KernelIdeal.Hand.run_main (F := Ideal) m ρ)

/-- The idealised reference runs and keeps its arguments. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments the two idealised programs end with equal results. -/
theorem algebraic : Cert.algebraic_KernelIdeal_ReferenceIdeal := by
  intro m ρ m' ρ' hpre hagree
  refine ⟨fun c => Cert.KernelIdeal.Hand.W8 m ρ c (Proc.devRef .tc Cert.KernelIdeal.main_v18),
    Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8⟩ := hagree c
  rw [e0, e1, e2, e3, e4, e5, e6, e7, e8]
  exact (Cert.Proof.Bridge.kernel_eq_reference _ _ _ _ _ _ _ _ _ (hpre c)).symm.trans
    (Cert.KernelIdeal.Hand.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
